-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S128x128 .f32) (main_arg11 : FVec F S128x128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128x128 .f32) (main_arg8 : FVec F S128x128 .f32) (main_arg9 : FVec F S128x128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x128 .f32) (main_arg1 : IVec S2x500000 32) (main_arg2 : IVec S2x500000 32) (main_arg3 : IVec S2x500000 32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S100000 : Shape := ⟨1, ![100000]⟩
abbrev S500000x1 : Shape := ⟨2, ![500000, 1]⟩
abbrev S2000x128 : Shape := ⟨2, ![2000, 128]⟩
abbrev S500000x128 : Shape := ⟨2, ![500000, 128]⟩
abbrev S100000x1 : Shape := ⟨2, ![100000, 1]⟩
abbrev S1x128 : Shape := ⟨2, ![1, 128]⟩
abbrev S503808x128 : Shape := ⟨2, ![503808, 128]⟩
abbrev S3936x128 : Shape := ⟨2, ![3936, 128]⟩
abbrev S4096x128 : Shape := ⟨2, ![4096, 128]⟩
abbrev S32x128 : Shape := ⟨2, ![32, 128]⟩
abbrev S4096 : Shape := ⟨1, ![4096]⟩
abbrev S503808 : Shape := ⟨1, ![503808]⟩

abbrev nBuf : Space → Nat
  | .hbm => 211
  | .vmem => 60
  | .smem => 0
  | _ => 0

abbrev hbmTy0_0 (i : Nat) : BufTy := match i % 128 with
  | 0 => ⟨S100000x128, .f32⟩
  | 1 => ⟨S2x500000, .i32⟩
  | 2 => ⟨S2x500000, .i32⟩
  | 3 => ⟨S2x500000, .i32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128, .f32⟩
  | 13 => ⟨S128, .f32⟩
  | 14 => ⟨S128, .f32⟩
  | 15 => ⟨S128, .f32⟩
  | 16 => ⟨S1x500000, .i32⟩
  | 17 => ⟨S500000, .i32⟩
  | 18 => ⟨S_, .f32⟩
  | 19 => ⟨S500000, .f32⟩
  | 20 => ⟨S_, .f32⟩
  | 21 => ⟨S100000, .f32⟩
  | 22 => ⟨S500000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S1x500000, .i32⟩
  | 31 => ⟨S500000, .i32⟩
  | 32 => ⟨S_, .f32⟩
  | 33 => ⟨S500000, .f32⟩
  | 34 => ⟨S_, .f32⟩
  | 35 => ⟨S100000, .f32⟩
  | 36 => ⟨S500000x1, .i32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S128x128, .f32⟩
  | 45 => ⟨S128x128, .f32⟩
  | 46 => ⟨S100000x128, .f32⟩
  | 47 => ⟨S100000x128, .f32⟩
  | 48 => ⟨S100000x128, .f32⟩
  | 49 => ⟨S1x500000, .i32⟩
  | 50 => ⟨S500000, .i32⟩
  | 51 => ⟨S1x500000, .i32⟩
  | 52 => ⟨S500000, .i32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S_, .f32⟩
  | 63 => ⟨S100000x128, .f32⟩
  | 64 => ⟨S500000x1, .i32⟩
  | 65 => ⟨S100000x128, .f32⟩
  | 66 => ⟨S100000x1, .f32⟩
  | 67 => ⟨S100000x128, .f32⟩
  | 68 => ⟨S100000x128, .f32⟩
  | 69 => ⟨S1x500000, .i32⟩
  | 70 => ⟨S500000, .i32⟩
  | 71 => ⟨S1x500000, .i32⟩
  | 72 => ⟨S500000, .i32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x128, .f32⟩
  | 82 => ⟨S_, .f32⟩
  | 83 => ⟨S100000x128, .f32⟩
  | 84 => ⟨S500000x1, .i32⟩
  | 85 => ⟨S100000x128, .f32⟩
  | 86 => ⟨S100000x1, .f32⟩
  | 87 => ⟨S100000x128, .f32⟩
  | 88 => ⟨S100000x128, .f32⟩
  | 89 => ⟨S100000x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S100000x128, .f32⟩
  | 113 => ⟨S100000x128, .f32⟩
  | 114 => ⟨S100000x128, .f32⟩
  | 115 => ⟨S100000x128, .f32⟩
  | 116 => ⟨S1x500000, .i32⟩
  | 117 => ⟨S500000, .i32⟩
  | 118 => ⟨S1x500000, .i32⟩
  | 119 => ⟨S500000, .i32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S100000x128, .f32⟩

abbrev hbmTy0_1 (i : Nat) : BufTy := match i % 128 with
  | 0 => ⟨S500000x128, .f32⟩
  | 1 => ⟨S_, .f32⟩
  | 2 => ⟨S100000x128, .f32⟩
  | 3 => ⟨S500000x1, .i32⟩
  | 4 => ⟨S100000x128, .f32⟩
  | 5 => ⟨S100000x1, .f32⟩
  | 6 => ⟨S100000x128, .f32⟩
  | 7 => ⟨S100000x128, .f32⟩
  | 8 => ⟨S1x500000, .i32⟩
  | 9 => ⟨S500000, .i32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x128, .f32⟩
  | 21 => ⟨S_, .f32⟩
  | 22 => ⟨S100000x128, .f32⟩
  | 23 => ⟨S500000x1, .i32⟩
  | 24 => ⟨S100000x128, .f32⟩
  | 25 => ⟨S100000x1, .f32⟩
  | 26 => ⟨S100000x128, .f32⟩
  | 27 => ⟨S100000x128, .f32⟩
  | 28 => ⟨S100000x128, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S100000x128, .f32⟩
  | 52 => ⟨S1x500000, .i32⟩
  | 53 => ⟨S500000, .i32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x128, .f32⟩
  | 63 => ⟨S1x500000, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x128, .f32⟩
  | 74 => ⟨S_, .i32⟩
  | 75 => ⟨S_, .f32⟩
  | 76 => ⟨S503808x128, .f32⟩
  | 77 => ⟨S_, .i32⟩
  | 78 => ⟨S_, .f32⟩
  | 79 => ⟨S503808x128, .f32⟩
  | 80 => ⟨S3936x128, .f32⟩
  | 81 => ⟨S503808, .f32⟩
  | 82 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S4096x128, .f32⟩
  | .local _ .vmem, ⟨55, _⟩ => ⟨S4096x128, .f32⟩
  | .local _ .vmem, ⟨56, _⟩ => ⟨S4096x128, .f32⟩
  | .local _ .vmem, ⟨57, _⟩ => ⟨S4096x128, .f32⟩
  | .local _ .vmem, ⟨58, _⟩ => ⟨S32x128, .f32⟩
  | .local _ .vmem, ⟨59, _⟩ => ⟨S32x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22_0 : Ref sig .tc := ⟨.hbm, 46, rfl⟩
abbrev main_v22_1 : Ref sig .tc := ⟨.hbm, 47, rfl⟩
abbrev main_v22_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57_0 : Ref sig .tc := ⟨.hbm, 89, rfl⟩
abbrev main_v57_1 : Ref sig .tc := ⟨.hbm, 90, rfl⟩
abbrev main_v57_2 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75_0 : Ref sig .tc := ⟨.hbm, 113, rfl⟩
abbrev main_v75_1 : Ref sig .tc := ⟨.hbm, 114, rfl⟩
abbrev main_v75_2 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_16 : Ref sig .tc := ⟨.hbm, 120, rfl⟩
abbrev main_v80 : Ref sig .tc := ⟨.hbm, 121, rfl⟩
abbrev main_v81 : Ref sig .tc := ⟨.hbm, 122, rfl⟩
abbrev main_c_17 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_18 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_19 : Ref sig .tc := ⟨.hbm, 140, rfl⟩
abbrev main_v97 : Ref sig .tc := ⟨.hbm, 141, rfl⟩
abbrev main_v98 : Ref sig .tc := ⟨.hbm, 142, rfl⟩
abbrev main_c_20 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_21 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110_0 : Ref sig .tc := ⟨.hbm, 156, rfl⟩
abbrev main_v110_1 : Ref sig .tc := ⟨.hbm, 157, rfl⟩
abbrev main_v110_2 : Ref sig .tc := ⟨.hbm, 158, rfl⟩
abbrev main_cst_22 : Ref sig .tc := ⟨.hbm, 159, rfl⟩
abbrev main_v111 : Ref sig .tc := ⟨.hbm, 160, rfl⟩
abbrev main_v112 : Ref sig .tc := ⟨.hbm, 161, rfl⟩
abbrev main_cst_23 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_24 : Ref sig .tc := ⟨.hbm, 167, rfl⟩
abbrev main_v117 : Ref sig .tc := ⟨.hbm, 168, rfl⟩
abbrev main_v118 : Ref sig .tc := ⟨.hbm, 169, rfl⟩
abbrev main_cst_25 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_26 : Ref sig .tc := ⟨.hbm, 182, rfl⟩
abbrev main_v130 : Ref sig .tc := ⟨.hbm, 183, rfl⟩
abbrev main_v131 : Ref sig .tc := ⟨.hbm, 184, rfl⟩
abbrev main_c_27 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_c_28 : Ref sig .tc := ⟨.hbm, 193, rfl⟩
abbrev main_v139 : Ref sig .tc := ⟨.hbm, 194, rfl⟩
abbrev main_v140 : Ref sig .tc := ⟨.hbm, 195, rfl⟩
abbrev main_c_29 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_c_30 : Ref sig .tc := ⟨.hbm, 202, rfl⟩
abbrev main_call0_v0 : Ref sig .tc := ⟨.hbm, 203, rfl⟩
abbrev main_v146 : Ref sig .tc := ⟨.hbm, 204, rfl⟩
abbrev main_c_31 : Ref sig .tc := ⟨.hbm, 205, rfl⟩
abbrev main_call1_v0 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg5_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem3_1 : DmaSem sig := 45
abbrev cc4_sem4_0 : DmaSem sig := 46
abbrev cc4_sem5_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![123], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S32x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x500000_S1x500000_0_0 : S2x500000.Slices ![0, 0] S1x500000
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  reduces_S2000x128_S128 : S2000x128.Reduces [0] S128
  shapeCasts_S128_S1x128 : S128.ShapeCasts S1x128
  bcast_S_S1x128 : S_.BroadcastsInDim S1x128 (![] : Fin 0 → Fin S1x128.rank)
  broadcasts_S1x128_S2000x128 : S1x128.Broadcasts S2000x128
  pads_S500000x128_S503808x128_038080_000 : S500000x128.Pads (![0, 0] : Fin 2 → Nat) ![3808, 0] ![0, 0] S503808x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S32x128 : S4096.ShapeCasts S32x128
  inb_S32x128_S32x128_0_0 : ∀ a, (![0, 0] : Fin 2 → Nat) a + S32x128.size a ≤ S32x128.size a
  h_S32x128 : 0 < S32x128.numel
  shapeCasts_S3936x128_S503808 : S3936x128.ShapeCasts S503808
  slices_S503808_S500000_0 : S503808.Slices ![0] S500000
  scatter_S100000_S500000x1_S500000_n_0_0_1_wf : ScatterDims.WF S100000 S500000x1 S500000 [] [0] [0] 1
  dot_S2000x128_S128x128_S2000x128_1_0_0_1_n_n_wf : DotDims.WF S2000x128 S128x128 S2000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S503808x128.size a
  hwx6_0 : ∀ i : grid6.Coords, EltTy.bits .f32 = 32 ∨ (Rect.block (s := S503808x128) S4096x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S503808x128.size a
  hwx6_1 : ∀ i : grid6.Coords, EltTy.bits .f32 = 32 ∨ (Rect.block (s := S503808x128) S4096x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S32x128.size a ≤ S3936x128.size a
  hwx6_2 : ∀ i : grid6.Coords, EltTy.bits .f32 = 32 ∨ (Rect.block (s := S3936x128) S32x128.size (cc6_transform_2 i) (hinb6_2 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_2) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v57_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75_0) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v75_1) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v75_2) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v75_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v109) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v110_0) S2000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v110_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v110_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v110_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v123) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v126) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v146) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v147) S4096x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v148) S32x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 238
  | .vmem => 0
  | .smem => 0
  | _ => 0

abbrev hbmTy0_0 (i : Nat) : BufTy := match i % 128 with
  | 0 => ⟨S100000x128, .f32⟩
  | 1 => ⟨S2x500000, .i32⟩
  | 2 => ⟨S2x500000, .i32⟩
  | 3 => ⟨S2x500000, .i32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128, .f32⟩
  | 13 => ⟨S128, .f32⟩
  | 14 => ⟨S128, .f32⟩
  | 15 => ⟨S128, .f32⟩
  | 16 => ⟨S100000x128, .f32⟩
  | 17 => ⟨S1x500000, .i32⟩
  | 18 => ⟨S500000, .i32⟩
  | 19 => ⟨S1x500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S_, .f32⟩
  | 31 => ⟨S100000x128, .f32⟩
  | 32 => ⟨S500000x1, .i32⟩
  | 33 => ⟨S100000x128, .f32⟩
  | 34 => ⟨S_, .f32⟩
  | 35 => ⟨S500000, .f32⟩
  | 36 => ⟨S_, .f32⟩
  | 37 => ⟨S100000, .f32⟩
  | 38 => ⟨S500000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S1x500000, .i32⟩
  | 50 => ⟨S500000, .i32⟩
  | 51 => ⟨S1x500000, .i32⟩
  | 52 => ⟨S500000, .i32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S_, .f32⟩
  | 63 => ⟨S100000x128, .f32⟩
  | 64 => ⟨S500000x1, .i32⟩
  | 65 => ⟨S100000x128, .f32⟩
  | 66 => ⟨S_, .f32⟩
  | 67 => ⟨S500000, .f32⟩
  | 68 => ⟨S_, .f32⟩
  | 69 => ⟨S100000, .f32⟩
  | 70 => ⟨S500000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S100000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S128, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .i1⟩
  | 114 => ⟨S_, .f32⟩
  | 115 => ⟨S100000x128, .f32⟩
  | 116 => ⟨S100000x128, .f32⟩
  | 117 => ⟨S100000x128, .f32⟩
  | 118 => ⟨S100000x128, .f32⟩
  | 119 => ⟨S1x500000, .i32⟩
  | 120 => ⟨S500000, .i32⟩
  | 121 => ⟨S1x500000, .i32⟩
  | 122 => ⟨S500000, .i32⟩
  | 123 => ⟨S_, .i32⟩
  | 124 => ⟨S500000, .i32⟩
  | 125 => ⟨S500000, .i1⟩
  | 126 => ⟨S_, .i32⟩
  | 127 => ⟨S500000, .i32⟩
  | _ => ⟨S100000x128, .f32⟩

abbrev hbmTy0_1 (i : Nat) : BufTy := match i % 128 with
  | 0 => ⟨S500000, .i32⟩
  | 1 => ⟨S500000, .i32⟩
  | 2 => ⟨S500000x1, .i32⟩
  | 3 => ⟨S500000x128, .f32⟩
  | 4 => ⟨S_, .f32⟩
  | 5 => ⟨S100000x128, .f32⟩
  | 6 => ⟨S500000x1, .i32⟩
  | 7 => ⟨S100000x128, .f32⟩
  | 8 => ⟨S_, .f32⟩
  | 9 => ⟨S500000, .f32⟩
  | 10 => ⟨S_, .f32⟩
  | 11 => ⟨S100000, .f32⟩
  | 12 => ⟨S500000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S100000x128, .f32⟩
  | 21 => ⟨S100000x128, .f32⟩
  | 22 => ⟨S100000x128, .f32⟩
  | 23 => ⟨S1x500000, .i32⟩
  | 24 => ⟨S500000, .i32⟩
  | 25 => ⟨S1x500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S_, .f32⟩
  | 37 => ⟨S100000x128, .f32⟩
  | 38 => ⟨S500000x1, .i32⟩
  | 39 => ⟨S100000x128, .f32⟩
  | 40 => ⟨S_, .f32⟩
  | 41 => ⟨S500000, .f32⟩
  | 42 => ⟨S_, .f32⟩
  | 43 => ⟨S100000, .f32⟩
  | 44 => ⟨S500000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x500000, .i32⟩
  | 86 => ⟨S500000, .i32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S1x500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S500000x128, .f32⟩
  | 108 => ⟨S_, .f32⟩
  | 109 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_cst_21 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_22 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_23 : Ref sig .tc := ⟨.hbm, 155, rfl⟩
abbrev main_v114 : Ref sig .tc := ⟨.hbm, 156, rfl⟩
abbrev main_v115 : Ref sig .tc := ⟨.hbm, 157, rfl⟩
abbrev main_c_24 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_25 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_26 : Ref sig .tc := ⟨.hbm, 168, rfl⟩
abbrev main_v124 : Ref sig .tc := ⟨.hbm, 169, rfl⟩
abbrev main_cst_27 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_28 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_29 : Ref sig .tc := ⟨.hbm, 183, rfl⟩
abbrev main_v136 : Ref sig .tc := ⟨.hbm, 184, rfl⟩
abbrev main_cst_30 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_31 : Ref sig .tc := ⟨.hbm, 192, rfl⟩
abbrev main_v143 : Ref sig .tc := ⟨.hbm, 193, rfl⟩
abbrev main_cst_32 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_33 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_c_34 : Ref sig .tc := ⟨.hbm, 215, rfl⟩
abbrev main_v163 : Ref sig .tc := ⟨.hbm, 216, rfl⟩
abbrev main_v164 : Ref sig .tc := ⟨.hbm, 217, rfl⟩
abbrev main_c_35 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_c_36 : Ref sig .tc := ⟨.hbm, 226, rfl⟩
abbrev main_v172 : Ref sig .tc := ⟨.hbm, 227, rfl⟩
abbrev main_v173 : Ref sig .tc := ⟨.hbm, 228, rfl⟩
abbrev main_c_37 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_cst_38 : Ref sig .tc := ⟨.hbm, 236, rfl⟩
abbrev main_v180 : Ref sig .tc := ⟨.hbm, 237, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S500000x128_S500000_d1 : S500000x128.ReducesTo [1] S500000
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

class Facts : Prop extends Facts₀ where

variable [Facts]
-- ==== Proof.KernelRun.lean ====
/-
  The idealized kernel program's run with its RESULT named: every weakly fair execution of the whole program
  (seven kernel regions among host operations) terminates, and the result array ends holding what the last host
  stretch computes from the contents the last region leaves, the argument arrays unchanged. The contents at each
  boundary are the fold `Gen.W0 … Gen.W17`: a host stretch applies its operations, a region replaces its windows'
  arrays by what its write-backs leave.
-/
import proofs.«151220_j103079215236_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program, the result array read at the last boundary's contents. -/
theorem run : θ_run defs (onTc (τ := τ) (main (F := F))) ⟨m, fun _ => 0, ρ⟩ (fun r => ∀ c : Dev nD,
      r.2.mem ((c.tc : Thread nD τ).loc main_v150) = W17 m ρ c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v150 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c)⟩)

end Cert.KernelIdeal.RunValue

end
-- ==== Proof.Stages.lean ====
/-
  The stages of the two programs as pure functions of arrays over the extended reals, in the operations the programs
  print. Both programs aggregate neighbours the same way — gather the rows of a product at an edge's source (negative
  indices wrapped by the node count), scatter-add them at its destination — and differ in how they scale by the
  clamped in-degree, form the self term, normalise a batch, and sum an edge's products.
-/
import proofs.«151220_j103079215236_2_alg».proof.Proof.Gen.KernelIdeal
import proofs.«151220_j103079215236_2_alg».proof.Proof.Gen.ReferenceIdeal
import Idealize.ShloMosaic.PureOps.Ideal
import Idealize.ShloMosaic.Lib.ValueIdx

noncomputable section

open scoped BigOperators

namespace Cert.Stages

open Cert.KernelIdeal Cert.KernelIdeal.Facts₀ Idealize.ShloMosaic Idealize.ShloMosaic.ValueIdx

/-! ## Shared by both programs: an edge array's two rows as index arrays, the clamped in-degree, the neighbour sum -/

/-- Row 0 of an edge array (the sources), a negative index wrapped by the node count, as a column of start indices. -/
def srcIdx (e : IVec S2x500000 32) : IVec S500000x1 32 :=
  broadcastInDim S500000x1 ![0] bcast_S500000_S500000x1_0
    (select (cmpi .slt (shapeCast _ (extractStridedSlice S1x500000 ![0, 0] e slices_S2x500000_S1x500000_0_0) shapeCasts_S1x500000_S500000)
        (broadcastInDim S500000 ![] bcast_S_S500000 (constantI S_ 32 0#32)))
      (addi (shapeCast _ (extractStridedSlice S1x500000 ![0, 0] e slices_S2x500000_S1x500000_0_0) shapeCasts_S1x500000_S500000)
        (broadcastInDim S500000 ![] bcast_S_S500000 (constantI S_ 32 100000#32)))
      (shapeCast _ (extractStridedSlice S1x500000 ![0, 0] e slices_S2x500000_S1x500000_0_0) shapeCasts_S1x500000_S500000))

/-- Row 1 of an edge array (the destinations), as a column of scatter indices. -/
def dstIdx (e : IVec S2x500000 32) : IVec S500000x1 32 :=
  broadcastInDim S500000x1 ![0] bcast_S500000_S500000x1_0
    (shapeCast _ (extractStridedSlice S1x500000 ![1, 0] e slices_S2x500000_S1x500000_1_0) shapeCasts_S1x500000_S500000)

/-- A node's in-degree, floored at one: ones scatter-added at the destinations, then the maximum with `1.0`. -/
def degree (e : IVec S2x500000 32) : FVec Ideal S100000 .f32 :=
  maximumf (Host.scatterAdd scatter_S100000_S500000x1_S500000_n_0_0_1
      (broadcastInDim S100000 ![] bcast_S_S100000 (constant S_ .f32 0x00000000#32)) (dstIdx e)
      (broadcastInDim S500000 ![] bcast_S_S500000 (constant S_ .f32 0x3F800000#32)))
    (broadcastInDim S100000 ![] bcast_S_S100000 (constant S_ .f32 0x3F800000#32))

/-- A per-node value repeated along a node's 128 features. -/
def perNode (v : FVec Ideal S100000 .f32) : FVec Ideal S100000x128 .f32 :=
  broadcastInDim S100000x128 ![0, 1] bcast_S100000x1_S100000x128_0_1 (broadcastInDim S100000x1 ![0] bcast_S100000_S100000x1_0 v)

/-- The neighbour sum: the rows of `P` gathered at the sources, scatter-added at the destinations onto zeros. -/
def nbrSum (P : FVec Ideal S100000x128 .f32) (e : IVec S2x500000 32) : FVec Ideal S100000x128 .f32 :=
  Host.scatterAdd scatter_S100000x128_S500000x1_S500000x128_1_0_0_1
    (broadcastInDim S100000x128 ![] bcast_S_S100000x128 (constant S_ .f32 0x00000000#32)) (dstIdx e)
    (Host.gather gather_S100000x128_S500000x1_S500000x128_1_0_n_n_0_1_1128 P (srcIdx e))

/-- The reference's neighbour mean: the sum DIVIDED by the clamped in-degree. -/
def nbrMeanR (P : FVec Ideal S100000x128 .f32) (e : IVec S2x500000 32) : FVec Ideal S100000x128 .f32 :=
  Host.divf (nbrSum P e) (perNode (degree e))

/-- The kernel program's reciprocal of the clamped in-degree, computed once per edge type. -/
def invDegree (e : IVec S2x500000 32) : FVec Ideal S100000 .f32 :=
  Host.divf (broadcastInDim S100000 ![] bcast_S_S100000 (constant S_ .f32 0x3F800000#32)) (degree e)

/-- The kernel program's neighbour mean: the sum TIMES a reciprocal in-degree `r`. -/
def nbrMeanK (P : FVec Ideal S100000x128 .f32) (e : IVec S2x500000 32) (r : FVec Ideal S100000 .f32) : FVec Ideal S100000x128 .f32 :=
  mulf (nbrSum P e) (perNode r)

/-! ## The matrix products -/

/-- The host's product of node features with a weight matrix (the reference's `dot_general`). -/
def dotR (X : FVec Ideal S100000x128 .f32) (W : FVec Ideal S128x128 .f32) : FVec Ideal S100000x128 .f32 :=
  Host.dotGeneral Cert.ReferenceIdeal.dot_S100000x128_S128x128_S100000x128_1_0_0_1_n_n none X W

/-- Rows times a matrix, entry by entry: `∑ k, X[r, k] · W[k, c]` (what the kernel's tiled product leaves). -/
def rowsTimes (X : FVec Ideal S100000x128 .f32) (W : FVec Ideal S128x128 .f32) : FVec Ideal S100000x128 .f32 :=
  fun i => ∑ k : Fin 128, X (ix2 (i 0) k) * W (ix2 k (i 1))

/-! ## One layer's sum over the two edge types, before normalisation -/

/-- The reference: per edge type, self term plus neighbour mean; then the sum of the two. -/
def convR (X : FVec Ideal S100000x128 .f32) (e1 e2 : IVec S2x500000 32) (Wn1 Ws1 Wn2 Ws2 : FVec Ideal S128x128 .f32) : FVec Ideal S100000x128 .f32 :=
  addf (addf (dotR X Ws1) (nbrMeanR (dotR X Wn1) e1)) (addf (dotR X Ws2) (nbrMeanR (dotR X Wn2) e2))

/-- The kernel program: ONE self term with the summed self weights, plus the two neighbour means by reciprocals. -/
def convK (X : FVec Ideal S100000x128 .f32) (e1 e2 : IVec S2x500000 32) (Wn1 Ws1 Wn2 Ws2 : FVec Ideal S128x128 .f32)
    (r1 r2 : FVec Ideal S100000 .f32) : FVec Ideal S100000x128 .f32 :=
  fun i => (rowsTimes X (addf Ws1 Ws2) i + nbrMeanK (rowsTimes X Wn1) e1 r1 i) + nbrMeanK (rowsTimes X Wn2) e2 r2 i

/-! ## Batch normalisation over the 100000 nodes -/

/-- A per-feature row repeated over the nodes (the reference's two broadcasts of a `[128]` vector). -/
def perFeatureR (v : FVec Ideal S128 .f32) : FVec Ideal S100000x128 .f32 :=
  broadcastInDim S100000x128 ![0, 1] Cert.ReferenceIdeal.Facts₀.bcast_S1x128_S100000x128_0_1
    (broadcastInDim S1x128 ![1] Cert.ReferenceIdeal.Facts₀.bcast_S128_S1x128_1 v)

/-- The reference's column mean: the sum over the nodes divided by `100000.0`. -/
def meanR (H : FVec Ideal S100000x128 .f32) : FVec Ideal S128 .f32 :=
  Host.divf (Host.reduceAdd H (constant S_ .f32 0x00000000#32) Cert.ReferenceIdeal.Facts₀.reducesTo_S100000x128_S128_d0 Cert.ReferenceIdeal.Facts₀.h_S_)
    (broadcastInDim S128 ![] Cert.ReferenceIdeal.Facts₀.bcast_S_S128 (constant S_ .f32 0x47C35000#32))

/-- The reference's batch normalisation, centred form: `(H - μ) · rsqrt (mean ((H - μ)²) + ε) · g + b`. -/
def bnR (H : FVec Ideal S100000x128 .f32) (g b : FVec Ideal S128 .f32) : FVec Ideal S100000x128 .f32 :=
  addf (mulf (mulf (subf H (perFeatureR (meanR H)))
      (perFeatureR (Host.rsqrt (addf (meanR (mulf (subf H (perFeatureR (meanR H))) (subf H (perFeatureR (meanR H)))))
        (broadcastInDim S128 ![] Cert.ReferenceIdeal.Facts₀.bcast_S_S128 (constant S_ .f32 0x3727C5AC#32))))))
      (perFeatureR g)) (perFeatureR b)

/-- The reference's leaky rectifier: `y` where `y > 0`, else `slope · y`. -/
def leakyR (Y : FVec Ideal S100000x128 .f32) : FVec Ideal S100000x128 .f32 :=
  select (cmpf .ogt Y (broadcastInDim S100000x128 ![] bcast_S_S100000x128 (constant S_ .f32 0x00000000#32)))
    Y (mulf (broadcastInDim S100000x128 ![] bcast_S_S100000x128 (constant S_ .f32 0x3C23D70A#32)) Y)

/-- The kernel program's column mean from an accumulated row of sums. -/
def meanK (s : FVec Ideal S1x128 .f32) : FVec Ideal S1x128 .f32 :=
  Host.divf s (broadcastInDim S1x128 ![] bcast_S_S1x128 (constant S_ .f32 0x47C35000#32))

/-- The kernel program's scale: `g · rsqrt (max (mean of squares - mean², 0) + ε)`. -/
def scaleK (s q : FVec Ideal S1x128 .f32) (g : FVec Ideal S128 .f32) : FVec Ideal S1x128 .f32 :=
  mulf (shapeCast _ g shapeCasts_S128_S1x128)
    (Host.rsqrt (addf (maximumf (subf (meanK q) (mulf (meanK s) (meanK s)))
        (broadcastInDim S1x128 ![] bcast_S_S1x128 (constant S_ .f32 0x00000000#32)))
      (broadcastInDim S1x128 ![] bcast_S_S1x128 (constant S_ .f32 0x3727C5AC#32))))

/-- The kernel program's shift: `b - mean · scale`. -/
def shiftK (s q : FVec Ideal S1x128 .f32) (g b : FVec Ideal S128 .f32) : FVec Ideal S1x128 .f32 :=
  subf (shapeCast _ b shapeCasts_S128_S1x128) (mulf (meanK s) (scaleK s q g))

/-- The column sums of an array over the 100000 nodes, as a `[1, 128]` row (what the reduction kernel accumulates). -/
def colSum (H : S100000x128.Idx → EReal) : S1x128.Idx → EReal :=
  fun i => ∑ r : Fin 100000, H (ix2 r (i 1))

/-- The kernel program's affine normalisation `H · scale + shift`. -/
def affineK (H : S100000x128.Idx → EReal) (scale shift : S1x128.Idx → EReal) : S100000x128.Idx → EReal :=
  fun i => H i * scale (ix2 0 (i 1)) + shift (ix2 0 (i 1))

/-- The kernel's leaky rectifier on one entry. -/
def leakyK (y : EReal) : EReal :=
  Scalar.select (Ideal.cmp .ogt y (Ideal.ofBits .f32 0x00000000#32)) y (Ideal.ofBits .f32 0x3C23D70A#32 * y)

/-! ## The edge scores -/

/-- The label edges' endpoints gathered from the node features (both programs: the same gather). -/
def endpoint0 (H : FVec Ideal S100000x128 .f32) (e : IVec S2x500000 32) : FVec Ideal S500000x128 .f32 :=
  Host.gather gather_S100000x128_S500000x1_S500000x128_1_0_n_n_0_1_1128 H (srcIdx e)

/-- The second endpoint: row 1 of the label edges, wrapped the same way. -/
def endpoint1 (H : FVec Ideal S100000x128 .f32) (e : IVec S2x500000 32) : FVec Ideal S500000x128 .f32 :=
  Host.gather gather_S100000x128_S500000x1_S500000x128_1_0_n_n_0_1_1128 H
    (broadcastInDim S500000x1 ![0] bcast_S500000_S500000x1_0
      (select (cmpi .slt (shapeCast _ (extractStridedSlice S1x500000 ![1, 0] e slices_S2x500000_S1x500000_1_0) shapeCasts_S1x500000_S500000)
          (broadcastInDim S500000 ![] bcast_S_S500000 (constantI S_ 32 0#32)))
        (addi (shapeCast _ (extractStridedSlice S1x500000 ![1, 0] e slices_S2x500000_S1x500000_1_0) shapeCasts_S1x500000_S500000)
          (broadcastInDim S500000 ![] bcast_S_S500000 (constantI S_ 32 100000#32)))
        (shapeCast _ (extractStridedSlice S1x500000 ![1, 0] e slices_S2x500000_S1x500000_1_0) shapeCasts_S1x500000_S500000)))

/-- The reference's scores: the lane sum of the products of the two endpoints' rows. -/
def scoreR (H : FVec Ideal S100000x128 .f32) (e : IVec S2x500000 32) : FVec Ideal S500000 .f32 :=
  Host.reduceAdd (mulf (endpoint0 H e) (endpoint1 H e)) (constant S_ .f32 0x00000000#32)
    Cert.ReferenceIdeal.Facts₀.reducesTo_S500000x128_S500000_d1 Cert.ReferenceIdeal.Facts₀.h_S_

end Cert.Stages

end
-- ==== Proof.RefFold.lean ====
/- The reference's fold of its 222 host operations, read in stages.

   The reference computes two graph-convolution layers, each followed by a batch normalisation (the first also by a
   leaky rectifier), then scores the label edges. Its result buffer after the operations is the un-evaluated fold
   `StableHlo.after ops V`. Four intermediate values are each read several times (the first layer's sum, the
   rectified normalised features, the second layer's sum, its normalisation), so the fold is never opened as one
   term: the list is cut after the operation that writes each of them, each stretch is read on its own for an arbitrary
   valuation of the buffers as ONE stage function of the buffers it reads (`stage1` … `stage5`), no operation writes an
   argument buffer (`writes_not_args`, `keeps`), and the five readings are chained (`ref_result`). -/
import proofs.«151220_j103079215236_2_alg».proof.Proof.RefRun
import proofs.«151220_j103079215236_2_alg».proof.Proof.Stages
import Idealize.ShloMosaic.Lib.StableHlo.Run

noncomputable section

namespace Cert.RefFold

open Cert.ReferenceIdeal Idealize.ShloMosaic Idealize.ShloMosaic.TcCoe Idealize.SL.Sem Idealize.ShloMosaic.StableHlo

/-- The reference's operations at the extended reals. -/
abbrev opsI : List (HloOp τ sig (Elt Ideal)) := Cert.ReferenceIdeal.Value.ops (F := Ideal)

/-! ## Cutting a fold -/

/-- The fold over a concatenation is the fold over the second list from the fold over the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- So a fold can be cut after its first `n` operations. -/
theorem after_split (n : Nat) (l : List (HloOp τ sig (Elt Ideal))) (V : Valuation τ sig (Elt Ideal)) :
    after l V = after (l.drop n) (after (l.take n) V) := by
  conv_lhs => rw [← List.take_append_drop n l]
  exact after_append _ _ _

/-! ## The five stretches, each read for an arbitrary valuation `W` -/

/-- Operations 0 … 64: the first layer's sum over the two edge types, of the node features and the four weights. -/
theorem stage1 (W : Valuation τ sig (Elt Ideal)) :
    after (opsI.take 65) W (Proc.devRef .tc main_v52)
      = Cert.Stages.convR (W (Proc.devRef .tc main_arg0)) (W (Proc.devRef .tc main_arg1)) (W (Proc.devRef .tc main_arg2))
          (W (Proc.devRef .tc main_arg4)) (W (Proc.devRef .tc main_arg5)) (W (Proc.devRef .tc main_arg6)) (W (Proc.devRef .tc main_arg7)) := by
  simp only [opsI, Cert.ReferenceIdeal.Value.ops, List.take_succ_cons, List.take_zero]
  after_results_simp
  rfl

/-- Operations 65 … 101: the batch normalisation of the first layer's sum, then the leaky rectifier. -/
theorem stage2 (W : Valuation τ sig (Elt Ideal)) :
    after ((opsI.drop 65).take 37) W (Proc.devRef .tc main_v82)
      = Cert.Stages.leakyR (Cert.Stages.bnR (W (Proc.devRef .tc main_v52)) (W (Proc.devRef .tc main_arg12)) (W (Proc.devRef .tc main_arg13))) := by
  simp only [opsI, Cert.ReferenceIdeal.Value.ops, List.drop_succ_cons, List.drop_zero, List.take_succ_cons, List.take_zero]
  after_results_simp
  rfl

/-- Operations 102 … 166: the second layer's sum, of the rectified features and the second four weights. -/
theorem stage3 (W : Valuation τ sig (Elt Ideal)) :
    after (((opsI.drop 65).drop 37).take 65) W (Proc.devRef .tc main_v135)
      = Cert.Stages.convR (W (Proc.devRef .tc main_v82)) (W (Proc.devRef .tc main_arg1)) (W (Proc.devRef .tc main_arg2))
          (W (Proc.devRef .tc main_arg8)) (W (Proc.devRef .tc main_arg9)) (W (Proc.devRef .tc main_arg10)) (W (Proc.devRef .tc main_arg11)) := by
  simp only [opsI, Cert.ReferenceIdeal.Value.ops, List.drop_succ_cons, List.drop_zero, List.take_succ_cons, List.take_zero]
  after_results_simp
  rfl

/-- Operations 167 … 196: the batch normalisation of the second layer's sum. -/
theorem stage4 (W : Valuation τ sig (Elt Ideal)) :
    after ((((opsI.drop 65).drop 37).drop 65).take 30) W (Proc.devRef .tc main_v160)
      = Cert.Stages.bnR (W (Proc.devRef .tc main_v135)) (W (Proc.devRef .tc main_arg14)) (W (Proc.devRef .tc main_arg15)) := by
  simp only [opsI, Cert.ReferenceIdeal.Value.ops, List.drop_succ_cons, List.drop_zero, List.take_succ_cons, List.take_zero]
  after_results_simp
  rfl

/-- Operations 197 … 221: the label edges' scores, of the normalised features and the label edges. -/
theorem stage5 (W : Valuation τ sig (Elt Ideal)) :
    after ((((opsI.drop 65).drop 37).drop 65).drop 30) W (Proc.devRef .tc main_v180)
      = Cert.Stages.scoreR (W (Proc.devRef .tc main_v160)) (W (Proc.devRef .tc main_arg3)) := by
  simp only [opsI, Cert.ReferenceIdeal.Value.ops, List.drop_succ_cons, List.drop_zero]
  after_results_simp
  rfl

/-! ## No operation writes an argument -/

/-- The arguments read after the first stretch. -/
abbrev argRefs : List (Ref sig .tc) :=
  [main_arg1, main_arg2, main_arg3, main_arg8, main_arg9, main_arg10, main_arg11, main_arg12, main_arg13, main_arg14, main_arg15]

/-- Every buffer an operation writes is a reference that is none of those arguments (decided reference by reference). -/
theorem writes_not_args : opsI.Forall fun op => ∀ b ∈ op.writes, ∃ r : Ref sig .tc, b = Proc.devRef .tc r ∧ r ∉ argRefs := by
  simp only [opsI, Cert.ReferenceIdeal.Value.ops, List.Forall, nullary_writes, unary_writes, binary_writes, ternary_writes,
    reshape_writes, Finset.mem_singleton, forall_eq]
  repeat' apply And.intro
  all_goals exact ⟨_, rfl, by decide⟩

/-- So the fold over any part of the list keeps those arguments' buffers. -/
theorem keeps (l : List (HloOp τ sig (Elt Ideal))) (hl : ∀ op ∈ l, op ∈ opsI) (W : Valuation τ sig (Elt Ideal))
    (a : Ref sig .tc) (ha : a ∈ argRefs) : after l W (Proc.devRef .tc a) = W (Proc.devRef .tc a) :=
  after_of_forall_not_mem l W fun op hop hb => by
    obtain ⟨r, hr, hnot⟩ := (List.forall_iff_forall_mem.mp writes_not_args) op (hl op hop) _ hb
    exact hnot (Proc.devRef_injective _ hr ▸ ha)

theorem sub1 : ∀ op ∈ opsI.take 65, op ∈ opsI := fun _ h => List.mem_of_mem_take h
theorem sub2 : ∀ op ∈ (opsI.drop 65).take 37, op ∈ opsI := fun _ h => List.mem_of_mem_drop (List.mem_of_mem_take h)
theorem sub3 : ∀ op ∈ ((opsI.drop 65).drop 37).take 65, op ∈ opsI :=
  fun _ h => List.mem_of_mem_drop (List.mem_of_mem_drop (List.mem_of_mem_take h))
theorem sub4 : ∀ op ∈ (((opsI.drop 65).drop 37).drop 65).take 30, op ∈ opsI :=
  fun _ h => List.mem_of_mem_drop (List.mem_of_mem_drop (List.mem_of_mem_drop (List.mem_of_mem_take h)))

/-! ## The chain -/

/-- THE REFERENCE'S RESULT for an arbitrary valuation `V` of the buffers: the scores of the label edges on the second
    layer's normalised sum, which is taken on the rectified normalised first layer's sum. -/
theorem ref_result (V : Valuation τ sig (Elt Ideal)) :
    after opsI V (Proc.devRef .tc main_v180)
      = Cert.Stages.scoreR
          (Cert.Stages.bnR
            (Cert.Stages.convR
              (Cert.Stages.leakyR (Cert.Stages.bnR
                (Cert.Stages.convR (V (Proc.devRef .tc main_arg0)) (V (Proc.devRef .tc main_arg1)) (V (Proc.devRef .tc main_arg2))
                  (V (Proc.devRef .tc main_arg4)) (V (Proc.devRef .tc main_arg5)) (V (Proc.devRef .tc main_arg6)) (V (Proc.devRef .tc main_arg7)))
                (V (Proc.devRef .tc main_arg12)) (V (Proc.devRef .tc main_arg13))))
              (V (Proc.devRef .tc main_arg1)) (V (Proc.devRef .tc main_arg2))
              (V (Proc.devRef .tc main_arg8)) (V (Proc.devRef .tc main_arg9)) (V (Proc.devRef .tc main_arg10)) (V (Proc.devRef .tc main_arg11)))
            (V (Proc.devRef .tc main_arg14)) (V (Proc.devRef .tc main_arg15)))
          (V (Proc.devRef .tc main_arg3)) := by
  rw [after_split 65 opsI V, after_split 37 (opsI.drop 65), after_split 65 ((opsI.drop 65).drop 37),
    after_split 30 (((opsI.drop 65).drop 37).drop 65)]
  rw [stage5, stage4, stage3, stage2, stage1]
  have k1 := keeps (opsI.take 65) sub1 V
  have k2 := keeps ((opsI.drop 65).take 37) sub2 (after (opsI.take 65) V)
  have k3 := keeps (((opsI.drop 65).drop 37).take 65) sub3 (after ((opsI.drop 65).take 37) (after (opsI.take 65) V))
  have k4 := keeps ((((opsI.drop 65).drop 37).drop 65).take 30) sub4
    (after (((opsI.drop 65).drop 37).take 65) (after ((opsI.drop 65).take 37) (after (opsI.take 65) V)))
  rw [k4 main_arg3 (by decide), k3 main_arg3 (by decide), k2 main_arg3 (by decide), k1 main_arg3 (by decide),
    k3 main_arg14 (by decide), k2 main_arg14 (by decide), k1 main_arg14 (by decide),
    k3 main_arg15 (by decide), k2 main_arg15 (by decide), k1 main_arg15 (by decide),
    k2 main_arg1 (by decide), k1 main_arg1 (by decide), k2 main_arg2 (by decide), k1 main_arg2 (by decide),
    k2 main_arg8 (by decide), k1 main_arg8 (by decide), k2 main_arg9 (by decide), k1 main_arg9 (by decide),
    k2 main_arg10 (by decide), k1 main_arg10 (by decide), k2 main_arg11 (by decide), k1 main_arg11 (by decide),
    k1 main_arg12 (by decide), k1 main_arg13 (by decide)]

end Cert.RefFold

end
-- ==== Proof.KernelHost.lean ====
/-
  What each stretch of host operations of the kernel program computes, for ANY contents `W` of the buffers it starts
  from: the reciprocal in-degrees and the summed self weights (before the first product), the two neighbour means
  (after a product), the scale and shift (after a reduction), the padded endpoint rows (before the score kernel),
  and the final reshape and slice.
-/
import proofs.«151220_j103079215236_2_alg».proof.Proof.Gen.KernelIdeal.Launch
import proofs.«151220_j103079215236_2_alg».proof.Proof.Stages
import Idealize.ShloMosaic.Lib.StableHlo.Run

set_option maxRecDepth 16384

noncomputable section

namespace Cert.KernelIdeal.HostValue

open Cert.KernelIdeal Cert.KernelIdeal.Gen Cert.Stages Idealize.ShloMosaic Idealize.ShloMosaic.StableHlo

variable (W : Valuation τ sig (Elt Ideal))

/-! ## Before the first product -/

theorem h0_invdeg1 : after (hostOps0 (F := Ideal)) W (Proc.devRef .tc main_v9) = invDegree (W (Proc.devRef .tc main_arg1)) := by
  after_results
  rfl

theorem h0_invdeg2 : after (hostOps0 (F := Ideal)) W (Proc.devRef .tc main_v19) = invDegree (W (Proc.devRef .tc main_arg2)) := by
  after_results
  rfl

theorem h0_self1 : after (hostOps0 (F := Ideal)) W (Proc.devRef .tc main_v20) = (addf (W (Proc.devRef .tc main_arg5) : FVec Ideal S128x128 .f32) (W (Proc.devRef .tc main_arg7)) : FVec Ideal S128x128 .f32) := by
  after_results_simp

theorem h0_self2 : after (hostOps0 (F := Ideal)) W (Proc.devRef .tc main_v21) = (addf (W (Proc.devRef .tc main_arg9) : FVec Ideal S128x128 .f32) (W (Proc.devRef .tc main_arg11)) : FVec Ideal S128x128 .f32) := by
  after_results_simp

/-! ## After a product: the two neighbour means, by the reciprocal in-degrees computed once -/

theorem h1_mean1 : after (hostOps1 (F := Ideal)) W (Proc.devRef .tc main_v39)
    = nbrMeanK (W (Proc.devRef .tc main_v22_1)) (W (Proc.devRef .tc main_arg1)) (W (Proc.devRef .tc main_v9)) := by
  after_results_simp
  rfl

theorem h1_mean2 : after (hostOps1 (F := Ideal)) W (Proc.devRef .tc main_v56)
    = nbrMeanK (W (Proc.devRef .tc main_v22_2)) (W (Proc.devRef .tc main_arg2)) (W (Proc.devRef .tc main_v19)) := by
  after_results_simp
  rfl

theorem h4_mean1 : after (hostOps4 (F := Ideal)) W (Proc.devRef .tc main_v92)
    = nbrMeanK (W (Proc.devRef .tc main_v75_1)) (W (Proc.devRef .tc main_arg1)) (W (Proc.devRef .tc main_v9)) := by
  after_results_simp
  rfl

theorem h4_mean2 : after (hostOps4 (F := Ideal)) W (Proc.devRef .tc main_v109)
    = nbrMeanK (W (Proc.devRef .tc main_v75_2)) (W (Proc.devRef .tc main_arg2)) (W (Proc.devRef .tc main_v19)) := by
  after_results_simp
  rfl

/-! ## After a reduction: the scale and the shift of the affine normalisation -/

theorem h2_scale : after (hostOps2 (F := Ideal)) W (Proc.devRef .tc main_v70)
    = scaleK (W (Proc.devRef .tc main_v57_1)) (W (Proc.devRef .tc main_v57_2)) (W (Proc.devRef .tc main_arg12)) := by
  after_results_simp
  rfl

theorem h2_shift : after (hostOps2 (F := Ideal)) W (Proc.devRef .tc main_v73)
    = shiftK (W (Proc.devRef .tc main_v57_1)) (W (Proc.devRef .tc main_v57_2)) (W (Proc.devRef .tc main_arg12)) (W (Proc.devRef .tc main_arg13)) := by
  after_results_simp
  rfl

theorem h5_scale : after (hostOps5 (F := Ideal)) W (Proc.devRef .tc main_v123)
    = scaleK (W (Proc.devRef .tc main_v110_1)) (W (Proc.devRef .tc main_v110_2)) (W (Proc.devRef .tc main_arg14)) := by
  after_results_simp
  rfl

theorem h5_shift : after (hostOps5 (F := Ideal)) W (Proc.devRef .tc main_v126)
    = shiftK (W (Proc.devRef .tc main_v110_1)) (W (Proc.devRef .tc main_v110_2)) (W (Proc.devRef .tc main_arg14)) (W (Proc.devRef .tc main_arg15)) := by
  after_results_simp
  rfl

/-! ## Before the score kernel: the two endpoints' rows, padded with zero rows to a whole number of tiles -/

/-- 3808 zero rows appended (the pad value is the integer `0` converted to a float). -/
def padRows (Z : FVec Ideal S500000x128 .f32) : FVec Ideal S503808x128 .f32 :=
  pad S503808x128 ![0, 0] ![3808, 0] ![0, 0] Z (sitofp .f32 (constantI S_ 32 0#32)) Facts₀.pads_S500000x128_S503808x128_038080_000 Facts₀.h_S_

theorem h6_end0 : after (hostOps6 (F := Ideal)) W (Proc.devRef .tc main_v136) = endpoint0 (W (Proc.devRef .tc main_v127)) (W (Proc.devRef .tc main_arg3)) := by
  after_results_simp
  rfl

theorem h6_end1 : after (hostOps6 (F := Ideal)) W (Proc.devRef .tc main_v145) = endpoint1 (W (Proc.devRef .tc main_v127)) (W (Proc.devRef .tc main_arg3)) := by
  after_results_simp
  rfl

theorem h6_c30 : after (hostOps6 (F := Ideal)) W (Proc.devRef .tc main_c_30) = constantI S_ 32 0#32 := by
  after_results_simp

theorem h61_pad0 : after (hostOps6_1 (F := Ideal)) W (Proc.devRef .tc main_v146)
    = pad S503808x128 ![0, 0] ![3808, 0] ![0, 0] (W (Proc.devRef .tc main_v136) : FVec Ideal S500000x128 .f32) (sitofp .f32 (W (Proc.devRef .tc main_c_30) : IVec S_ 32) : FVec Ideal S_ .f32) Facts₀.pads_S500000x128_S503808x128_038080_000 Facts₀.h_S_ := by
  after_results
  rfl

theorem h62_c31 : after (hostOps6_2 (F := Ideal)) W (Proc.devRef .tc main_c_31) = constantI S_ 32 0#32 := by
  after_results

theorem h63_pad1 : after (hostOps6_3 (F := Ideal)) W (Proc.devRef .tc main_v147)
    = pad S503808x128 ![0, 0] ![3808, 0] ![0, 0] (W (Proc.devRef .tc main_v145) : FVec Ideal S500000x128 .f32) (sitofp .f32 (W (Proc.devRef .tc main_c_31) : IVec S_ 32) : FVec Ideal S_ .f32) Facts₀.pads_S500000x128_S503808x128_038080_000 Facts₀.h_S_ := by
  after_results
  rfl

/-! ## After the score kernel: the tiles laid out flat, the padding cut off -/

theorem h7_out : after (hostOps7 (F := Ideal)) W (Proc.devRef .tc main_v150)
    = extractStridedSlice S500000 ![0] (shapeCast _ (W (Proc.devRef .tc main_v148)) Facts₀.shapeCasts_S3936x128_S503808) Facts₀.slices_S503808_S500000_0 := by
  after_results
  rfl

end Cert.KernelIdeal.HostValue

end
-- ==== Proof.MatmulRegion0.lean ====
import proofs.«151220_j103079215236_2_alg».proof.Proof.Gen.KernelIdeal.Frame
import Idealize.ShloMosaic.Lib.Pipeline.Value
import Idealize.ShloMosaic.Lib.ValueIdx
import Idealize.ShloMosaic.PureOps.Ideal.Laws

/-! # Region 0: the three products of the node features with a weight matrix

Each of the region's three results is the matrix product of the region's first input, a 100000 × 128 array `X`, with one
of its three 128 × 128 inputs `W`: entry `(r, c)` is `∑ k, X (r, k) * W (k, c)` on the extended reals, where a change
of float format is the identity. The region walks `X` in 50 blocks of 2000 rows; block `t` of a result depends on block `t`
of `X` and on the whole of `W`, and the 50 row blocks cover the result. -/

noncomputable section

namespace Cert.KernelIdeal.MatmulRegion0

open Cert.KernelIdeal Cert.KernelIdeal.Gen Idealize.ShloMosaic Idealize.ShloMosaic.ValueIdx Idealize.ShloMosaic.TcCoe Idealize.SL.Sem
open Idealize.ShloMosaic.Pipeline (Dat)

/-! ## One block's product at an entry -/

/-- The contraction's dimension numbers: axis 1 of the left operand against axis 0 of the right. -/
abbrev D := dot_S2000x128_S128x128_S2000x128_1_0_0_1_n_n

/-- The left operand is read in the result's row. -/
theorem lhs_row (r : Fin 2000) (c : Fin 128) (q : D.contr.Idx) : (D.lhsIdx (ix2 r c) q 0).val = r.val := by
  unfold DotDims.lhsIdx
  rw [dif_neg (show ¬(0 : Fin S2000x128.rank) ∈ D.lhsBatch by decide), dif_pos (show (0 : Fin S2000x128.rank) ∈ D.lhsNonContracting by decide)]
  rfl

/-- The right operand is read in the result's column. -/
theorem rhs_col (r : Fin 2000) (c : Fin 128) (q : D.contr.Idx) : (D.rhsIdx (ix2 r c) q 1).val = c.val := by
  unfold DotDims.rhsIdx
  rw [dif_neg (show ¬(1 : Fin S128x128.rank) ∈ D.rhsBatch by decide), dif_pos (show (1 : Fin S128x128.rank) ∈ D.rhsNonContracting by decide)]
  rfl

/-- A product into a zero accumulator, entry by entry: row `r` of the left operand against column `c` of the right,
    summed over the one contracted axis. -/
theorem dot_apply (x : FVec Ideal S2000x128 .bf16) (w : FVec Ideal S128x128 .bf16) (r : Fin 2000) (c : Fin 128) :
    matmul D none x w (constant S2000x128 .f32 0x00000000#32) (ix2 r c)
      = ∑ k : Fin 128, x (ix2 r k) * w (ix2 k c) := by
  refine (Ideal.matmul_constant_zero_apply D none x w (ix2 r c)).trans ?_
  rw [← Equiv.sum_comp (contrEquiv1 D 128 rfl rfl).symm]
  refine Finset.sum_congr rfl fun k _ => ?_
  have hk := contrEquiv1_symm_val D 128 rfl rfl k
  have el : D.lhsIdx (ix2 r c) ((contrEquiv1 D 128 rfl rfl).symm k) = ix2 r k := funext fun a => Fin.ext (by
    match a with
    | ⟨0, _⟩ => exact lhs_row r c _
    | ⟨1, _⟩ => exact (D.lhsIdx_val_of_single rfl (ix2 r c) _).trans hk)
  have er : D.rhsIdx (ix2 r c) ((contrEquiv1 D 128 rfl rfl).symm k) = ix2 k c := funext fun a => Fin.ext (by
    match a with
    | ⟨0, _⟩ => exact (D.rhsIdx_val_of_single rfl (ix2 r c) _).trans hk
    | ⟨1, _⟩ => exact rhs_col r c _)
  rw [el, er]

/-- The body's first product at an entry: the changes of float format and the reshapes of a shape to itself are the
    identity on the extended reals. -/
theorem pay2_apply (x : Vec Ideal S2000x128 .f32) (w : Vec Ideal S128x128 .f32) (r : Fin 2000) (c : Fin 128) :
    k0_pay2 (F := Ideal) x w (ix2 r c) = ∑ k : Fin 128, x (ix2 r k) * w (ix2 k c) := by
  unfold k0_pay2 k0_pay1
  refine (dot_apply _ _ r c).trans ?_
  rw [shapeCast_self]
  rfl

/-- The body's second product at an entry. -/
theorem pay3_apply (x : Vec Ideal S2000x128 .f32) (w : Vec Ideal S128x128 .f32) (r : Fin 2000) (c : Fin 128) :
    k0_pay3 (F := Ideal) x w (ix2 r c) = ∑ k : Fin 128, x (ix2 r k) * w (ix2 k c) := by
  unfold k0_pay3 k0_pay1
  exact dot_apply _ _ r c

/-- The body's third product at an entry. -/
theorem pay4_apply (x : Vec Ideal S2000x128 .f32) (w : Vec Ideal S128x128 .f32) (r : Fin 2000) (c : Fin 128) :
    k0_pay4 (F := Ideal) x w (ix2 r c) = ∑ k : Fin 128, x (ix2 r k) * w (ix2 k c) := by
  unfold k0_pay4 k0_pay1
  exact dot_apply _ _ r c

/-! ## From one block to the whole array -/

/-- The whole-array product: entry `i` is row `i 0` of `X` against column `i 1` of `W`. -/
abbrev rowsTimes (X : S100000x128.Idx → Elt Ideal .f32) (W : S128x128.Idx → Elt Ideal .f32) : S100000x128.Idx → Elt Ideal .f32 :=
  fun i => ∑ k : Fin 128, X (ix2 (i 0) k) * W (ix2 k (i 1))

/-- The whole-array product read at an index. -/
theorem rowsTimes_apply (X : S100000x128.Idx → Elt Ideal .f32) (W : S128x128.Idx → Elt Ideal .f32) (i : S100000x128.Idx) :
    rowsTimes X W i = ∑ k : Fin 128, X (ix2 (i 0) k) * W (ix2 k (i 1)) := rfl

/-- A block's product at entry `(r, c)` is the whole-array product at `(ρ, c)` as soon as row `r` of the row block is row `ρ`
    of `X` and the weight block is `W`. -/
theorem sum_eq_rowsTimes (X : S100000x128.Idx → Elt Ideal .f32) (W : S128x128.Idx → Elt Ideal .f32)
    (x : Vec Ideal S2000x128 .f32) (w : Vec Ideal S128x128 .f32) (r : Fin 2000) (c : Fin 128) (ρ : Fin 100000)
    (hx : ∀ k : Fin 128, x (ix2 r k) = X (ix2 ρ k)) (hw : ∀ k : Fin 128, w (ix2 k c) = W (ix2 k c)) :
    (∑ k : Fin 128, x (ix2 r k) * w (ix2 k c)) = rowsTimes X W (ix2 ρ c) :=
  Finset.sum_congr rfl fun k _ => by rw [hx k, hw k]

theorem hz : (![0, 0] : Fin 2 → Nat) = fun _ => 0 := funext fun a => by fin_cases a <;> rfl

/-- The index maps, decided over the 50 grid points: the row-block input and the three results move together along the
    rows, through row blocks 0 … 49, and stay at column block 0; the three weight inputs stay at block (0, 0). -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0
    ∧ win0_5.index t (0 : Fin 2) = win0_4.index t (0 : Fin 2) ∧ win0_5.index t (1 : Fin 2) = 0
    ∧ win0_6.index t (0 : Fin 2) = win0_4.index t (0 : Fin 2) ∧ win0_6.index t (1 : Fin 2) = 0
    ∧ win0_4.index t (0 : Fin 2) ≤ 49 :=
  (by decide +kernel : ∀ t : Fin grid0.N, _)

/-- Every one of the 50 row blocks is some point's. -/
theorem idx_onto : ∀ (q0 : Fin 50) (q1 : Fin 1), ∃ t : Fin cfg0.N, win0_4.index t = ![q0.val + 0, q1.val + 0] :=
  (by decide +kernel : ∀ (q0 : Fin 50) (q1 : Fin 1), ∃ t : Fin grid0.N, win0_4.index t = ![q0.val + 0, q1.val + 0])

variable (V : (c : Dev nD) → (b : Ref sig .tc) → Buf (Elt Ideal) ((c : Thread nD τ).loc b))

/-! ## The input blocks, read off the arrays -/

/-- Row `r` of the row block at point `t` is row `ρ` of window 0's array, `ρ` = the point's row block × 2000 + `r`. -/
theorem xblk_apply (c : Dev nD) (t : Fin cfg0.N) (r : Fin 2000) (k : Fin 128) (ρ : Fin 100000)
    (h : ρ.val = win0_0.index t (0 : Fin 2) * 2000 + r.val) :
    iblk0 V c 0 t (ix2 (n0 := 2000) (n1 := 128) r k) = V c (Pipeline.arrRef spec0 0) (ix2 (n0 := 100000) (n1 := 128) ρ k) := by
  obtain ⟨e00, e01, -⟩ := idx_facts t
  show V c (Pipeline.arrRef spec0 0) (((cfg0.win 0).blk t).view.emb (ix2 r k)) = V c (Pipeline.arrRef spec0 0) (ix2 ρ k)
  refine congrArg _ (funext fun a => Fin.ext ?_)
  match a with
  | ⟨0, _⟩ => show win0_0.index t (0 : Fin 2) * 2000 + 1 * r.val = ρ.val; omega
  | ⟨1, _⟩ => show win0_0.index t (1 : Fin 2) * 128 + 1 * k.val = k.val; omega

/-- Window 1's block at every point is its whole array. -/
theorem wblk1_apply (c : Dev nD) (t : Fin cfg0.N) (k q : Fin 128) :
    iblk0 V c 1 t (ix2 (n0 := 128) (n1 := 128) k q) = V c (Pipeline.arrRef spec0 1) (ix2 (n0 := 128) (n1 := 128) k q) := by
  obtain ⟨e00, e01, e10, e11, e20, e21, e30, e31, -⟩ := idx_facts t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Window 2's block at every point is its whole array. -/
theorem wblk2_apply (c : Dev nD) (t : Fin cfg0.N) (k q : Fin 128) :
    iblk0 V c 2 t (ix2 (n0 := 128) (n1 := 128) k q) = V c (Pipeline.arrRef spec0 2) (ix2 (n0 := 128) (n1 := 128) k q) := by
  obtain ⟨e00, e01, e10, e11, e20, e21, e30, e31, -⟩ := idx_facts t
  show V c (Pipeline.arrRef spec0 2) (((cfg0.win 2).blk t).view.emb (ix2 k q)) = V c (Pipeline.arrRef spec0 2) (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Window 3's block at every point is its whole array. -/
theorem wblk3_apply (c : Dev nD) (t : Fin cfg0.N) (k q : Fin 128) :
    iblk0 V c 3 t (ix2 (n0 := 128) (n1 := 128) k q) = V c (Pipeline.arrRef spec0 3) (ix2 (n0 := 128) (n1 := 128) k q) := by
  obtain ⟨e00, e01, e10, e11, e20, e21, e30, e31, -⟩ := idx_facts t
  show V c (Pipeline.arrRef spec0 3) (((cfg0.win 3).blk t).view.emb (ix2 k q)) = V c (Pipeline.arrRef spec0 3) (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-! ## Result window 4: the product with input window 1 -/

/-- A block `P` is point `t`'s block of a whole-array function `G` when entry `(r, q)` of `P` is `G` at row
    (the point's row block × 2000 + `r`) and column `q`. -/
theorem block_eq4 (t : Fin cfg0.N) (P : Vec Ideal S2000x128 .f32) (G : S100000x128.Idx → Elt Ideal .f32)
    (h : ∀ (r : Fin 2000) (q : Fin 128) (ρ : Fin 100000), ρ.val = win0_0.index t (0 : Fin 2) * 2000 + r.val →
      P (ix2 r q) = G (ix2 ρ q)) :
    (cfg0.win 4).cut (grid0.coords t) P = ((cfg0.win 4).blk t).view.read (Elt Ideal) G := by
  obtain ⟨e00, e01, e10, e11, e20, e21, e30, e31, e41, e50, e51, e60, e61, e4le⟩ := idx_facts t
  refine funext fun (j : S2000x128.Idx) => ?_
  obtain ⟨r, q, rfl⟩ : ∃ (r : Fin 2000) (q : Fin 128), j = ix2 r q := ⟨j 0, j 1, eq_ix2 j⟩
  show P (ix2 r q) = G (((cfg0.win 4).blk t).view.emb (ix2 r q))
  have hr : r.val < 2000 := r.isLt
  refine (h r q ⟨win0_4.index t (0 : Fin 2) * 2000 + r.val, by omega⟩
    (by show win0_4.index t (0 : Fin 2) * 2000 + r.val = win0_0.index t (0 : Fin 2) * 2000 + r.val; omega)).trans ?_
  refine congrArg G (funext fun a => Fin.ext ?_)
  match a with
  | ⟨0, _⟩ => show win0_4.index t (0 : Fin 2) * 2000 + r.val = win0_4.index t (0 : Fin 2) * 2000 + 1 * r.val; omega
  | ⟨1, _⟩ => show q.val = win0_4.index t (1 : Fin 2) * 128 + 1 * q.val; omega

/-- What point `t` writes back to window 4's array is block `t` of the product of the arrays of windows 0 and 1. -/
theorem flushed4_eq (c : Dev nD) (t : Fin cfg0.N) :
    (dat0 (F := Ideal) V c).flushed 4 t = ((cfg0.win 4).blk t).view.read (Elt Ideal)
      (rowsTimes (V c (Pipeline.arrRef spec0 0)) (V c (Pipeline.arrRef spec0 1))) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz]
  refine block_eq4 t _ _ fun r q ρ hρ => ?_
  refine (pay2_apply (iblk0 V c 0 t) (iblk0 V c 1 t) r q).trans ?_
  exact sum_eq_rowsTimes (V c (Pipeline.arrRef spec0 0)) (V c (Pipeline.arrRef spec0 1)) (iblk0 V c 0 t) (iblk0 V c 1 t) r q ρ
    (fun k => xblk_apply V c t r k ρ hρ) (fun k => wblk1_apply V c t k q)

/-- An index of the array is in point `t`'s block iff each coordinate is in the block's range on its axis. -/
theorem mem_blk4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v22_0).slice (win0_4.rect t)).set ↔ _
  rw [View.set_slice_whole, Rect.mem_set_unit]
  exact Iff.rfl

/-- Row `r` of the array is in the block of the point whose row block is `r / 2000`. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto ⟨(i 0).val / 2000, by omega⟩ ⟨0, by omega⟩
  have q0 : win0_4.index t (0 : Fin 2) = (i 0).val / 2000 + 0 := congrFun ht 0
  obtain ⟨e00, e01, e10, e11, e20, e21, e30, e31, e41, e50, e51, e60, e61, e4le⟩ := idx_facts t
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- AFTER THE REGION window 4's array is the matrix product of the arrays of windows 0 and 1 as the region found them. -/
theorem arr0_4 (c : Dev nD) :
    (dat0 (F := Ideal) V c).arrAt 4 cfg0.N
      = rowsTimes (V c (Pipeline.arrRef spec0 0)) (V c (Pipeline.arrRef spec0 1)) :=
  (dat0 V c).arrAt_eq_of_cover 4 (rowsTimes (V c (Pipeline.arrRef spec0 0)) (V c (Pipeline.arrRef spec0 1)))
    (fun t _ => flushed4_eq V c t) cover4

/-! ## Result window 5: the product with input window 2 -/

/-- A block `P` is point `t`'s block of a whole-array function `G` when entry `(r, q)` of `P` is `G` at row
    (the point's row block × 2000 + `r`) and column `q`. -/
theorem block_eq5 (t : Fin cfg0.N) (P : Vec Ideal S2000x128 .f32) (G : S100000x128.Idx → Elt Ideal .f32)
    (h : ∀ (r : Fin 2000) (q : Fin 128) (ρ : Fin 100000), ρ.val = win0_0.index t (0 : Fin 2) * 2000 + r.val →
      P (ix2 r q) = G (ix2 ρ q)) :
    (cfg0.win 5).cut (grid0.coords t) P = ((cfg0.win 5).blk t).view.read (Elt Ideal) G := by
  obtain ⟨e00, e01, e10, e11, e20, e21, e30, e31, e41, e50, e51, e60, e61, e4le⟩ := idx_facts t
  refine funext fun (j : S2000x128.Idx) => ?_
  obtain ⟨r, q, rfl⟩ : ∃ (r : Fin 2000) (q : Fin 128), j = ix2 r q := ⟨j 0, j 1, eq_ix2 j⟩
  show P (ix2 r q) = G (((cfg0.win 5).blk t).view.emb (ix2 r q))
  have hr : r.val < 2000 := r.isLt
  refine (h r q ⟨win0_5.index t (0 : Fin 2) * 2000 + r.val, by omega⟩
    (by show win0_5.index t (0 : Fin 2) * 2000 + r.val = win0_0.index t (0 : Fin 2) * 2000 + r.val; omega)).trans ?_
  refine congrArg G (funext fun a => Fin.ext ?_)
  match a with
  | ⟨0, _⟩ => show win0_5.index t (0 : Fin 2) * 2000 + r.val = win0_5.index t (0 : Fin 2) * 2000 + 1 * r.val; omega
  | ⟨1, _⟩ => show q.val = win0_5.index t (1 : Fin 2) * 128 + 1 * q.val; omega

/-- What point `t` writes back to window 5's array is block `t` of the product of the arrays of windows 0 and 2. -/
theorem flushed5_eq (c : Dev nD) (t : Fin cfg0.N) :
    (dat0 (F := Ideal) V c).flushed 5 t = ((cfg0.win 5).blk t).view.read (Elt Ideal)
      (rowsTimes (V c (Pipeline.arrRef spec0 0)) (V c (Pipeline.arrRef spec0 2))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz]
  refine block_eq5 t _ _ fun r q ρ hρ => ?_
  refine (pay3_apply (iblk0 V c 0 t) (iblk0 V c 2 t) r q).trans ?_
  exact sum_eq_rowsTimes (V c (Pipeline.arrRef spec0 0)) (V c (Pipeline.arrRef spec0 2)) (iblk0 V c 0 t) (iblk0 V c 2 t) r q ρ
    (fun k => xblk_apply V c t r k ρ hρ) (fun k => wblk2_apply V c t k q)

/-- An index of the array is in point `t`'s block iff each coordinate is in the block's range on its axis. -/
theorem mem_blk5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22_1).slice (win0_5.rect t)).set ↔ _
  rw [View.set_slice_whole, Rect.mem_set_unit]
  exact Iff.rfl

/-- Row `r` of the array is in the block of the point whose row block is `r / 2000`. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 2000, by omega⟩ ⟨0, by omega⟩
  have q0 : win0_4.index t (0 : Fin 2) = (i 0).val / 2000 + 0 := congrFun ht 0
  obtain ⟨e00, e01, e10, e11, e20, e21, e30, e31, e41, e50, e51, e60, e61, e4le⟩ := idx_facts t
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- AFTER THE REGION window 5's array is the matrix product of the arrays of windows 0 and 2 as the region found them. -/
theorem arr0_5 (c : Dev nD) :
    (dat0 (F := Ideal) V c).arrAt 5 cfg0.N
      = rowsTimes (V c (Pipeline.arrRef spec0 0)) (V c (Pipeline.arrRef spec0 2)) :=
  (dat0 V c).arrAt_eq_of_cover 5 (rowsTimes (V c (Pipeline.arrRef spec0 0)) (V c (Pipeline.arrRef spec0 2)))
    (fun t _ => flushed5_eq V c t) cover5

/-! ## Result window 6: the product with input window 3 -/

/-- A block `P` is point `t`'s block of a whole-array function `G` when entry `(r, q)` of `P` is `G` at row
    (the point's row block × 2000 + `r`) and column `q`. -/
theorem block_eq6 (t : Fin cfg0.N) (P : Vec Ideal S2000x128 .f32) (G : S100000x128.Idx → Elt Ideal .f32)
    (h : ∀ (r : Fin 2000) (q : Fin 128) (ρ : Fin 100000), ρ.val = win0_0.index t (0 : Fin 2) * 2000 + r.val →
      P (ix2 r q) = G (ix2 ρ q)) :
    (cfg0.win 6).cut (grid0.coords t) P = ((cfg0.win 6).blk t).view.read (Elt Ideal) G := by
  obtain ⟨e00, e01, e10, e11, e20, e21, e30, e31, e41, e50, e51, e60, e61, e4le⟩ := idx_facts t
  refine funext fun (j : S2000x128.Idx) => ?_
  obtain ⟨r, q, rfl⟩ : ∃ (r : Fin 2000) (q : Fin 128), j = ix2 r q := ⟨j 0, j 1, eq_ix2 j⟩
  show P (ix2 r q) = G (((cfg0.win 6).blk t).view.emb (ix2 r q))
  have hr : r.val < 2000 := r.isLt
  refine (h r q ⟨win0_6.index t (0 : Fin 2) * 2000 + r.val, by omega⟩
    (by show win0_6.index t (0 : Fin 2) * 2000 + r.val = win0_0.index t (0 : Fin 2) * 2000 + r.val; omega)).trans ?_
  refine congrArg G (funext fun a => Fin.ext ?_)
  match a with
  | ⟨0, _⟩ => show win0_6.index t (0 : Fin 2) * 2000 + r.val = win0_6.index t (0 : Fin 2) * 2000 + 1 * r.val; omega
  | ⟨1, _⟩ => show q.val = win0_6.index t (1 : Fin 2) * 128 + 1 * q.val; omega

/-- What point `t` writes back to window 6's array is block `t` of the product of the arrays of windows 0 and 3. -/
theorem flushed6_eq (c : Dev nD) (t : Fin cfg0.N) :
    (dat0 (F := Ideal) V c).flushed 6 t = ((cfg0.win 6).blk t).view.read (Elt Ideal)
      (rowsTimes (V c (Pipeline.arrRef spec0 0)) (V c (Pipeline.arrRef spec0 3))) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz]
  refine block_eq6 t _ _ fun r q ρ hρ => ?_
  refine (pay4_apply (iblk0 V c 0 t) (iblk0 V c 3 t) r q).trans ?_
  exact sum_eq_rowsTimes (V c (Pipeline.arrRef spec0 0)) (V c (Pipeline.arrRef spec0 3)) (iblk0 V c 0 t) (iblk0 V c 3 t) r q ρ
    (fun k => xblk_apply V c t r k ρ hρ) (fun k => wblk3_apply V c t k q)

/-- An index of the array is in point `t`'s block iff each coordinate is in the block's range on its axis. -/
theorem mem_blk6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22_2).slice (win0_6.rect t)).set ↔ _
  rw [View.set_slice_whole, Rect.mem_set_unit]
  exact Iff.rfl

/-- Row `r` of the array is in the block of the point whose row block is `r / 2000`. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 2000, by omega⟩ ⟨0, by omega⟩
  have q0 : win0_4.index t (0 : Fin 2) = (i 0).val / 2000 + 0 := congrFun ht 0
  obtain ⟨e00, e01, e10, e11, e20, e21, e30, e31, e41, e50, e51, e60, e61, e4le⟩ := idx_facts t
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- AFTER THE REGION window 6's array is the matrix product of the arrays of windows 0 and 3 as the region found them. -/
theorem arr0_6 (c : Dev nD) :
    (dat0 (F := Ideal) V c).arrAt 6 cfg0.N
      = rowsTimes (V c (Pipeline.arrRef spec0 0)) (V c (Pipeline.arrRef spec0 3)) :=
  (dat0 V c).arrAt_eq_of_cover 6 (rowsTimes (V c (Pipeline.arrRef spec0 0)) (V c (Pipeline.arrRef spec0 3)))
    (fun t _ => flushed6_eq V c t) cover6

end Cert.KernelIdeal.MatmulRegion0

end
-- ==== Proof.ReduceRegion1.lean ====
/-
  REGION 1 of the kernel's program (the batch-norm reduction pass, 50 grid points over row tiles of 2000 rows), read at the
  extended reals for ARBITRARY contents of the TensorCore's buffers at the region's entry: what each of its three output
  windows' arrays holds after the region, as one function of the three input arrays as the region finds them.

    arr1_3 — output window 3, f32[100000,128]: the three inputs added, `(a + b) + c`, index by index;
    arr1_4 — output window 4, f32[1,128]: for each column, the sum over all 100000 rows of `(a + b) + c`;
    arr1_5 — output window 5, f32[1,128]: for each column, the sum over all 100000 rows of the square of `(a + b) + c`.

  The body has two control cases: at the first grid point it first stores the zero block into both accumulators; at the
  later points it reads them as the point before left them. Each case's stores are read back as the body's payloads; the
  payloads are read at an entry (a column sum over the 2000 rows of the tile: a sum in an additive commutative monoid); the
  accumulators' contents after point `n` are the sums over the rows below `(n + 1) * 2000`, by induction on the point; the
  write-backs (every point for window 3, the last point for windows 4 and 5) cover the arrays.
-/
import proofs.«151220_j103079215236_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegionValue1

open Cert.KernelIdeal Cert.KernelIdeal.Gen Idealize.ShloMosaic Idealize.ShloMosaic.ValueIdx
open Idealize.ShloMosaic.TcCoe Idealize.SL.Sem
open Idealize.ShloMosaic.Pipeline (Dat)

/-! ## Sums over row tiles

The rows of a [100000, 128] array are visited in 50 tiles of 2000 rows; a running sum over the rows below
`n * 2000` plus the sum over tile `n` is the running sum over the rows below `(n + 1) * 2000`. Sums in an
additive commutative monoid: no finiteness is needed. -/

theorem sum_tiles_step {M : Type*} [AddCommMonoid M] (f : ℕ → M) (n : ℕ) (g : Fin 2000 → M)
    (hg : ∀ r : Fin 2000, g r = f (n * 2000 + r.val)) (s : M) (hs : s = ∑ k ∈ Finset.range (n * 2000), f k) :
    s + ∑ r : Fin 2000, g r = ∑ k ∈ Finset.range ((n + 1) * 2000), f k := by
  rw [hs, Finset.sum_congr rfl (fun r _ => hg r), Fin.sum_univ_eq_sum_range (fun r => f (n * 2000 + r)) 2000,
    ← Finset.sum_range_add, Nat.add_mul, Nat.one_mul]

theorem sum_rows {M : Type*} [AddCommMonoid M] (f : ℕ → M) (G : Fin 100000 → M) (h : ∀ r : Fin 100000, f r.val = G r) :
    ∑ k ∈ Finset.range 100000, f k = ∑ r : Fin 100000, G r := by
  rw [← Fin.sum_univ_eq_sum_range f 100000]
  exact Finset.sum_congr rfl (fun r _ => h r)

/-! ## What each control case leaves in the three output buffers, as the body's payloads (any float values)

Case A is the first grid point: the body first stores the zero block into both accumulators and reads it back.
Case B is every later point: the accumulators are read as the point before left them. -/

section Pieces
variable {F : FTy → Type} [FloatOps F]

theorem hz : (![0, 0] : Fin 2 → Nat) = fun _ => 0 := funext fun a => by fin_cases a <;> rfl

/-- Case B, the tile output: the three input blocks added. -/
theorem out_B_3 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond1_0 i)
    (x0 x1 x2 : Vec F S2000x128 .f32) (xo4 xo5 : Vec F S1x128 .f32) :
    out1_B_3 c i a1 h1 a2 h2 a3 h3 a4 h4 a5 h5 a6 h6 hc x0 x1 x2 xo4 xo5 = k1_pay3 x0 x1 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  try sl_unfold_words
  rw [View.canon_unit_zero hz]
  simp only [View.readAt_eq_ld, h1.read_unread, h2.read_unread, h3.read_unread, View.ld_unit_zero (S := S2000x128) hz]

/-- Case B, the column-sum accumulator: the payload over what the point before left. -/
theorem out_B_4 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond1_0 i)
    (x0 x1 x2 : Vec F S2000x128 .f32) (xo4 xo5 : Vec F S1x128 .f32) :
    out1_B_4 c i a1 h1 a2 h2 a3 h3 a4 h4 a5 h5 a6 h6 hc x0 x1 x2 xo4 xo5 = k1_pay4 x0 x1 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  try sl_unfold_words
  rw [View.canon_unit_zero hz]
  simp only [View.readAt_eq_ld, h1.read_unread, h2.read_unread, h3.read_unread, h5.read_unread,
    View.ld_unit_zero (S := S2000x128) hz, View.ld_unit_zero (S := S1x128) hz]

/-- Case B, the accumulator of the squares' column sums. -/
theorem out_B_5 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond1_0 i)
    (x0 x1 x2 : Vec F S2000x128 .f32) (xo4 xo5 : Vec F S1x128 .f32) :
    out1_B_5 c i a1 h1 a2 h2 a3 h3 a4 h4 a5 h5 a6 h6 hc x0 x1 x2 xo4 xo5 = k1_pay5 x0 x1 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  try sl_unfold_words
  rw [View.canon_unit_zero hz]
  simp only [View.readAt_eq_ld, h1.read_unread, h2.read_unread, h3.read_unread, h6.read_unread,
    View.ld_unit_zero (S := S2000x128) hz, View.ld_unit_zero (S := S1x128) hz]

/-- Case A, the tile output: the three input blocks added. -/
theorem out_A_3 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond1_0 i)
    (x0 x1 x2 : Vec F S2000x128 .f32) :
    out1_A_3 c i a1 h1 a2 h2 a3 h3 a4 h4 a5 h5 a6 h6 hc x0 x1 x2 = k1_pay3 x0 x1 x2 := by
  unfold out1_A_3
  rw [View.read_writes_eq_canon _ _ _ (cover1_A_3 c i a1 h1 a2 h2 a3 h3 a4 h4 a5 h5 a6 h6 hc x0 x1 x2)]
  unfold kernelRun1_A
  dsimp only
  try sl_unfold_words
  rw [View.canon_unit_zero hz]
  simp only [View.readAt_eq_ld, h1.read_unread, h2.read_unread, h3.read_unread, View.ld_unit_zero (S := S2000x128) hz]

/-- Case A, the column-sum accumulator: the payload over the zero block just stored. -/
theorem out_A_4 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond1_0 i)
    (x0 x1 x2 : Vec F S2000x128 .f32) :
    out1_A_4 c i a1 h1 a2 h2 a3 h3 a4 h4 a5 h5 a6 h6 hc x0 x1 x2 = k1_pay4 x0 x1 x2 k1_pay1 := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2000x128) hz]

/-- Case A, the accumulator of the squares' column sums. -/
theorem out_A_5 (c : Dev nD) (i : grid1.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond1_0 i)
    (x0 x1 x2 : Vec F S2000x128 .f32) :
    out1_A_5 c i a1 h1 a2 h2 a3 h3 a4 h4 a5 h5 a6 h6 hc x0 x1 x2 = k1_pay5 x0 x1 x2 k1_pay2 := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2000x128) hz]

end Pieces

/-! ## The payloads at an entry, over the extended reals -/

/-- A tile's three blocks added, entry by entry. -/
theorem pay3_apply (x0 x1 x2 : Vec Ideal S2000x128 .f32) (r : Fin 2000) (l : Fin 128) :
    k1_pay3 x0 x1 x2 (ix2 r l) = (x0 (ix2 r l) + x1 (ix2 r l)) + x2 (ix2 r l) := by
  unfold k1_pay3
  simp only [shapeCast_self]
  rfl

/-- Column `l` of the running sum after a tile: what it held plus the sum of the tile's column `l`. -/
theorem pay4_apply (x0 x1 x2 : Vec Ideal S2000x128 .f32) (xo : Vec Ideal S1x128 .f32) (l : Fin 128) :
    k1_pay4 x0 x1 x2 xo (ix2 (0 : Fin 1) l) = xo (ix2 (0 : Fin 1) l) + ∑ r : Fin 2000, k1_pay3 x0 x1 x2 (ix2 r l) := by
  unfold k1_pay4
  refine congrArg₂ (· + ·) (congrFun (shapeCast_self xo _) _) ?_
  refine (shapeCast_a_1a_apply _ _ 0 l).trans ?_
  refine (Ideal.multiReduction_add_single (k1_pay3 x0 x1 x2) 0x00000000#32 reduces_S2000x128_S128 (.inl rfl) rfl (ix1 l)).trans ?_
  exact Finset.sum_congr rfl fun r _ => congrArg (k1_pay3 x0 x1 x2) (funext fun a => Fin.ext (by
    match a with
    | ⟨0, _⟩ => rfl
    | ⟨1, _⟩ => rfl))

/-- Column `l` of the running sum of squares after a tile: what it held plus the sum of the squares of the tile's column `l`. -/
theorem pay5_apply (x0 x1 x2 : Vec Ideal S2000x128 .f32) (xo : Vec Ideal S1x128 .f32) (l : Fin 128) :
    k1_pay5 x0 x1 x2 xo (ix2 (0 : Fin 1) l)
      = xo (ix2 (0 : Fin 1) l) + ∑ r : Fin 2000, k1_pay3 x0 x1 x2 (ix2 r l) * k1_pay3 x0 x1 x2 (ix2 r l) := by
  unfold k1_pay5
  refine congrArg₂ (· + ·) (congrFun (shapeCast_self xo _) _) ?_
  refine (shapeCast_a_1a_apply _ _ 0 l).trans ?_
  refine (Ideal.multiReduction_add_single (mulf (k1_pay3 x0 x1 x2) (k1_pay3 x0 x1 x2)) 0x00000000#32 reduces_S2000x128_S128 (.inl rfl) rfl (ix1 l)).trans ?_
  exact Finset.sum_congr rfl fun r _ => congrArg (mulf (k1_pay3 x0 x1 x2) (k1_pay3 x0 x1 x2)) (funext fun a => Fin.ext (by
    match a with
    | ⟨0, _⟩ => rfl
    | ⟨1, _⟩ => rfl))

/-- The block the first point stores into the column-sum accumulator is zero. -/
theorem pay1_apply (j : S1x128.Idx) : k1_pay1 (F := Ideal) j = 0 := by
  show Ideal.ofBits .f32 0x00000000#32 = 0
  exact Ideal.ofBits_zero_f32

/-- The block the first point stores into the accumulator of the squares is zero. -/
theorem pay2_apply (j : S1x128.Idx) : k1_pay2 (F := Ideal) j = 0 := by
  show Ideal.ofBits .f32 0x00000000#32 = 0
  exact Ideal.ofBits_zero_f32

/-! ## The windows' blocks as rows of their arrays -/

/-- The printed index maps over the grid: each [2000, 128] window sits at row block `t`, the two [1, 128] accumulators at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem lt50 (t : Fin cfg1.N) : t.val < 50 := lt_of_lt_of_eq t.isLt (show cfg1.N = 50 from N_1)

/-- Row `r` of tile `t`, as a row of the whole array. -/
def row (t : Fin cfg1.N) (r : Fin 2000) : Fin 100000 :=
  ⟨t.val * 2000 + r.val, by have := lt50 t; have := r.isLt; omega⟩

/-- Block `t` of a [100000, 128] window reads rows `2000 t … 2000 t + 1999` of its array. -/
theorem blk0_apply (t : Fin cfg1.N) (G : S100000x128.Idx → EReal) (r : Fin 2000) (l : Fin 128) :
    ((cfg1.win 0).blk t).view.read (Elt Ideal) G (ix2 r l) = G (ix2 (row t r) l) := by
  have e0 : win1_0.index t (0 : Fin 2) = t.val := (idx_facts t).1
  have e1 : win1_0.index t (1 : Fin 2) = 0 := (idx_facts t).2.1
  rw [View.read_apply]
  refine congrArg G (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 128 + 1 * l.val = l.val; rw [e1]; omega

theorem blk1_apply (t : Fin cfg1.N) (G : S100000x128.Idx → EReal) (r : Fin 2000) (l : Fin 128) :
    ((cfg1.win 1).blk t).view.read (Elt Ideal) G (ix2 r l) = G (ix2 (row t r) l) := by
  have e0 : win1_1.index t (0 : Fin 2) = t.val := (idx_facts t).2.2.1
  have e1 : win1_1.index t (1 : Fin 2) = 0 := (idx_facts t).2.2.2.1
  rw [View.read_apply]
  refine congrArg G (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 128 + 1 * l.val = l.val; rw [e1]; omega

theorem blk2_apply (t : Fin cfg1.N) (G : S100000x128.Idx → EReal) (r : Fin 2000) (l : Fin 128) :
    ((cfg1.win 2).blk t).view.read (Elt Ideal) G (ix2 r l) = G (ix2 (row t r) l) := by
  have e0 : win1_2.index t (0 : Fin 2) = t.val := (idx_facts t).2.2.2.2.1
  have e1 : win1_2.index t (1 : Fin 2) = 0 := (idx_facts t).2.2.2.2.2.1
  rw [View.read_apply]
  refine congrArg G (funext fun a => Fin.ext ?_)
  match a with
  | ⟨0, _⟩ => show win1_2.index t (0 : Fin 2) * 2000 + 1 * r.val = t.val * 2000 + r.val; rw [e0]; omega
  | ⟨1, _⟩ => show win1_2.index t (1 : Fin 2) * 128 + 1 * l.val = l.val; rw [e1]; omega

theorem blk3_apply (t : Fin cfg1.N) (G : S100000x128.Idx → EReal) (r : Fin 2000) (l : Fin 128) :
    ((cfg1.win 3).blk t).view.read (Elt Ideal) G (ix2 r l) = G (ix2 (row t r) l) := by
  have e0 : win1_3.index t (0 : Fin 2) = t.val := (idx_facts t).2.2.2.2.2.2.1
  have e1 : win1_3.index t (1 : Fin 2) = 0 := (idx_facts t).2.2.2.2.2.2.2.1
  rw [View.read_apply]
  refine congrArg G (funext fun a => Fin.ext ?_)
  match a with
  | ⟨0, _⟩ => show win1_3.index t (0 : Fin 2) * 2000 + 1 * r.val = t.val * 2000 + r.val; rw [e0]; omega
  | ⟨1, _⟩ => show win1_3.index t (1 : Fin 2) * 128 + 1 * l.val = l.val; rw [e1]; omega

/-! ## The region's inputs as it finds them, and the specification -/

variable (V : (c : Dev nD) → (b : Ref sig .tc) → Buf (Elt Ideal) ((c : Thread nD τ).loc b))

/-- The first input window's array as the region finds it, typed as a [100000, 128] array of extended reals. -/
def inp0 (c : Dev nD) : S100000x128.Idx → EReal := V c (Pipeline.arrRef spec1 0)
/-- The second. -/
def inp1 (c : Dev nD) : S100000x128.Idx → EReal := V c (Pipeline.arrRef spec1 1)
/-- The third. -/
def inp2 (c : Dev nD) : S100000x128.Idx → EReal := V c (Pipeline.arrRef spec1 2)

/-- The three input arrays added, index by index: the array output window 3 ends holding. -/
def sum3 (c : Dev nD) : S100000x128.Idx → EReal := fun i => (inp0 V c i + inp1 V c i) + inp2 V c i

theorem sum3_apply (c : Dev nD) (i : S100000x128.Idx) : sum3 V c i = (inp0 V c i + inp1 V c i) + inp2 V c i := rfl

/-- The sum of each column of a [100000, 128] array, as a [1, 128] array. -/
def colSum (G : S100000x128.Idx → EReal) : S1x128.Idx → EReal := fun i => ∑ r : Fin 100000, G (ix2 r (i 1))

/-- Column `l` of `G` as a function of the row number (zero past the last row). -/
def colN (G : S100000x128.Idx → EReal) (l : Fin 128) (k : ℕ) : EReal :=
  if h : k < 100000 then G (ix2 ⟨k, h⟩ l) else 0

theorem colN_row (G : S100000x128.Idx → EReal) (l : Fin 128) (t : Fin cfg1.N) (r : Fin 2000) :
    G (ix2 (row t r) l) = colN G l (t.val * 2000 + r.val) := by
  have h : t.val * 2000 + r.val < 100000 := (row t r).isLt
  unfold colN
  rw [dif_pos h]
  rfl

theorem colN_val (G : S100000x128.Idx → EReal) (l : Fin 128) (r : Fin 100000) : colN G l r.val = G (ix2 r l) := by
  unfold colN
  rw [dif_pos r.isLt]

/-- The tile output's payload at point `t`, entry `(r, l)`, is the three arrays added at row `r` of tile `t`. -/
theorem tile_apply (c : Dev nD) (t : Fin cfg1.N) (r : Fin 2000) (l : Fin 128) :
    k1_pay3 (iblk1 V c 0 t) (iblk1 V c 1 t) (iblk1 V c 2 t) (ix2 r l) = sum3 V c (ix2 (row t r) l) := by
  refine (pay3_apply (iblk1 V c 0 t) (iblk1 V c 1 t) (iblk1 V c 2 t) r l).trans ?_
  unfold iblk1 sum3 inp0 inp1 inp2
  rw [blk0_apply t _ r l, blk1_apply t _ r l, blk2_apply t _ r l]

/-! ## Output window 3: the three arrays added -/

/-- After any point the tile output's buffer holds the payload of the point's input blocks. -/
theorem outs3 (c : Dev nD) (t : Fin cfg1.N) :
    (outsAt1 V c t.val t.isLt).1 = k1_pay3 (iblk1 V c 0 t) (iblk1 V c 1 t) (iblk1 V c 2 t) := by
  by_cases h0 : t.val % 50 = 0
  · rw [outsAt1_A V c t h0]
    dsimp only
    exact out_A_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]
    dsimp only
    exact out_B_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- What point `t` writes back is block `t` of the three arrays added. -/
theorem flushed3_eq (c : Dev nD) (t : Fin cfg1.N) :
    (dat1 (F := Ideal) V c).flushed 3 t = ((cfg1.win 3).blk t).view.read (Elt Ideal) (sum3 V c) := by
  show (cfg1.win 3).cut (grid1.coords t) ((dat1 V c).after 3 t) = _
  rw [after1_3, outs3 V c t]
  funext j
  obtain ⟨r, l, rfl⟩ : ∃ (r : Fin 2000) (l : Fin 128), j = ix2 r l := ⟨j 0, j 1, eq_ix2 j⟩
  exact (tile_apply V c t r l).trans (blk3_apply t (sum3 V c) r l).symm

/-- An index of the array is in point `t`'s block iff each coordinate is in the block's range on its axis. -/
theorem mem_blk3 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v57_0).slice (win1_3.rect t)).set ↔ _
  rw [View.set_slice_whole, Rect.mem_set_unit]
  exact Iff.rfl

/-- Row `r` is in the block of point `r / 2000`. -/
theorem cover3 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have ht : (i 0).val / 2000 < cfg1.N := by rw [hN]; omega
  refine ⟨⟨(i 0).val / 2000, ht⟩, flush1_3 _, ?_⟩
  have e0 : win1_3.index ⟨(i 0).val / 2000, ht⟩ (0 : Fin 2) = (i 0).val / 2000 := (idx_facts ⟨(i 0).val / 2000, ht⟩).2.2.2.2.2.2.1
  have e1 : win1_3.index ⟨(i 0).val / 2000, ht⟩ (1 : Fin 2) = 0 := (idx_facts ⟨(i 0).val / 2000, ht⟩).2.2.2.2.2.2.2.1
  rw [mem_blk3]
  intro a
  match a with
  | ⟨0, _⟩ => show win1_3.index ⟨(i 0).val / 2000, ht⟩ (0 : Fin 2) * 2000 ≤ (i 0).val ∧ (i 0).val < win1_3.index ⟨(i 0).val / 2000, ht⟩ (0 : Fin 2) * 2000 + 2000; rw [e0]; omega
  | ⟨1, _⟩ => show win1_3.index ⟨(i 0).val / 2000, ht⟩ (1 : Fin 2) * 128 ≤ (i 1).val ∧ (i 1).val < win1_3.index ⟨(i 0).val / 2000, ht⟩ (1 : Fin 2) * 128 + 128; rw [e1]; omega

/-- OUTPUT WINDOW 3 after the region: the three input arrays, as the region finds them, added index by index. -/
theorem arr1_3 (c : Dev nD) : (dat1 (F := Ideal) V c).arrAt 3 cfg1.N = sum3 V c :=
  (dat1 (F := Ideal) V c).arrAt_eq_of_cover 3 (sum3 V c) (fun t _ => flushed3_eq V c t) cover3

/-! ## Output window 4: the column sums of the three arrays added -/

/-- At the first point the accumulator's buffer holds the payload over the zero block. -/
theorem outs4_A (c : Dev nD) (t : Fin cfg1.N) (h0 : t.val % 50 = 0) :
    (outsAt1 V c t.val t.isLt).2.1 = k1_pay4 (iblk1 V c 0 t) (iblk1 V c 1 t) (iblk1 V c 2 t) (k1_pay1 (F := Ideal)) := by
  rw [outsAt1_A V c t h0]
  dsimp only
  exact out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)

/-- At a later point it holds the payload over what the point before left. -/
theorem outs4_B (c : Dev nD) (t : Fin cfg1.N) (h0 : ¬t.val % 50 = 0) :
    (outsAt1 V c t.val t.isLt).2.1 = k1_pay4 (iblk1 V c 0 t) (iblk1 V c 1 t) (iblk1 V c 2 t) (outsAt1 V c (t.val - 1) (Nat.lt_of_le_of_lt (Nat.sub_le _ _) t.isLt)).2.1 := by
  rw [outsAt1_B V c t h0]
  dsimp only
  exact out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- One point's step at column `l`: what the accumulator held plus the tile's rows of column `l`. -/
theorem step4 (c : Dev nD) (t : Fin cfg1.N) (xo : Vec Ideal S1x128 .f32) (l : Fin 128) :
    k1_pay4 (iblk1 V c 0 t) (iblk1 V c 1 t) (iblk1 V c 2 t) xo (ix2 (0 : Fin 1) l)
      = xo (ix2 (0 : Fin 1) l) + ∑ r : Fin 2000, sum3 V c (ix2 (row t r) l) :=
  (pay4_apply (iblk1 V c 0 t) (iblk1 V c 1 t) (iblk1 V c 2 t) xo l).trans
    (congrArg (fun s => xo (ix2 (0 : Fin 1) l) + s) (Finset.sum_congr rfl fun r _ => tile_apply V c t r l))

/-- THE INVARIANT: after point `n` the accumulator holds, in column `l`, the sum over the rows below `(n + 1) * 2000`. -/
theorem acc4 (c : Dev nD) : ∀ (n : ℕ) (h : n < cfg1.N) (l : Fin 128),
    (outsAt1 V c n h).2.1 (ix2 (0 : Fin 1) l) = ∑ k ∈ Finset.range ((n + 1) * 2000), colN (sum3 V c) l k
  | 0, h, l => by
    rw [show (outsAt1 V c 0 h).2.1 = _ from outs4_A V c ⟨0, h⟩ rfl, step4 V c ⟨0, h⟩ (k1_pay1 (F := Ideal)) l]
    exact sum_tiles_step (colN (sum3 V c) l) 0 _ (fun r => colN_row (sum3 V c) l ⟨0, h⟩ r) _ (by rw [pay1_apply]; simp)
  | n + 1, h, l => by
    have hN : n + 1 < 50 := lt_of_lt_of_eq h (show cfg1.N = 50 from N_1)
    have hB : ¬(⟨n + 1, h⟩ : Fin cfg1.N).val % 50 = 0 := by dsimp only; omega
    rw [show (outsAt1 V c (n + 1) h).2.1 = _ from outs4_B V c ⟨n + 1, h⟩ hB, step4 V c ⟨n + 1, h⟩ _ l]
    exact sum_tiles_step (colN (sum3 V c) l) (n + 1) _ (fun r => colN_row (sum3 V c) l ⟨n + 1, h⟩ r) _ (acc4 c n _ l)

/-- After the last point the accumulator holds the column sums over all 100000 rows. -/
theorem acc4_last (c : Dev nD) (t : Fin cfg1.N) (ht : t.val = 49) :
    (outsAt1 V c t.val t.isLt).2.1 = colSum (sum3 V c) := by
  funext j
  obtain ⟨u, l, rfl⟩ : ∃ (u : Fin 1) (l : Fin 128), j = ix2 u l := ⟨j 0, j 1, eq_ix2 j⟩
  obtain rfl : u = 0 := Subsingleton.elim _ _
  refine (acc4 V c t.val t.isLt l).trans ?_
  rw [ht]
  exact sum_rows (colN (sum3 V c) l) _ (fun r => colN_val (sum3 V c) l r)

/-- The one write-back, at the last point, writes them: the accumulator's one block is its whole array. -/
theorem flushed4_eq (c : Dev nD) (t : Fin cfg1.N) (hf : (cfg1.win 4).flush t = true) :
    (dat1 (F := Ideal) V c).flushed 4 t = ((cfg1.win 4).blk t).view.read (Elt Ideal) (colSum (sum3 V c)) := by
  have ht : t.val = 49 := by have := (flush1_4 t).mp hf; have := lt50 t; omega
  have e0 : win1_4.index t (0 : Fin 2) = 0 := (idx_facts t).2.2.2.2.2.2.2.2.1
  have e1 : win1_4.index t (1 : Fin 2) = 0 := (idx_facts t).2.2.2.2.2.2.2.2.2.1
  show (cfg1.win 4).cut (grid1.coords t) ((dat1 V c).after 4 t) = _
  rw [after1_4, acc4_last V c t ht]
  have hz' : (fun a => win1_4.index t a * main_v57_1.ty.shape.size a) = fun _ => 0 := funext fun a => by
    match a with
    | ⟨0, _⟩ => show win1_4.index t (0 : Fin 2) * 1 = 0; rw [e0]
    | ⟨1, _⟩ => show win1_4.index t (1 : Fin 2) * 128 = 0; rw [e1]
  exact (Memref.read_access_unit_zero (Elt Ideal) main_v57_1 hz' (fun a => by rw [congrFun hz' a]; simp) (colSum (sum3 V c))).symm

/-- An index of the accumulator's array is in point `t`'s block iff each coordinate is in the block's range on its axis. -/
theorem mem_blk4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v57_1).slice (win1_4.rect t)).set ↔ _
  rw [View.set_slice_whole, Rect.mem_set_unit]
  exact Iff.rfl

/-- The last point's block covers the accumulator's array. -/
theorem cover4 (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  have hN : cfg1.N = 50 := N_1
  have ht : 49 < cfg1.N := by rw [hN]; omega
  refine ⟨⟨49, ht⟩, (flush1_4 _).mpr rfl, ?_⟩
  have e0 : win1_4.index ⟨49, ht⟩ (0 : Fin 2) = 0 := (idx_facts ⟨49, ht⟩).2.2.2.2.2.2.2.2.1
  have e1 : win1_4.index ⟨49, ht⟩ (1 : Fin 2) = 0 := (idx_facts ⟨49, ht⟩).2.2.2.2.2.2.2.2.2.1
  rw [mem_blk4]
  intro a
  match a with
  | ⟨0, _⟩ => show win1_4.index ⟨49, ht⟩ (0 : Fin 2) * 1 ≤ (i 0).val ∧ (i 0).val < win1_4.index ⟨49, ht⟩ (0 : Fin 2) * 1 + 1; rw [e0]; omega
  | ⟨1, _⟩ => show win1_4.index ⟨49, ht⟩ (1 : Fin 2) * 128 ≤ (i 1).val ∧ (i 1).val < win1_4.index ⟨49, ht⟩ (1 : Fin 2) * 128 + 128; rw [e1]; omega

/-- OUTPUT WINDOW 4 after the region: the sum, over all 100000 rows, of each column of the three input arrays added. -/
theorem arr1_4 (c : Dev nD) : (dat1 (F := Ideal) V c).arrAt 4 cfg1.N
    = fun i => ∑ r : Fin 100000, sum3 V c (ix2 r (i 1)) :=
  (dat1 (F := Ideal) V c).arrAt_eq_of_cover 4 (colSum (sum3 V c)) (flushed4_eq V c) cover4

/-- The three arrays added, squared, index by index. -/
def sq3 (c : Dev nD) : S100000x128.Idx → EReal := fun i => sum3 V c i * sum3 V c i

/-! ## Output window 5: the column sums of the squares -/

/-- At the first point the accumulator's buffer holds the payload over the zero block. -/
theorem outs5_A (c : Dev nD) (t : Fin cfg1.N) (h0 : t.val % 50 = 0) :
    (outsAt1 V c t.val t.isLt).2.2 = k1_pay5 (iblk1 V c 0 t) (iblk1 V c 1 t) (iblk1 V c 2 t) (k1_pay2 (F := Ideal)) := by
  rw [outsAt1_A V c t h0]
  dsimp only
  exact out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)

/-- At a later point it holds the payload over what the point before left. -/
theorem outs5_B (c : Dev nD) (t : Fin cfg1.N) (h0 : ¬t.val % 50 = 0) :
    (outsAt1 V c t.val t.isLt).2.2 = k1_pay5 (iblk1 V c 0 t) (iblk1 V c 1 t) (iblk1 V c 2 t) (outsAt1 V c (t.val - 1) (Nat.lt_of_le_of_lt (Nat.sub_le _ _) t.isLt)).2.2 := by
  rw [outsAt1_B V c t h0]
  dsimp only
  exact out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- One point's step at column `l`: what the accumulator held plus the tile's rows of column `l`. -/
theorem step5 (c : Dev nD) (t : Fin cfg1.N) (xo : Vec Ideal S1x128 .f32) (l : Fin 128) :
    k1_pay5 (iblk1 V c 0 t) (iblk1 V c 1 t) (iblk1 V c 2 t) xo (ix2 (0 : Fin 1) l)
      = xo (ix2 (0 : Fin 1) l) + ∑ r : Fin 2000, sq3 V c (ix2 (row t r) l) :=
  (pay5_apply (iblk1 V c 0 t) (iblk1 V c 1 t) (iblk1 V c 2 t) xo l).trans
    (congrArg (fun s => xo (ix2 (0 : Fin 1) l) + s) (Finset.sum_congr rfl fun r _ => congrArg₂ (· * ·) (tile_apply V c t r l) (tile_apply V c t r l)))

/-- THE INVARIANT: after point `n` the accumulator holds, in column `l`, the sum over the rows below `(n + 1) * 2000`. -/
theorem acc5 (c : Dev nD) : ∀ (n : ℕ) (h : n < cfg1.N) (l : Fin 128),
    (outsAt1 V c n h).2.2 (ix2 (0 : Fin 1) l) = ∑ k ∈ Finset.range ((n + 1) * 2000), colN (sq3 V c) l k
  | 0, h, l => by
    rw [show (outsAt1 V c 0 h).2.2 = _ from outs5_A V c ⟨0, h⟩ rfl, step5 V c ⟨0, h⟩ (k1_pay2 (F := Ideal)) l]
    exact sum_tiles_step (colN (sq3 V c) l) 0 _ (fun r => colN_row (sq3 V c) l ⟨0, h⟩ r) _ (by rw [pay2_apply]; simp)
  | n + 1, h, l => by
    have hN : n + 1 < 50 := lt_of_lt_of_eq h (show cfg1.N = 50 from N_1)
    have hB : ¬(⟨n + 1, h⟩ : Fin cfg1.N).val % 50 = 0 := by dsimp only; omega
    rw [show (outsAt1 V c (n + 1) h).2.2 = _ from outs5_B V c ⟨n + 1, h⟩ hB, step5 V c ⟨n + 1, h⟩ _ l]
    exact sum_tiles_step (colN (sq3 V c) l) (n + 1) _ (fun r => colN_row (sq3 V c) l ⟨n + 1, h⟩ r) _ (acc5 c n _ l)

/-- After the last point the accumulator holds the column sums over all 100000 rows. -/
theorem acc5_last (c : Dev nD) (t : Fin cfg1.N) (ht : t.val = 49) :
    (outsAt1 V c t.val t.isLt).2.2 = colSum (sq3 V c) := by
  funext j
  obtain ⟨u, l, rfl⟩ : ∃ (u : Fin 1) (l : Fin 128), j = ix2 u l := ⟨j 0, j 1, eq_ix2 j⟩
  obtain rfl : u = 0 := Subsingleton.elim _ _
  refine (acc5 V c t.val t.isLt l).trans ?_
  rw [ht]
  exact sum_rows (colN (sq3 V c) l) _ (fun r => colN_val (sq3 V c) l r)

/-- The one write-back, at the last point, writes them: the accumulator's one block is its whole array. -/
theorem flushed5_eq (c : Dev nD) (t : Fin cfg1.N) (hf : (cfg1.win 5).flush t = true) :
    (dat1 (F := Ideal) V c).flushed 5 t = ((cfg1.win 5).blk t).view.read (Elt Ideal) (colSum (sq3 V c)) := by
  have ht : t.val = 49 := by have := (flush1_5 t).mp hf; have := lt50 t; omega
  have e0 : win1_5.index t (0 : Fin 2) = 0 := (idx_facts t).2.2.2.2.2.2.2.2.2.2.1
  have e1 : win1_5.index t (1 : Fin 2) = 0 := (idx_facts t).2.2.2.2.2.2.2.2.2.2.2
  show (cfg1.win 5).cut (grid1.coords t) ((dat1 V c).after 5 t) = _
  rw [after1_5, acc5_last V c t ht]
  have hz' : (fun a => win1_5.index t a * main_v57_2.ty.shape.size a) = fun _ => 0 := funext fun a => by
    match a with
    | ⟨0, _⟩ => show win1_5.index t (0 : Fin 2) * 1 = 0; rw [e0]
    | ⟨1, _⟩ => show win1_5.index t (1 : Fin 2) * 128 = 0; rw [e1]
  exact (Memref.read_access_unit_zero (Elt Ideal) main_v57_2 hz' (fun a => by rw [congrFun hz' a]; simp) (colSum (sq3 V c))).symm

/-- An index of the accumulator's array is in point `t`'s block iff each coordinate is in the block's range on its axis. -/
theorem mem_blk5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v57_2).slice (win1_5.rect t)).set ↔ _
  rw [View.set_slice_whole, Rect.mem_set_unit]
  exact Iff.rfl

/-- The last point's block covers the accumulator's array. -/
theorem cover5 (i : S1x128.Idx) : ∃ t : Fin cfg1.N, (cfg1.win 5).flush t = true ∧ i ∈ ((cfg1.win 5).blk t).view.set := by
  have hi0 : (i 0).val < 1 := (i 0).isLt
  have hi1 : (i 1).val < 128 := (i 1).isLt
  have hN : cfg1.N = 50 := N_1
  have ht : 49 < cfg1.N := by rw [hN]; omega
  refine ⟨⟨49, ht⟩, (flush1_5 _).mpr rfl, ?_⟩
  have e0 : win1_5.index ⟨49, ht⟩ (0 : Fin 2) = 0 := (idx_facts ⟨49, ht⟩).2.2.2.2.2.2.2.2.2.2.1
  have e1 : win1_5.index ⟨49, ht⟩ (1 : Fin 2) = 0 := (idx_facts ⟨49, ht⟩).2.2.2.2.2.2.2.2.2.2.2
  rw [mem_blk5]
  intro a
  match a with
  | ⟨0, _⟩ => show win1_5.index ⟨49, ht⟩ (0 : Fin 2) * 1 ≤ (i 0).val ∧ (i 0).val < win1_5.index ⟨49, ht⟩ (0 : Fin 2) * 1 + 1; rw [e0]; omega
  | ⟨1, _⟩ => show win1_5.index ⟨49, ht⟩ (1 : Fin 2) * 128 ≤ (i 1).val ∧ (i 1).val < win1_5.index ⟨49, ht⟩ (1 : Fin 2) * 128 + 128; rw [e1]; omega

/-- OUTPUT WINDOW 5 after the region: the sum, over all 100000 rows, of each column of the square of the three input arrays added. -/
theorem arr1_5 (c : Dev nD) : (dat1 (F := Ideal) V c).arrAt 5 cfg1.N
    = fun i => ∑ r : Fin 100000, sum3 V c (ix2 r (i 1)) * sum3 V c (ix2 r (i 1)) :=
  (dat1 (F := Ideal) V c).arrAt_eq_of_cover 5 (colSum (sq3 V c)) (flushed5_eq V c) cover5

end Cert.KernelIdeal.RegionValue1

end
-- ==== Proof.KernelFold1.lean ====
/-
  The kernel program's boundaries: which buffers ride unchanged from where they are written to where they are read.
  (First part of the fold's reading; the values follow in the next modules.)
  The kernel program's first layer read off the fold of boundary contents: after the first product and the first
  reduction kernel, the summed array is `convK` of the argument arrays (self term with the summed self weights plus
  the two neighbour means by reciprocal in-degrees), and the two accumulated rows are its column sums and the column
  sums of its squares.
-/
import proofs.«151220_j103079215236_2_alg».proof.Proof.Gen.KernelIdeal.Frame
import proofs.«151220_j103079215236_2_alg».proof.Proof.Stages
import proofs.«151220_j103079215236_2_alg».proof.Proof.KernelHost
import proofs.«151220_j103079215236_2_alg».proof.Proof.MatmulRegion0
import proofs.«151220_j103079215236_2_alg».proof.Proof.ReduceRegion1

set_option maxRecDepth 16384

noncomputable section

namespace Cert.KernelIdeal.FoldValue

open Cert.KernelIdeal Cert.KernelIdeal.Gen Cert.KernelIdeal.HostValue Cert.Stages
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-- A host stretch leaves a buffer it does not write as it found it. -/
macro "keeps" : tactic =>
  `(tactic| (refine StableHlo.after_of_forall_not_mem _ _ (List.forall_iff_forall_mem.mp ?_)
             simp only [hostOps0, hostOps1, hostOps2, hostOps4, hostOps5, hostOps6, hostOps6_1, hostOps6_2, hostOps6_3, hostOps7,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## Buffers carried unchanged from one boundary to a later one: no host stretch and no region in between writes them -/

theorem carry_main_arg0_1_0 : W1 m ρ c (Proc.devRef .tc main_arg0) = W0 m ρ c (Proc.devRef .tc main_arg0) :=
  calc W1 m ρ c (Proc.devRef .tc main_arg0)
    _ = W0 m ρ c (Proc.devRef .tc main_arg0) := by show after hostOps0 (W0 m ρ c) (Proc.devRef .tc main_arg0) = _; keeps

theorem carry_main_arg4_1_0 : W1 m ρ c (Proc.devRef .tc main_arg4) = W0 m ρ c (Proc.devRef .tc main_arg4) :=
  calc W1 m ρ c (Proc.devRef .tc main_arg4)
    _ = W0 m ρ c (Proc.devRef .tc main_arg4) := by show after hostOps0 (W0 m ρ c) (Proc.devRef .tc main_arg4) = _; keeps

theorem carry_main_arg6_1_0 : W1 m ρ c (Proc.devRef .tc main_arg6) = W0 m ρ c (Proc.devRef .tc main_arg6) :=
  calc W1 m ρ c (Proc.devRef .tc main_arg6)
    _ = W0 m ρ c (Proc.devRef .tc main_arg6) := by show after hostOps0 (W0 m ρ c) (Proc.devRef .tc main_arg6) = _; keeps

theorem carry_main_arg1_2_0 : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := by show after hostOps0 (W0 m ρ c) (Proc.devRef .tc main_arg1) = _; keeps

theorem carry_main_arg2_2_0 : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := by show after hostOps0 (W0 m ρ c) (Proc.devRef .tc main_arg2) = _; keeps

theorem carry_main_arg1_7_0 : W7 m ρ c (Proc.devRef .tc main_arg1) = W0 m ρ c (Proc.devRef .tc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := by show after hostOps2 (W4 m ρ c) (Proc.devRef .tc main_arg1) = _; keeps
    _ = W3 m ρ c (Proc.devRef .tc main_arg1) := W4_of_ne m ρ c main_arg1 (by decide)
    _ = W2 m ρ c (Proc.devRef .tc main_arg1) := by show after hostOps1 (W2 m ρ c) (Proc.devRef .tc main_arg1) = _; keeps
    _ = W1 m ρ c (Proc.devRef .tc main_arg1) := W2_of_ne m ρ c main_arg1 (by decide)
    _ = W0 m ρ c (Proc.devRef .tc main_arg1) := by show after hostOps0 (W0 m ρ c) (Proc.devRef .tc main_arg1) = _; keeps

theorem carry_main_arg2_7_0 : W7 m ρ c (Proc.devRef .tc main_arg2) = W0 m ρ c (Proc.devRef .tc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by show after hostOps2 (W4 m ρ c) (Proc.devRef .tc main_arg2) = _; keeps
    _ = W3 m ρ c (Proc.devRef .tc main_arg2) := W4_of_ne m ρ c main_arg2 (by decide)
    _ = W2 m ρ c (Proc.devRef .tc main_arg2) := by show after hostOps1 (W2 m ρ c) (Proc.devRef .tc main_arg2) = _; keeps
    _ = W1 m ρ c (Proc.devRef .tc main_arg2) := W2_of_ne m ρ c main_arg2 (by decide)
    _ = W0 m ρ c (Proc.devRef .tc main_arg2) := by show after hostOps0 (W0 m ρ c) (Proc.devRef .tc main_arg2) = _; keeps

theorem carry_main_v9_2_1 : W2 m ρ c (Proc.devRef .tc main_v9) = W1 m ρ c (Proc.devRef .tc main_v9) :=
  calc W2 m ρ c (Proc.devRef .tc main_v9)
    _ = W1 m ρ c (Proc.devRef .tc main_v9) := W2_of_ne m ρ c main_v9 (by decide)

theorem carry_main_v19_2_1 : W2 m ρ c (Proc.devRef .tc main_v19) = W1 m ρ c (Proc.devRef .tc main_v19) :=
  calc W2 m ρ c (Proc.devRef .tc main_v19)
    _ = W1 m ρ c (Proc.devRef .tc main_v19) := W2_of_ne m ρ c main_v19 (by decide)

theorem carry_main_v9_7_1 : W7 m ρ c (Proc.devRef .tc main_v9) = W1 m ρ c (Proc.devRef .tc main_v9) :=
  calc W7 m ρ c (Proc.devRef .tc main_v9)
    _ = W6 m ρ c (Proc.devRef .tc main_v9) := W7_of_ne m ρ c main_v9 (by decide)
    _ = W5 m ρ c (Proc.devRef .tc main_v9) := W6_of_ne m ρ c main_v9 (by decide)
    _ = W4 m ρ c (Proc.devRef .tc main_v9) := by show after hostOps2 (W4 m ρ c) (Proc.devRef .tc main_v9) = _; keeps
    _ = W3 m ρ c (Proc.devRef .tc main_v9) := W4_of_ne m ρ c main_v9 (by decide)
    _ = W2 m ρ c (Proc.devRef .tc main_v9) := by show after hostOps1 (W2 m ρ c) (Proc.devRef .tc main_v9) = _; keeps
    _ = W1 m ρ c (Proc.devRef .tc main_v9) := W2_of_ne m ρ c main_v9 (by decide)

theorem carry_main_v19_7_1 : W7 m ρ c (Proc.devRef .tc main_v19) = W1 m ρ c (Proc.devRef .tc main_v19) :=
  calc W7 m ρ c (Proc.devRef .tc main_v19)
    _ = W6 m ρ c (Proc.devRef .tc main_v19) := W7_of_ne m ρ c main_v19 (by decide)
    _ = W5 m ρ c (Proc.devRef .tc main_v19) := W6_of_ne m ρ c main_v19 (by decide)
    _ = W4 m ρ c (Proc.devRef .tc main_v19) := by show after hostOps2 (W4 m ρ c) (Proc.devRef .tc main_v19) = _; keeps
    _ = W3 m ρ c (Proc.devRef .tc main_v19) := W4_of_ne m ρ c main_v19 (by decide)
    _ = W2 m ρ c (Proc.devRef .tc main_v19) := by show after hostOps1 (W2 m ρ c) (Proc.devRef .tc main_v19) = _; keeps
    _ = W1 m ρ c (Proc.devRef .tc main_v19) := W2_of_ne m ρ c main_v19 (by decide)

theorem carry_main_v22_0_3_2 : W3 m ρ c (Proc.devRef .tc main_v22_0) = W2 m ρ c (Proc.devRef .tc main_v22_0) :=
  calc W3 m ρ c (Proc.devRef .tc main_v22_0)
    _ = W2 m ρ c (Proc.devRef .tc main_v22_0) := by show after hostOps1 (W2 m ρ c) (Proc.devRef .tc main_v22_0) = _; keeps

theorem carry_main_arg12_4_0 : W4 m ρ c (Proc.devRef .tc main_arg12) = W0 m ρ c (Proc.devRef .tc main_arg12) :=
  calc W4 m ρ c (Proc.devRef .tc main_arg12)
    _ = W3 m ρ c (Proc.devRef .tc main_arg12) := W4_of_ne m ρ c main_arg12 (by decide)
    _ = W2 m ρ c (Proc.devRef .tc main_arg12) := by show after hostOps1 (W2 m ρ c) (Proc.devRef .tc main_arg12) = _; keeps
    _ = W1 m ρ c (Proc.devRef .tc main_arg12) := W2_of_ne m ρ c main_arg12 (by decide)
    _ = W0 m ρ c (Proc.devRef .tc main_arg12) := by show after hostOps0 (W0 m ρ c) (Proc.devRef .tc main_arg12) = _; keeps

theorem carry_main_arg13_4_0 : W4 m ρ c (Proc.devRef .tc main_arg13) = W0 m ρ c (Proc.devRef .tc main_arg13) :=
  calc W4 m ρ c (Proc.devRef .tc main_arg13)
    _ = W3 m ρ c (Proc.devRef .tc main_arg13) := W4_of_ne m ρ c main_arg13 (by decide)
    _ = W2 m ρ c (Proc.devRef .tc main_arg13) := by show after hostOps1 (W2 m ρ c) (Proc.devRef .tc main_arg13) = _; keeps
    _ = W1 m ρ c (Proc.devRef .tc main_arg13) := W2_of_ne m ρ c main_arg13 (by decide)
    _ = W0 m ρ c (Proc.devRef .tc main_arg13) := by show after hostOps0 (W0 m ρ c) (Proc.devRef .tc main_arg13) = _; keeps

theorem carry_main_v57_0_5_4 : W5 m ρ c (Proc.devRef .tc main_v57_0) = W4 m ρ c (Proc.devRef .tc main_v57_0) :=
  calc W5 m ρ c (Proc.devRef .tc main_v57_0)
    _ = W4 m ρ c (Proc.devRef .tc main_v57_0) := by show after hostOps2 (W4 m ρ c) (Proc.devRef .tc main_v57_0) = _; keeps

theorem carry_main_v21_6_1 : W6 m ρ c (Proc.devRef .tc main_v21) = W1 m ρ c (Proc.devRef .tc main_v21) :=
  calc W6 m ρ c (Proc.devRef .tc main_v21)
    _ = W5 m ρ c (Proc.devRef .tc main_v21) := W6_of_ne m ρ c main_v21 (by decide)
    _ = W4 m ρ c (Proc.devRef .tc main_v21) := by show after hostOps2 (W4 m ρ c) (Proc.devRef .tc main_v21) = _; keeps
    _ = W3 m ρ c (Proc.devRef .tc main_v21) := W4_of_ne m ρ c main_v21 (by decide)
    _ = W2 m ρ c (Proc.devRef .tc main_v21) := by show after hostOps1 (W2 m ρ c) (Proc.devRef .tc main_v21) = _; keeps
    _ = W1 m ρ c (Proc.devRef .tc main_v21) := W2_of_ne m ρ c main_v21 (by decide)

theorem carry_main_arg8_6_0 : W6 m ρ c (Proc.devRef .tc main_arg8) = W0 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := by show after hostOps2 (W4 m ρ c) (Proc.devRef .tc main_arg8) = _; keeps
    _ = W3 m ρ c (Proc.devRef .tc main_arg8) := W4_of_ne m ρ c main_arg8 (by decide)
    _ = W2 m ρ c (Proc.devRef .tc main_arg8) := by show after hostOps1 (W2 m ρ c) (Proc.devRef .tc main_arg8) = _; keeps
    _ = W1 m ρ c (Proc.devRef .tc main_arg8) := W2_of_ne m ρ c main_arg8 (by decide)
    _ = W0 m ρ c (Proc.devRef .tc main_arg8) := by show after hostOps0 (W0 m ρ c) (Proc.devRef .tc main_arg8) = _; keeps

theorem carry_main_arg10_6_0 : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := by show after hostOps2 (W4 m ρ c) (Proc.devRef .tc main_arg10) = _; keeps
    _ = W3 m ρ c (Proc.devRef .tc main_arg10) := W4_of_ne m ρ c main_arg10 (by decide)
    _ = W2 m ρ c (Proc.devRef .tc main_arg10) := by show after hostOps1 (W2 m ρ c) (Proc.devRef .tc main_arg10) = _; keeps
    _ = W1 m ρ c (Proc.devRef .tc main_arg10) := W2_of_ne m ρ c main_arg10 (by decide)
    _ = W0 m ρ c (Proc.devRef .tc main_arg10) := by show after hostOps0 (W0 m ρ c) (Proc.devRef .tc main_arg10) = _; keeps

theorem carry_main_v75_0_8_7 : W8 m ρ c (Proc.devRef .tc main_v75_0) = W7 m ρ c (Proc.devRef .tc main_v75_0) :=
  calc W8 m ρ c (Proc.devRef .tc main_v75_0)
    _ = W7 m ρ c (Proc.devRef .tc main_v75_0) := by show after hostOps4 (W7 m ρ c) (Proc.devRef .tc main_v75_0) = _; keeps

theorem carry_main_arg14_9_0 : W9 m ρ c (Proc.devRef .tc main_arg14) = W0 m ρ c (Proc.devRef .tc main_arg14) :=
  calc W9 m ρ c (Proc.devRef .tc main_arg14)
    _ = W8 m ρ c (Proc.devRef .tc main_arg14) := W9_of_ne m ρ c main_arg14 (by decide)
    _ = W7 m ρ c (Proc.devRef .tc main_arg14) := by show after hostOps4 (W7 m ρ c) (Proc.devRef .tc main_arg14) = _; keeps
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := by show after hostOps2 (W4 m ρ c) (Proc.devRef .tc main_arg14) = _; keeps
    _ = W3 m ρ c (Proc.devRef .tc main_arg14) := W4_of_ne m ρ c main_arg14 (by decide)
    _ = W2 m ρ c (Proc.devRef .tc main_arg14) := by show after hostOps1 (W2 m ρ c) (Proc.devRef .tc main_arg14) = _; keeps
    _ = W1 m ρ c (Proc.devRef .tc main_arg14) := W2_of_ne m ρ c main_arg14 (by decide)
    _ = W0 m ρ c (Proc.devRef .tc main_arg14) := by show after hostOps0 (W0 m ρ c) (Proc.devRef .tc main_arg14) = _; keeps

theorem carry_main_arg15_9_0 : W9 m ρ c (Proc.devRef .tc main_arg15) = W0 m ρ c (Proc.devRef .tc main_arg15) :=
  calc W9 m ρ c (Proc.devRef .tc main_arg15)
    _ = W8 m ρ c (Proc.devRef .tc main_arg15) := W9_of_ne m ρ c main_arg15 (by decide)
    _ = W7 m ρ c (Proc.devRef .tc main_arg15) := by show after hostOps4 (W7 m ρ c) (Proc.devRef .tc main_arg15) = _; keeps
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := by show after hostOps2 (W4 m ρ c) (Proc.devRef .tc main_arg15) = _; keeps
    _ = W3 m ρ c (Proc.devRef .tc main_arg15) := W4_of_ne m ρ c main_arg15 (by decide)
    _ = W2 m ρ c (Proc.devRef .tc main_arg15) := by show after hostOps1 (W2 m ρ c) (Proc.devRef .tc main_arg15) = _; keeps
    _ = W1 m ρ c (Proc.devRef .tc main_arg15) := W2_of_ne m ρ c main_arg15 (by decide)
    _ = W0 m ρ c (Proc.devRef .tc main_arg15) := by show after hostOps0 (W0 m ρ c) (Proc.devRef .tc main_arg15) = _; keeps

theorem carry_main_v110_0_10_9 : W10 m ρ c (Proc.devRef .tc main_v110_0) = W9 m ρ c (Proc.devRef .tc main_v110_0) :=
  calc W10 m ρ c (Proc.devRef .tc main_v110_0)
    _ = W9 m ρ c (Proc.devRef .tc main_v110_0) := by show after hostOps5 (W9 m ρ c) (Proc.devRef .tc main_v110_0) = _; keeps

theorem carry_main_arg3_11_0 : W11 m ρ c (Proc.devRef .tc main_arg3) = W0 m ρ c (Proc.devRef .tc main_arg3) :=
  calc W11 m ρ c (Proc.devRef .tc main_arg3)
    _ = W10 m ρ c (Proc.devRef .tc main_arg3) := W11_of_ne m ρ c main_arg3 (by decide)
    _ = W9 m ρ c (Proc.devRef .tc main_arg3) := by show after hostOps5 (W9 m ρ c) (Proc.devRef .tc main_arg3) = _; keeps
    _ = W8 m ρ c (Proc.devRef .tc main_arg3) := W9_of_ne m ρ c main_arg3 (by decide)
    _ = W7 m ρ c (Proc.devRef .tc main_arg3) := by show after hostOps4 (W7 m ρ c) (Proc.devRef .tc main_arg3) = _; keeps
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := by show after hostOps2 (W4 m ρ c) (Proc.devRef .tc main_arg3) = _; keeps
    _ = W3 m ρ c (Proc.devRef .tc main_arg3) := W4_of_ne m ρ c main_arg3 (by decide)
    _ = W2 m ρ c (Proc.devRef .tc main_arg3) := by show after hostOps1 (W2 m ρ c) (Proc.devRef .tc main_arg3) = _; keeps
    _ = W1 m ρ c (Proc.devRef .tc main_arg3) := W2_of_ne m ρ c main_arg3 (by decide)
    _ = W0 m ρ c (Proc.devRef .tc main_arg3) := by show after hostOps0 (W0 m ρ c) (Proc.devRef .tc main_arg3) = _; keeps

theorem carry_main_v145_14_12 : W14 m ρ c (Proc.devRef .tc main_v145) = W12 m ρ c (Proc.devRef .tc main_v145) :=
  calc W14 m ρ c (Proc.devRef .tc main_v145)
    _ = W13 m ρ c (Proc.devRef .tc main_v145) := by show after hostOps6_2 (W13 m ρ c) (Proc.devRef .tc main_v145) = _; keeps
    _ = W12 m ρ c (Proc.devRef .tc main_v145) := by show after hostOps6_1 (W12 m ρ c) (Proc.devRef .tc main_v145) = _; keeps

theorem carry_main_v146_15_13 : W15 m ρ c (Proc.devRef .tc main_v146) = W13 m ρ c (Proc.devRef .tc main_v146) :=
  calc W15 m ρ c (Proc.devRef .tc main_v146)
    _ = W14 m ρ c (Proc.devRef .tc main_v146) := by show after hostOps6_3 (W14 m ρ c) (Proc.devRef .tc main_v146) = _; keeps
    _ = W13 m ρ c (Proc.devRef .tc main_v146) := by show after hostOps6_2 (W13 m ρ c) (Proc.devRef .tc main_v146) = _; keeps

/-! ## The first product (region 0): the self term with the summed self weights, the two neighbour terms -/

theorem W2_self : W2 m ρ c (Proc.devRef .tc main_v22_0) = rowsTimes (W0 m ρ c (Proc.devRef .tc main_arg0)) (addf (W0 m ρ c (Proc.devRef .tc main_arg5)) (W0 m ρ c (Proc.devRef .tc main_arg7))) := by
  have e0 : V1 m ρ c (Pipeline.arrRef spec0 0) = (W0 m ρ c (Proc.devRef .tc main_arg0)) := carry_main_arg0_1_0 m ρ c
  have e1 : V1 m ρ c (Pipeline.arrRef spec0 1) = (addf (W0 m ρ c (Proc.devRef .tc main_arg5)) (W0 m ρ c (Proc.devRef .tc main_arg7)) : FVec Ideal S128x128 .f32) := h0_self1 (W0 m ρ c)
  refine ((W2_arr m ρ c 4).trans (MatmulRegion0.arr0_4 (V1 m ρ) c)).trans ?_
  rw [e0, e1]
  rfl

theorem W2_nbr1 : W2 m ρ c (Proc.devRef .tc main_v22_1) = rowsTimes (W0 m ρ c (Proc.devRef .tc main_arg0)) (W0 m ρ c (Proc.devRef .tc main_arg4)) := by
  have e0 : V1 m ρ c (Pipeline.arrRef spec0 0) = (W0 m ρ c (Proc.devRef .tc main_arg0)) := carry_main_arg0_1_0 m ρ c
  have e1 : V1 m ρ c (Pipeline.arrRef spec0 2) = (W0 m ρ c (Proc.devRef .tc main_arg4)) := carry_main_arg4_1_0 m ρ c
  refine ((W2_arr m ρ c 5).trans (MatmulRegion0.arr0_5 (V1 m ρ) c)).trans ?_
  rw [e0, e1]
  rfl

theorem W2_nbr2 : W2 m ρ c (Proc.devRef .tc main_v22_2) = rowsTimes (W0 m ρ c (Proc.devRef .tc main_arg0)) (W0 m ρ c (Proc.devRef .tc main_arg6)) := by
  have e0 : V1 m ρ c (Pipeline.arrRef spec0 0) = (W0 m ρ c (Proc.devRef .tc main_arg0)) := carry_main_arg0_1_0 m ρ c
  have e1 : V1 m ρ c (Pipeline.arrRef spec0 3) = (W0 m ρ c (Proc.devRef .tc main_arg6)) := carry_main_arg6_1_0 m ρ c
  refine ((W2_arr m ρ c 6).trans (MatmulRegion0.arr0_6 (V1 m ρ) c)).trans ?_
  rw [e0, e1]
  rfl

/-! ## The neighbour means (second host stretch) -/

theorem W1_invdeg1 : W1 m ρ c (Proc.devRef .tc main_v9) = invDegree (W0 m ρ c (Proc.devRef .tc main_arg1)) := h0_invdeg1 (W0 m ρ c)
theorem W1_invdeg2 : W1 m ρ c (Proc.devRef .tc main_v19) = invDegree (W0 m ρ c (Proc.devRef .tc main_arg2)) := h0_invdeg2 (W0 m ρ c)

theorem W3_mean1 : W3 m ρ c (Proc.devRef .tc main_v39) = nbrMeanK (rowsTimes (W0 m ρ c (Proc.devRef .tc main_arg0)) (W0 m ρ c (Proc.devRef .tc main_arg4))) (W0 m ρ c (Proc.devRef .tc main_arg1)) (invDegree (W0 m ρ c (Proc.devRef .tc main_arg1))) := by
  refine (h1_mean1 (W2 m ρ c)).trans ?_
  rw [W2_nbr1, carry_main_arg1_2_0, carry_main_v9_2_1, W1_invdeg1]

theorem W3_mean2 : W3 m ρ c (Proc.devRef .tc main_v56) = nbrMeanK (rowsTimes (W0 m ρ c (Proc.devRef .tc main_arg0)) (W0 m ρ c (Proc.devRef .tc main_arg6))) (W0 m ρ c (Proc.devRef .tc main_arg2)) (invDegree (W0 m ρ c (Proc.devRef .tc main_arg2))) := by
  refine (h1_mean2 (W2 m ρ c)).trans ?_
  rw [W2_nbr2, carry_main_arg2_2_0, carry_main_v19_2_1, W1_invdeg2]

/-! ## The first reduction kernel (region 1): the summed array and its two rows of column sums -/

theorem sum1_eq : RegionValue1.sum3 (V3 m ρ) c = (convK (W0 m ρ c (Proc.devRef .tc main_arg0)) (W0 m ρ c (Proc.devRef .tc main_arg1)) (W0 m ρ c (Proc.devRef .tc main_arg2)) (W0 m ρ c (Proc.devRef .tc main_arg4)) (W0 m ρ c (Proc.devRef .tc main_arg5)) (W0 m ρ c (Proc.devRef .tc main_arg6)) (W0 m ρ c (Proc.devRef .tc main_arg7)) (invDegree (W0 m ρ c (Proc.devRef .tc main_arg1))) (invDegree (W0 m ρ c (Proc.devRef .tc main_arg2)))) := by
  have e0 : RegionValue1.inp0 (V3 m ρ) c = rowsTimes (W0 m ρ c (Proc.devRef .tc main_arg0)) (addf (W0 m ρ c (Proc.devRef .tc main_arg5)) (W0 m ρ c (Proc.devRef .tc main_arg7))) :=
    (show RegionValue1.inp0 (V3 m ρ) c = W3 m ρ c (Proc.devRef .tc main_v22_0) from rfl).trans ((carry_main_v22_0_3_2 m ρ c).trans (W2_self m ρ c))
  have e1 : RegionValue1.inp1 (V3 m ρ) c = nbrMeanK (rowsTimes (W0 m ρ c (Proc.devRef .tc main_arg0)) (W0 m ρ c (Proc.devRef .tc main_arg4))) (W0 m ρ c (Proc.devRef .tc main_arg1)) (invDegree (W0 m ρ c (Proc.devRef .tc main_arg1))) :=
    (show RegionValue1.inp1 (V3 m ρ) c = W3 m ρ c (Proc.devRef .tc main_v39) from rfl).trans (W3_mean1 m ρ c)
  have e2 : RegionValue1.inp2 (V3 m ρ) c = nbrMeanK (rowsTimes (W0 m ρ c (Proc.devRef .tc main_arg0)) (W0 m ρ c (Proc.devRef .tc main_arg6))) (W0 m ρ c (Proc.devRef .tc main_arg2)) (invDegree (W0 m ρ c (Proc.devRef .tc main_arg2))) :=
    (show RegionValue1.inp2 (V3 m ρ) c = W3 m ρ c (Proc.devRef .tc main_v56) from rfl).trans (W3_mean2 m ρ c)
  funext i
  rw [RegionValue1.sum3_apply, e0, e1, e2]
  rfl

theorem W4_h : W4 m ρ c (Proc.devRef .tc main_v57_0) = (convK (W0 m ρ c (Proc.devRef .tc main_arg0)) (W0 m ρ c (Proc.devRef .tc main_arg1)) (W0 m ρ c (Proc.devRef .tc main_arg2)) (W0 m ρ c (Proc.devRef .tc main_arg4)) (W0 m ρ c (Proc.devRef .tc main_arg5)) (W0 m ρ c (Proc.devRef .tc main_arg6)) (W0 m ρ c (Proc.devRef .tc main_arg7)) (invDegree (W0 m ρ c (Proc.devRef .tc main_arg1))) (invDegree (W0 m ρ c (Proc.devRef .tc main_arg2)))) :=
  ((W4_arr m ρ c 3).trans (RegionValue1.arr1_3 (V3 m ρ) c)).trans (sum1_eq m ρ c)

theorem W4_sum : W4 m ρ c (Proc.devRef .tc main_v57_1) = colSum (convK (W0 m ρ c (Proc.devRef .tc main_arg0)) (W0 m ρ c (Proc.devRef .tc main_arg1)) (W0 m ρ c (Proc.devRef .tc main_arg2)) (W0 m ρ c (Proc.devRef .tc main_arg4)) (W0 m ρ c (Proc.devRef .tc main_arg5)) (W0 m ρ c (Proc.devRef .tc main_arg6)) (W0 m ρ c (Proc.devRef .tc main_arg7)) (invDegree (W0 m ρ c (Proc.devRef .tc main_arg1))) (invDegree (W0 m ρ c (Proc.devRef .tc main_arg2)))) := by
  refine ((W4_arr m ρ c 4).trans (RegionValue1.arr1_4 (V3 m ρ) c)).trans ?_
  rw [sum1_eq]
  rfl

theorem W4_sumsq : W4 m ρ c (Proc.devRef .tc main_v57_2) = colSum (fun i => (convK (W0 m ρ c (Proc.devRef .tc main_arg0)) (W0 m ρ c (Proc.devRef .tc main_arg1)) (W0 m ρ c (Proc.devRef .tc main_arg2)) (W0 m ρ c (Proc.devRef .tc main_arg4)) (W0 m ρ c (Proc.devRef .tc main_arg5)) (W0 m ρ c (Proc.devRef .tc main_arg6)) (W0 m ρ c (Proc.devRef .tc main_arg7)) (invDegree (W0 m ρ c (Proc.devRef .tc main_arg1))) (invDegree (W0 m ρ c (Proc.devRef .tc main_arg2)))) i * (convK (W0 m ρ c (Proc.devRef .tc main_arg0)) (W0 m ρ c (Proc.devRef .tc main_arg1)) (W0 m ρ c (Proc.devRef .tc main_arg2)) (W0 m ρ c (Proc.devRef .tc main_arg4)) (W0 m ρ c (Proc.devRef .tc main_arg5)) (W0 m ρ c (Proc.devRef .tc main_arg6)) (W0 m ρ c (Proc.devRef .tc main_arg7)) (invDegree (W0 m ρ c (Proc.devRef .tc main_arg1))) (invDegree (W0 m ρ c (Proc.devRef .tc main_arg2)))) i) := by
  refine ((W4_arr m ρ c 5).trans (RegionValue1.arr1_5 (V3 m ρ) c)).trans ?_
  rw [sum1_eq]
  rfl

end Cert.KernelIdeal.FoldValue

end
-- ==== Proof.ApplyRegion2.lean ====
/- What the second pallas_call region of the idealized kernel (an affine map followed by a
   leaky rectifier, applied row block by row block) leaves in its output array, as one whole-array function of its
   three input arrays as the region finds them.

   The region walks the 50 row blocks of a [100000, 128] array `h`. At block `t` its body loads rows
   2000 t … 2000 t + 1999 of `h` and the two whole [1, 128] rows `scale` and `shift`, computes
   `y = h * broadcast scale + broadcast shift` lane by lane, then selects `y` where `y > 0` and `slope * y`
   elsewhere (`slope` the float word 0x3C23D70A, kept as a word), and stores the [2000, 128] result, which the pipeline
   writes back to rows 2000 t … 2000 t + 1999 of the output. The 50 blocks tile the 100000 rows, so afterwards entry
   (r, l) of the output is the rectifier of `h (r, l) * scale (0, l) + shift (0, l)`, whatever the output held before.

   The steps: the body's value at one entry of a block (`pay_apply`); a block's value as the whole-array function
   read through the block's embedding into the array (`block_eq`, over plain functions); the block indices of the
   four windows at a grid point, decided over the 50 points (`idx_facts`); each loaded block as its array read
   through a block embedding (`iblk0_apply` … `iblk2_apply`); what a point writes back (`flushed_eq`); every array index lies in the block of point r / 2000 (`mem_blk`, `cover`); the array
   (`arr2_3`). -/
import proofs.«151220_j103079215236_2_alg».proof.Proof.Gen.KernelIdeal.Frame
import Idealize.ShloMosaic.Lib.Pipeline.Value
import Idealize.ShloMosaic.Lib.ValueLayout

set_option maxRecDepth 16384

noncomputable section

namespace Cert.KernelIdeal.RegionValue2

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer access, as the constant function. -/
theorem hz : (![0, 0] : Fin 2 → Nat) = fun _ => 0 := funext fun a => by fin_cases a <;> rfl

/-- The leaky rectifier on the extended reals, with the operations the body uses read at one element: `y` where
    `y` is above the value of the zero word, the value of the word 0x3C23D70A times `y` elsewhere. Both words are kept as
    words. -/
abbrev leaky (y : EReal) : EReal :=
  Scalar.select (Ideal.cmp .ogt y (Ideal.ofBits .f32 0x00000000#32)) y (Ideal.ofBits .f32 0x3C23D70A#32 * y)

/-- The region as ONE function of its three input arrays: entry (r, l) is the rectifier of
    `h (r, l) * scale (0, l) + shift (0, l)`. -/
abbrev G (h : S100000x128.Idx → EReal) (scale shift : S1x128.Idx → EReal) : S100000x128.Idx → EReal :=
  fun i => leaky (h i * scale (ix2 0 (i 1)) + shift (ix2 0 (i 1)))

/-- The body's value at entry (p, q) of a block: the rectifier of the loaded entry times lane q of the scale row plus
    lane q of the shift row (the same-shape casts are the identity, the row broadcasts read their one row, the two
    splat constants read their words, comparison and select act element by element). -/
theorem pay_apply (x0 : Vec Ideal S2000x128 .f32) (x1 x2 : Vec Ideal S1x128 .f32) (p : Fin 2000) (q : Fin 128) :
    k2_pay1 x0 x1 x2 (ix2 p q) = leaky (x0 (ix2 p q) * x1 (ix2 (0 : Fin 1) q) + x2 (ix2 (0 : Fin 1) q)) := by
  unfold k2_pay1
  simp only [shapeCast_self]
  rw [select_apply, cmpf_apply, mulf_apply, broadcast_apply, broadcast_apply, addf_apply, mulf_apply,
    broadcastTo_1b_ab_apply, broadcastTo_1b_ab_apply]
  rfl

/-- A block's value is `G` read through the block's embedding `e` into the array: if the loaded block `x0` is the
    array `A0` read through `e`, the loaded rows are the whole row arrays, and `e` keeps the lane coordinate, then
    the body's value at `j` is `G A0 A1 A2 (e j)`. -/
theorem block_eq (x0 : Vec Ideal S2000x128 .f32) (x1 x2 : Vec Ideal S1x128 .f32)
    (A0 : S100000x128.Idx → EReal) (A1 A2 : S1x128.Idx → EReal) (e : S2000x128.Idx → S100000x128.Idx)
    (h0 : ∀ j, x0 j = A0 (e j)) (h1 : ∀ j, x1 j = A1 j) (h2 : ∀ j, x2 j = A2 j)
    (he : ∀ j, (e j 1).val = (j 1).val) :
    k2_pay1 x0 x1 x2 = fun j => G A0 A1 A2 (e j) := by
  funext j
  obtain ⟨p, q, rfl⟩ : ∃ (p : Fin 2000) (q : Fin 128), j = ix2 p q := ⟨j 0, j 1, eq_ix2 j⟩
  rw [pay_apply, h0, h1, h2]
  have hq : (ix2 (0 : Fin 1) (e (ix2 p q) 1) : S1x128.Idx) = ix2 (0 : Fin 1) q := by
    funext a; apply Fin.ext
    match a with
    | ⟨0, _⟩ => rfl
    | ⟨1, _⟩ => exact he (ix2 p q)
  show _ = leaky (A0 (e (ix2 p q)) * A1 (ix2 (0 : Fin 1) (e (ix2 p q) 1)) + A2 (ix2 (0 : Fin 1) (e (ix2 p q) 1)))
  rw [hq]

/-- The printed index maps, decided over the 50 grid points: the input `h` and the output move together, at row
    block `t`; the two row arrays stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The loaded block of `h` at point `t` is the array read where the output's block at `t` sits: both windows are at
    row block `t`, and an element of a block sits in its array, on each axis, at block index × block size + its
    coordinate in the block. -/
theorem iblk0_apply (c : Dev nD) (t : Fin cfg2.N) (y : S2000x128.Idx) :
    iblk2 V c 0 t y = V c (Pipeline.arrRef spec2 0) (((cfg2.win 3).blk t).view.emb y) := by
  obtain ⟨e00, e01, -, -, -, -, e30, e31⟩ := idx_facts t
  show V c (Pipeline.arrRef spec2 0) (((cfg2.win 0).blk t).view.emb y) = V c (Pipeline.arrRef spec2 0) (((cfg2.win 3).blk t).view.emb y)
  refine congrArg _ (funext fun a => Fin.ext ?_)
  match a with
  | ⟨0, _⟩ => show win2_0.index t (0 : Fin 2) * 2000 + 1 * (y 0).val = win2_3.index t (0 : Fin 2) * 2000 + 1 * (y 0).val; omega
  | ⟨1, _⟩ => show win2_0.index t (1 : Fin 2) * 128 + 1 * (y 1).val = win2_3.index t (1 : Fin 2) * 128 + 1 * (y 1).val; omega

/-- The loaded scale row at any point is the whole [1, 128] array: its one block is at index (0, 0). -/
theorem iblk1_apply (c : Dev nD) (t : Fin cfg2.N) (y : S1x128.Idx) :
    iblk2 V c 1 t y = V c (Pipeline.arrRef spec2 1) y := by
  obtain ⟨-, -, e10, e11, -, -, -, -⟩ := idx_facts t
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The loaded shift row at any point is the whole [1, 128] array: its one block is at index (0, 0). -/
theorem iblk2_apply (c : Dev nD) (t : Fin cfg2.N) (y : S1x128.Idx) :
    iblk2 V c 2 t y = V c (Pipeline.arrRef spec2 2) y := by
  obtain ⟨-, -, -, -, e20, e21, -, -⟩ := idx_facts t
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The output's block at point `t` keeps the lane coordinate: its lane block index is 0. -/
theorem emb_lane (t : Fin cfg2.N) (y : S2000x128.Idx) : ((((cfg2.win 3).blk t).view.emb y : S100000x128.Idx) 1).val = (y 1).val := by
  obtain ⟨-, -, -, -, -, -, e30, e31⟩ := idx_facts t
  show win2_3.index t (1 : Fin 2) * 128 + 1 * (y 1).val = (y 1).val
  omega

/-- WHAT POINT `t` WRITES BACK is block `t` of `G` of the three input arrays as the region finds them. -/
theorem flushed_eq (c : Dev nD) (t : Fin cfg2.N) :
    (dat2 (F := Ideal) V c).flushed 3 t
      = ((cfg2.win 3).blk t).view.read (Elt Ideal)
          (G (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S2000x128) hz, View.ld_unit_zero (S := S1x128) hz]
  funext j
  show k2_pay1 (iblk2 V c 0 t) (iblk2 V c 1 t) (iblk2 V c 2 t) j
    = G (V c (Pipeline.arrRef spec2 0)) (V c (Pipeline.arrRef spec2 1)) (V c (Pipeline.arrRef spec2 2)) (((cfg2.win 3).blk t).view.emb j)
  exact congrFun (block_eq (iblk2 V c 0 t) (iblk2 V c 1 t) (iblk2 V c 2 t)
    (V c (Pipeline.arrRef spec2 0)) (V c (Pipeline.arrRef spec2 1)) (V c (Pipeline.arrRef spec2 2))
    (fun y => ((cfg2.win 3).blk t).view.emb y) (iblk0_apply V c t) (iblk1_apply V c t) (iblk2_apply V c t) (emb_lane t)) j

/-- An index of the output array is in point `t`'s block iff each coordinate is in the block's range on its axis. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v74).slice (win2_3.rect t)).set ↔ _
  rw [View.set_slice_whole, Rect.mem_set_unit]
  exact Iff.rfl

/-- The 50 blocks of 2000 rows tile the 100000 rows: row r is in the block of point r / 2000, which is written back. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨-, -, -, -, -, -, e30, e31⟩ := idx_facts t
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- THE OUTPUT ARRAY after the region, for any entry contents `V`: `G` of the three input arrays as the region
    finds them — entry (r, l) is the rectifier of `h (r, l) * scale (0, l) + shift (0, l)`. -/
theorem arr2_3 (c : Dev nD) :
    (dat2 (F := Ideal) V c).arrAt 3 cfg2.N
      = G (V c (Pipeline.arrRef spec2 0)) (V c (Pipeline.arrRef spec2 1)) (V c (Pipeline.arrRef spec2 2)) :=
  (dat2 (F := Ideal) V c).arrAt_eq_of_cover 3
    (G (V c (Pipeline.arrRef spec2 0)) (V c (Pipeline.arrRef spec2 1)) (V c (Pipeline.arrRef spec2 2)))
    (fun t _ => flushed_eq V c t) cover

/-- The same with the three input arrays named as functions on their literal index types and the rectifier written
    out: the output array, index by index. -/
theorem arr2_3_fun (c : Dev nD) (h : S100000x128.Idx → EReal) (scale shift : S1x128.Idx → EReal)
    (e0 : V c (Pipeline.arrRef spec2 0) = h) (e1 : V c (Pipeline.arrRef spec2 1) = scale)
    (e2 : V c (Pipeline.arrRef spec2 2) = shift) :
    (dat2 (F := Ideal) V c).arrAt 3 cfg2.N
      = fun i => Scalar.select (Ideal.cmp .ogt (h i * scale (ix2 0 (i 1)) + shift (ix2 0 (i 1))) (Ideal.ofBits .f32 0x00000000#32))
          (h i * scale (ix2 0 (i 1)) + shift (ix2 0 (i 1)))
          (Ideal.ofBits .f32 0x3C23D70A#32 * (h i * scale (ix2 0 (i 1)) + shift (ix2 0 (i 1)))) := by
  subst e0 e1 e2
  exact arr2_3 V c

end Cert.KernelIdeal.RegionValue2

end
-- ==== Proof.MatmulRegion3.lean ====
import proofs.«151220_j103079215236_2_alg».proof.Proof.Gen.KernelIdeal.Frame
import Idealize.ShloMosaic.Lib.Pipeline.Value
import Idealize.ShloMosaic.Lib.ValueIdx
import Idealize.ShloMosaic.PureOps.Ideal.Laws

/-! # Region 3: the three products of the node features with a weight matrix

Each of the region's three results is the matrix product of the region's first input, a 100000 × 128 array `X`, with one
of its three 128 × 128 inputs `W`: entry `(r, c)` is `∑ k, X (r, k) * W (k, c)` on the extended reals, where a change
of float format is the identity. The region walks `X` in 50 blocks of 2000 rows; block `t` of a result depends on block `t`
of `X` and on the whole of `W`, and the 50 row blocks cover the result. -/

noncomputable section

namespace Cert.KernelIdeal.MatmulRegion3

open Cert.KernelIdeal Cert.KernelIdeal.Gen Idealize.ShloMosaic Idealize.ShloMosaic.ValueIdx Idealize.ShloMosaic.TcCoe Idealize.SL.Sem
open Idealize.ShloMosaic.Pipeline (Dat)

/-! ## One block's product at an entry -/

/-- The contraction's dimension numbers: axis 1 of the left operand against axis 0 of the right. -/
abbrev D := dot_S2000x128_S128x128_S2000x128_1_0_0_1_n_n

/-- The left operand is read in the result's row. -/
theorem lhs_row (r : Fin 2000) (c : Fin 128) (q : D.contr.Idx) : (D.lhsIdx (ix2 r c) q 0).val = r.val := by
  unfold DotDims.lhsIdx
  rw [dif_neg (show ¬(0 : Fin S2000x128.rank) ∈ D.lhsBatch by decide), dif_pos (show (0 : Fin S2000x128.rank) ∈ D.lhsNonContracting by decide)]
  rfl

/-- The right operand is read in the result's column. -/
theorem rhs_col (r : Fin 2000) (c : Fin 128) (q : D.contr.Idx) : (D.rhsIdx (ix2 r c) q 1).val = c.val := by
  unfold DotDims.rhsIdx
  rw [dif_neg (show ¬(1 : Fin S128x128.rank) ∈ D.rhsBatch by decide), dif_pos (show (1 : Fin S128x128.rank) ∈ D.rhsNonContracting by decide)]
  rfl

/-- A product into a zero accumulator, entry by entry: row `r` of the left operand against column `c` of the right,
    summed over the one contracted axis. -/
theorem dot_apply (x : FVec Ideal S2000x128 .bf16) (w : FVec Ideal S128x128 .bf16) (r : Fin 2000) (c : Fin 128) :
    matmul D none x w (constant S2000x128 .f32 0x00000000#32) (ix2 r c)
      = ∑ k : Fin 128, x (ix2 r k) * w (ix2 k c) := by
  refine (Ideal.matmul_constant_zero_apply D none x w (ix2 r c)).trans ?_
  rw [← Equiv.sum_comp (contrEquiv1 D 128 rfl rfl).symm]
  refine Finset.sum_congr rfl fun k _ => ?_
  have hk := contrEquiv1_symm_val D 128 rfl rfl k
  have el : D.lhsIdx (ix2 r c) ((contrEquiv1 D 128 rfl rfl).symm k) = ix2 r k := funext fun a => Fin.ext (by
    match a with
    | ⟨0, _⟩ => exact lhs_row r c _
    | ⟨1, _⟩ => exact (D.lhsIdx_val_of_single rfl (ix2 r c) _).trans hk)
  have er : D.rhsIdx (ix2 r c) ((contrEquiv1 D 128 rfl rfl).symm k) = ix2 k c := funext fun a => Fin.ext (by
    match a with
    | ⟨0, _⟩ => exact (D.rhsIdx_val_of_single rfl (ix2 r c) _).trans hk
    | ⟨1, _⟩ => exact rhs_col r c _)
  rw [el, er]

/-- The body's first product at an entry: the changes of float format and the reshapes of a shape to itself are the
    identity on the extended reals. -/
theorem pay2_apply (x : Vec Ideal S2000x128 .f32) (w : Vec Ideal S128x128 .f32) (r : Fin 2000) (c : Fin 128) :
    k3_pay2 (F := Ideal) x w (ix2 r c) = ∑ k : Fin 128, x (ix2 r k) * w (ix2 k c) := by
  unfold k3_pay2 k3_pay1
  refine (dot_apply _ _ r c).trans ?_
  rw [shapeCast_self, shapeCast_self]
  rfl

/-- The body's second product at an entry. -/
theorem pay3_apply (x : Vec Ideal S2000x128 .f32) (w : Vec Ideal S128x128 .f32) (r : Fin 2000) (c : Fin 128) :
    k3_pay3 (F := Ideal) x w (ix2 r c) = ∑ k : Fin 128, x (ix2 r k) * w (ix2 k c) := by
  unfold k3_pay3 k3_pay1
  refine (dot_apply _ _ r c).trans ?_
  rw [shapeCast_self]
  rfl

/-- The body's third product at an entry. -/
theorem pay4_apply (x : Vec Ideal S2000x128 .f32) (w : Vec Ideal S128x128 .f32) (r : Fin 2000) (c : Fin 128) :
    k3_pay4 (F := Ideal) x w (ix2 r c) = ∑ k : Fin 128, x (ix2 r k) * w (ix2 k c) := by
  unfold k3_pay4 k3_pay1
  refine (dot_apply _ _ r c).trans ?_
  rw [shapeCast_self]
  rfl

/-! ## From one block to the whole array -/

/-- The whole-array product: entry `i` is row `i 0` of `X` against column `i 1` of `W`. -/
abbrev rowsTimes (X : S100000x128.Idx → Elt Ideal .f32) (W : S128x128.Idx → Elt Ideal .f32) : S100000x128.Idx → Elt Ideal .f32 :=
  fun i => ∑ k : Fin 128, X (ix2 (i 0) k) * W (ix2 k (i 1))

/-- The whole-array product read at an index. -/
theorem rowsTimes_apply (X : S100000x128.Idx → Elt Ideal .f32) (W : S128x128.Idx → Elt Ideal .f32) (i : S100000x128.Idx) :
    rowsTimes X W i = ∑ k : Fin 128, X (ix2 (i 0) k) * W (ix2 k (i 1)) := rfl

/-- A block's product at entry `(r, c)` is the whole-array product at `(ρ, c)` as soon as row `r` of the row block is row `ρ`
    of `X` and the weight block is `W`. -/
theorem sum_eq_rowsTimes (X : S100000x128.Idx → Elt Ideal .f32) (W : S128x128.Idx → Elt Ideal .f32)
    (x : Vec Ideal S2000x128 .f32) (w : Vec Ideal S128x128 .f32) (r : Fin 2000) (c : Fin 128) (ρ : Fin 100000)
    (hx : ∀ k : Fin 128, x (ix2 r k) = X (ix2 ρ k)) (hw : ∀ k : Fin 128, w (ix2 k c) = W (ix2 k c)) :
    (∑ k : Fin 128, x (ix2 r k) * w (ix2 k c)) = rowsTimes X W (ix2 ρ c) :=
  Finset.sum_congr rfl fun k _ => by rw [hx k, hw k]

theorem hz : (![0, 0] : Fin 2 → Nat) = fun _ => 0 := funext fun a => by fin_cases a <;> rfl

/-- The index maps, decided over the 50 grid points: the row-block input and the three results move together along the
    rows, through row blocks 0 … 49, and stay at column block 0; the three weight inputs stay at block (0, 0). -/
theorem idx_facts : ∀ t : Fin cfg3.N,
    win3_0.index t (0 : Fin 2) = win3_4.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0
    ∧ win3_5.index t (0 : Fin 2) = win3_4.index t (0 : Fin 2) ∧ win3_5.index t (1 : Fin 2) = 0
    ∧ win3_6.index t (0 : Fin 2) = win3_4.index t (0 : Fin 2) ∧ win3_6.index t (1 : Fin 2) = 0
    ∧ win3_4.index t (0 : Fin 2) ≤ 49 :=
  (by decide +kernel : ∀ t : Fin grid3.N, _)

/-- Every one of the 50 row blocks is some point's. -/
theorem idx_onto : ∀ (q0 : Fin 50) (q1 : Fin 1), ∃ t : Fin cfg3.N, win3_4.index t = ![q0.val + 0, q1.val + 0] :=
  (by decide +kernel : ∀ (q0 : Fin 50) (q1 : Fin 1), ∃ t : Fin grid3.N, win3_4.index t = ![q0.val + 0, q1.val + 0])

variable (V : (c : Dev nD) → (b : Ref sig .tc) → Buf (Elt Ideal) ((c : Thread nD τ).loc b))

/-! ## The input blocks, read off the arrays -/

/-- Row `r` of the row block at point `t` is row `ρ` of window 0's array, `ρ` = the point's row block × 2000 + `r`. -/
theorem xblk_apply (c : Dev nD) (t : Fin cfg3.N) (r : Fin 2000) (k : Fin 128) (ρ : Fin 100000)
    (h : ρ.val = win3_0.index t (0 : Fin 2) * 2000 + r.val) :
    iblk3 V c 0 t (ix2 (n0 := 2000) (n1 := 128) r k) = V c (Pipeline.arrRef spec3 0) (ix2 (n0 := 100000) (n1 := 128) ρ k) := by
  obtain ⟨e00, e01, -⟩ := idx_facts t
  show V c (Pipeline.arrRef spec3 0) (((cfg3.win 0).blk t).view.emb (ix2 r k)) = V c (Pipeline.arrRef spec3 0) (ix2 ρ k)
  refine congrArg _ (funext fun a => Fin.ext ?_)
  match a with
  | ⟨0, _⟩ => show win3_0.index t (0 : Fin 2) * 2000 + 1 * r.val = ρ.val; omega
  | ⟨1, _⟩ => show win3_0.index t (1 : Fin 2) * 128 + 1 * k.val = k.val; omega

/-- Window 1's block at every point is its whole array. -/
theorem wblk1_apply (c : Dev nD) (t : Fin cfg3.N) (k q : Fin 128) :
    iblk3 V c 1 t (ix2 (n0 := 128) (n1 := 128) k q) = V c (Pipeline.arrRef spec3 1) (ix2 (n0 := 128) (n1 := 128) k q) := by
  obtain ⟨e00, e01, e10, e11, e20, e21, e30, e31, -⟩ := idx_facts t
  show V c (Pipeline.arrRef spec3 1) (((cfg3.win 1).blk t).view.emb (ix2 k q)) = V c (Pipeline.arrRef spec3 1) (ix2 k q)
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- Window 2's block at every point is its whole array. -/
theorem wblk2_apply (c : Dev nD) (t : Fin cfg3.N) (k q : Fin 128) :
    iblk3 V c 2 t (ix2 (n0 := 128) (n1 := 128) k q) = V c (Pipeline.arrRef spec3 2) (ix2 (n0 := 128) (n1 := 128) k q) := by
  obtain ⟨e00, e01, e10, e11, e20, e21, e30, e31, -⟩ := idx_facts t
  show V c (Pipeline.arrRef spec3 2) (((cfg3.win 2).blk t).view.emb (ix2 k q)) = V c (Pipeline.arrRef spec3 2) (ix2 k q)
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- Window 3's block at every point is its whole array. -/
theorem wblk3_apply (c : Dev nD) (t : Fin cfg3.N) (k q : Fin 128) :
    iblk3 V c 3 t (ix2 (n0 := 128) (n1 := 128) k q) = V c (Pipeline.arrRef spec3 3) (ix2 (n0 := 128) (n1 := 128) k q) := by
  obtain ⟨e00, e01, e10, e11, e20, e21, e30, e31, -⟩ := idx_facts t
  show V c (Pipeline.arrRef spec3 3) (((cfg3.win 3).blk t).view.emb (ix2 k q)) = V c (Pipeline.arrRef spec3 3) (ix2 k q)
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-! ## Result window 4: the product with input window 1 -/

/-- A block `P` is point `t`'s block of a whole-array function `G` when entry `(r, q)` of `P` is `G` at row
    (the point's row block × 2000 + `r`) and column `q`. -/
theorem block_eq4 (t : Fin cfg3.N) (P : Vec Ideal S2000x128 .f32) (G : S100000x128.Idx → Elt Ideal .f32)
    (h : ∀ (r : Fin 2000) (q : Fin 128) (ρ : Fin 100000), ρ.val = win3_0.index t (0 : Fin 2) * 2000 + r.val →
      P (ix2 r q) = G (ix2 ρ q)) :
    (cfg3.win 4).cut (grid3.coords t) P = ((cfg3.win 4).blk t).view.read (Elt Ideal) G := by
  obtain ⟨e00, e01, e10, e11, e20, e21, e30, e31, e41, e50, e51, e60, e61, e4le⟩ := idx_facts t
  refine funext fun (j : S2000x128.Idx) => ?_
  obtain ⟨r, q, rfl⟩ : ∃ (r : Fin 2000) (q : Fin 128), j = ix2 r q := ⟨j 0, j 1, eq_ix2 j⟩
  show P (ix2 r q) = G (((cfg3.win 4).blk t).view.emb (ix2 r q))
  have hr : r.val < 2000 := r.isLt
  refine (h r q ⟨win3_4.index t (0 : Fin 2) * 2000 + r.val, by omega⟩
    (by show win3_4.index t (0 : Fin 2) * 2000 + r.val = win3_0.index t (0 : Fin 2) * 2000 + r.val; omega)).trans ?_
  refine congrArg G (funext fun a => Fin.ext ?_)
  match a with
  | ⟨0, _⟩ => show win3_4.index t (0 : Fin 2) * 2000 + r.val = win3_4.index t (0 : Fin 2) * 2000 + 1 * r.val; omega
  | ⟨1, _⟩ => show q.val = win3_4.index t (1 : Fin 2) * 128 + 1 * q.val; omega

/-- What point `t` writes back to window 4's array is block `t` of the product of the arrays of windows 0 and 1. -/
theorem flushed4_eq (c : Dev nD) (t : Fin cfg3.N) :
    (dat3 (F := Ideal) V c).flushed 4 t = ((cfg3.win 4).blk t).view.read (Elt Ideal)
      (rowsTimes (V c (Pipeline.arrRef spec3 0)) (V c (Pipeline.arrRef spec3 1))) := by
  show (cfg3.win 4).cut (grid3.coords t) ((dat3 V c).after 4 t) = _
  rw [after3_4]
  unfold out3_4
  rw [View.canon_unit_zero hz]
  simp only [View.ld_unit_zero (S := S2000x128) hz, View.ld_unit_zero (S := S128x128) hz]
  refine block_eq4 t _ _ fun r q ρ hρ => ?_
  refine (pay2_apply (iblk3 V c 0 t) (iblk3 V c 1 t) r q).trans ?_
  exact sum_eq_rowsTimes (V c (Pipeline.arrRef spec3 0)) (V c (Pipeline.arrRef spec3 1)) (iblk3 V c 0 t) (iblk3 V c 1 t) r q ρ
    (fun k => xblk_apply V c t r k ρ hρ) (fun k => wblk1_apply V c t k q)

/-- An index of the array is in point `t`'s block iff each coordinate is in the block's range on its axis. -/
theorem mem_blk4 (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v75_0).slice (win3_4.rect t)).set ↔ _
  rw [View.set_slice_whole, Rect.mem_set_unit]
  exact Iff.rfl

/-- Row `r` of the array is in the block of the point whose row block is `r / 2000`. -/
theorem cover4 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := idx_onto ⟨(i 0).val / 2000, by omega⟩ ⟨0, by omega⟩
  have q0 : win3_4.index t (0 : Fin 2) = (i 0).val / 2000 + 0 := congrFun ht 0
  obtain ⟨e00, e01, e10, e11, e20, e21, e30, e31, e41, e50, e51, e60, e61, e4le⟩ := idx_facts t
  refine ⟨t, flush3_4 t, ?_⟩
  rw [mem_blk4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- AFTER THE REGION window 4's array is the matrix product of the arrays of windows 0 and 1 as the region found them. -/
theorem arr3_4 (c : Dev nD) :
    (dat3 (F := Ideal) V c).arrAt 4 cfg3.N
      = rowsTimes (V c (Pipeline.arrRef spec3 0)) (V c (Pipeline.arrRef spec3 1)) :=
  (dat3 V c).arrAt_eq_of_cover 4 (rowsTimes (V c (Pipeline.arrRef spec3 0)) (V c (Pipeline.arrRef spec3 1)))
    (fun t _ => flushed4_eq V c t) cover4

/-! ## Result window 5: the product with input window 2 -/

/-- A block `P` is point `t`'s block of a whole-array function `G` when entry `(r, q)` of `P` is `G` at row
    (the point's row block × 2000 + `r`) and column `q`. -/
theorem block_eq5 (t : Fin cfg3.N) (P : Vec Ideal S2000x128 .f32) (G : S100000x128.Idx → Elt Ideal .f32)
    (h : ∀ (r : Fin 2000) (q : Fin 128) (ρ : Fin 100000), ρ.val = win3_0.index t (0 : Fin 2) * 2000 + r.val →
      P (ix2 r q) = G (ix2 ρ q)) :
    (cfg3.win 5).cut (grid3.coords t) P = ((cfg3.win 5).blk t).view.read (Elt Ideal) G := by
  obtain ⟨e00, e01, e10, e11, e20, e21, e30, e31, e41, e50, e51, e60, e61, e4le⟩ := idx_facts t
  refine funext fun (j : S2000x128.Idx) => ?_
  obtain ⟨r, q, rfl⟩ : ∃ (r : Fin 2000) (q : Fin 128), j = ix2 r q := ⟨j 0, j 1, eq_ix2 j⟩
  show P (ix2 r q) = G (((cfg3.win 5).blk t).view.emb (ix2 r q))
  have hr : r.val < 2000 := r.isLt
  refine (h r q ⟨win3_5.index t (0 : Fin 2) * 2000 + r.val, by omega⟩
    (by show win3_5.index t (0 : Fin 2) * 2000 + r.val = win3_0.index t (0 : Fin 2) * 2000 + r.val; omega)).trans ?_
  refine congrArg G (funext fun a => Fin.ext ?_)
  match a with
  | ⟨0, _⟩ => show win3_5.index t (0 : Fin 2) * 2000 + r.val = win3_5.index t (0 : Fin 2) * 2000 + 1 * r.val; omega
  | ⟨1, _⟩ => show q.val = win3_5.index t (1 : Fin 2) * 128 + 1 * q.val; omega

/-- What point `t` writes back to window 5's array is block `t` of the product of the arrays of windows 0 and 2. -/
theorem flushed5_eq (c : Dev nD) (t : Fin cfg3.N) :
    (dat3 (F := Ideal) V c).flushed 5 t = ((cfg3.win 5).blk t).view.read (Elt Ideal)
      (rowsTimes (V c (Pipeline.arrRef spec3 0)) (V c (Pipeline.arrRef spec3 2))) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz]
  refine block_eq5 t _ _ fun r q ρ hρ => ?_
  refine (pay3_apply (iblk3 V c 0 t) (iblk3 V c 2 t) r q).trans ?_
  exact sum_eq_rowsTimes (V c (Pipeline.arrRef spec3 0)) (V c (Pipeline.arrRef spec3 2)) (iblk3 V c 0 t) (iblk3 V c 2 t) r q ρ
    (fun k => xblk_apply V c t r k ρ hρ) (fun k => wblk2_apply V c t k q)

/-- An index of the array is in point `t`'s block iff each coordinate is in the block's range on its axis. -/
theorem mem_blk5 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v75_1).slice (win3_5.rect t)).set ↔ _
  rw [View.set_slice_whole, Rect.mem_set_unit]
  exact Iff.rfl

/-- Row `r` of the array is in the block of the point whose row block is `r / 2000`. -/
theorem cover5 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto ⟨(i 0).val / 2000, by omega⟩ ⟨0, by omega⟩
  have q0 : win3_4.index t (0 : Fin 2) = (i 0).val / 2000 + 0 := congrFun ht 0
  obtain ⟨e00, e01, e10, e11, e20, e21, e30, e31, e41, e50, e51, e60, e61, e4le⟩ := idx_facts t
  refine ⟨t, flush3_5 t, ?_⟩
  rw [mem_blk5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- AFTER THE REGION window 5's array is the matrix product of the arrays of windows 0 and 2 as the region found them. -/
theorem arr3_5 (c : Dev nD) :
    (dat3 (F := Ideal) V c).arrAt 5 cfg3.N
      = rowsTimes (V c (Pipeline.arrRef spec3 0)) (V c (Pipeline.arrRef spec3 2)) :=
  (dat3 V c).arrAt_eq_of_cover 5 (rowsTimes (V c (Pipeline.arrRef spec3 0)) (V c (Pipeline.arrRef spec3 2)))
    (fun t _ => flushed5_eq V c t) cover5

/-! ## Result window 6: the product with input window 3 -/

/-- A block `P` is point `t`'s block of a whole-array function `G` when entry `(r, q)` of `P` is `G` at row
    (the point's row block × 2000 + `r`) and column `q`. -/
theorem block_eq6 (t : Fin cfg3.N) (P : Vec Ideal S2000x128 .f32) (G : S100000x128.Idx → Elt Ideal .f32)
    (h : ∀ (r : Fin 2000) (q : Fin 128) (ρ : Fin 100000), ρ.val = win3_0.index t (0 : Fin 2) * 2000 + r.val →
      P (ix2 r q) = G (ix2 ρ q)) :
    (cfg3.win 6).cut (grid3.coords t) P = ((cfg3.win 6).blk t).view.read (Elt Ideal) G := by
  obtain ⟨e00, e01, e10, e11, e20, e21, e30, e31, e41, e50, e51, e60, e61, e4le⟩ := idx_facts t
  refine funext fun (j : S2000x128.Idx) => ?_
  obtain ⟨r, q, rfl⟩ : ∃ (r : Fin 2000) (q : Fin 128), j = ix2 r q := ⟨j 0, j 1, eq_ix2 j⟩
  show P (ix2 r q) = G (((cfg3.win 6).blk t).view.emb (ix2 r q))
  have hr : r.val < 2000 := r.isLt
  refine (h r q ⟨win3_6.index t (0 : Fin 2) * 2000 + r.val, by omega⟩
    (by show win3_6.index t (0 : Fin 2) * 2000 + r.val = win3_0.index t (0 : Fin 2) * 2000 + r.val; omega)).trans ?_
  refine congrArg G (funext fun a => Fin.ext ?_)
  match a with
  | ⟨0, _⟩ => show win3_6.index t (0 : Fin 2) * 2000 + r.val = win3_6.index t (0 : Fin 2) * 2000 + 1 * r.val; omega
  | ⟨1, _⟩ => show q.val = win3_6.index t (1 : Fin 2) * 128 + 1 * q.val; omega

/-- What point `t` writes back to window 6's array is block `t` of the product of the arrays of windows 0 and 3. -/
theorem flushed6_eq (c : Dev nD) (t : Fin cfg3.N) :
    (dat3 (F := Ideal) V c).flushed 6 t = ((cfg3.win 6).blk t).view.read (Elt Ideal)
      (rowsTimes (V c (Pipeline.arrRef spec3 0)) (V c (Pipeline.arrRef spec3 3))) := by
  show (cfg3.win 6).cut (grid3.coords t) ((dat3 V c).after 6 t) = _
  rw [after3_6]
  unfold out3_6
  rw [View.canon_unit_zero hz]
  simp only [View.ld_unit_zero (S := S2000x128) hz, View.ld_unit_zero (S := S128x128) hz]
  refine block_eq6 t _ _ fun r q ρ hρ => ?_
  refine (pay4_apply (iblk3 V c 0 t) (iblk3 V c 3 t) r q).trans ?_
  exact sum_eq_rowsTimes (V c (Pipeline.arrRef spec3 0)) (V c (Pipeline.arrRef spec3 3)) (iblk3 V c 0 t) (iblk3 V c 3 t) r q ρ
    (fun k => xblk_apply V c t r k ρ hρ) (fun k => wblk3_apply V c t k q)

/-- An index of the array is in point `t`'s block iff each coordinate is in the block's range on its axis. -/
theorem mem_blk6 (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v75_2).slice (win3_6.rect t)).set ↔ _
  rw [View.set_slice_whole, Rect.mem_set_unit]
  exact Iff.rfl

/-- Row `r` of the array is in the block of the point whose row block is `r / 2000`. -/
theorem cover6 (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := idx_onto ⟨(i 0).val / 2000, by omega⟩ ⟨0, by omega⟩
  have q0 : win3_4.index t (0 : Fin 2) = (i 0).val / 2000 + 0 := congrFun ht 0
  obtain ⟨e00, e01, e10, e11, e20, e21, e30, e31, e41, e50, e51, e60, e61, e4le⟩ := idx_facts t
  refine ⟨t, flush3_6 t, ?_⟩
  rw [mem_blk6]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- AFTER THE REGION window 6's array is the matrix product of the arrays of windows 0 and 3 as the region found them. -/
theorem arr3_6 (c : Dev nD) :
    (dat3 (F := Ideal) V c).arrAt 6 cfg3.N
      = rowsTimes (V c (Pipeline.arrRef spec3 0)) (V c (Pipeline.arrRef spec3 3)) :=
  (dat3 V c).arrAt_eq_of_cover 6 (rowsTimes (V c (Pipeline.arrRef spec3 0)) (V c (Pipeline.arrRef spec3 3)))
    (fun t _ => flushed6_eq V c t) cover6

end Cert.KernelIdeal.MatmulRegion3

end
-- ==== Proof.ReduceRegion4.lean ====
/-
  REGION 4 of the kernel's program (the second batch-norm reduction pass, the same kernel launched again: 50 grid points over row tiles of 2000 rows), read at the
  extended reals for ARBITRARY contents of the TensorCore's buffers at the region's entry: what each of its three output
  windows' arrays holds after the region, as one function of the three input arrays as the region finds them.

    arr4_3 — output window 3, f32[100000,128]: the three inputs added, `(a + b) + c`, index by index;
    arr4_4 — output window 4, f32[1,128]: for each column, the sum over all 100000 rows of `(a + b) + c`;
    arr4_5 — output window 5, f32[1,128]: for each column, the sum over all 100000 rows of the square of `(a + b) + c`.

  The body has two control cases: at the first grid point it first stores the zero block into both accumulators; at the
  later points it reads them as the point before left them. Each case's stores are read back as the body's payloads; the
  payloads are read at an entry (a column sum over the 2000 rows of the tile: a sum in an additive commutative monoid); the
  accumulators' contents after point `n` are the sums over the rows below `(n + 1) * 2000`, by induction on the point; the
  write-backs (every point for window 3, the last point for windows 4 and 5) cover the arrays.
-/
import proofs.«151220_j103079215236_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegionValue4

open Cert.KernelIdeal Cert.KernelIdeal.Gen Idealize.ShloMosaic Idealize.ShloMosaic.ValueIdx
open Idealize.ShloMosaic.TcCoe Idealize.SL.Sem
open Idealize.ShloMosaic.Pipeline (Dat)

/-! ## Sums over row tiles

The rows of a [100000, 128] array are visited in 50 tiles of 2000 rows; a running sum over the rows below
`n * 2000` plus the sum over tile `n` is the running sum over the rows below `(n + 1) * 2000`. Sums in an
additive commutative monoid: no finiteness is needed. -/

theorem sum_tiles_step {M : Type*} [AddCommMonoid M] (f : ℕ → M) (n : ℕ) (g : Fin 2000 → M)
    (hg : ∀ r : Fin 2000, g r = f (n * 2000 + r.val)) (s : M) (hs : s = ∑ k ∈ Finset.range (n * 2000), f k) :
    s + ∑ r : Fin 2000, g r = ∑ k ∈ Finset.range ((n + 1) * 2000), f k := by
  rw [hs, Finset.sum_congr rfl (fun r _ => hg r), Fin.sum_univ_eq_sum_range (fun r => f (n * 2000 + r)) 2000,
    ← Finset.sum_range_add, Nat.add_mul, Nat.one_mul]

theorem sum_rows {M : Type*} [AddCommMonoid M] (f : ℕ → M) (G : Fin 100000 → M) (h : ∀ r : Fin 100000, f r.val = G r) :
    ∑ k ∈ Finset.range 100000, f k = ∑ r : Fin 100000, G r := by
  rw [← Fin.sum_univ_eq_sum_range f 100000]
  exact Finset.sum_congr rfl (fun r _ => h r)

/-! ## What each control case leaves in the three output buffers, as the body's payloads (any float values)

Case A is the first grid point: the body first stores the zero block into both accumulators and reads it back.
Case B is every later point: the accumulators are read as the point before left them. -/

section Pieces
variable {F : FTy → Type} [FloatOps F]

theorem hz : (![0, 0] : Fin 2 → Nat) = fun _ => 0 := funext fun a => by fin_cases a <;> rfl

/-- Case B, the tile output: the three input blocks added. -/
theorem out_B_3 (c : Dev nD) (i : grid4.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond4_0 i)
    (x0 x1 x2 : Vec F S2000x128 .f32) (xo4 xo5 : Vec F S1x128 .f32) :
    out4_B_3 c i a1 h1 a2 h2 a3 h3 a4 h4 a5 h5 a6 h6 hc x0 x1 x2 xo4 xo5 = k4_pay3 x0 x1 x2 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  try sl_unfold_words
  rw [View.canon_unit_zero hz]
  simp only [View.readAt_eq_ld, h1.read_unread, h2.read_unread, h3.read_unread, View.ld_unit_zero (S := S2000x128) hz]

/-- Case B, the column-sum accumulator: the payload over what the point before left. -/
theorem out_B_4 (c : Dev nD) (i : grid4.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond4_0 i)
    (x0 x1 x2 : Vec F S2000x128 .f32) (xo4 xo5 : Vec F S1x128 .f32) :
    out4_B_4 c i a1 h1 a2 h2 a3 h3 a4 h4 a5 h5 a6 h6 hc x0 x1 x2 xo4 xo5 = k4_pay4 x0 x1 x2 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  try sl_unfold_words
  rw [View.canon_unit_zero hz]
  simp only [View.readAt_eq_ld, h1.read_unread, h2.read_unread, h3.read_unread, h5.read_unread,
    View.ld_unit_zero (S := S2000x128) hz, View.ld_unit_zero (S := S1x128) hz]

/-- Case B, the accumulator of the squares' column sums. -/
theorem out_B_5 (c : Dev nD) (i : grid4.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond4_0 i)
    (x0 x1 x2 : Vec F S2000x128 .f32) (xo4 xo5 : Vec F S1x128 .f32) :
    out4_B_5 c i a1 h1 a2 h2 a3 h3 a4 h4 a5 h5 a6 h6 hc x0 x1 x2 xo4 xo5 = k4_pay5 x0 x1 x2 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  try sl_unfold_words
  rw [View.canon_unit_zero hz]
  simp only [View.readAt_eq_ld, h1.read_unread, h2.read_unread, h3.read_unread, h6.read_unread,
    View.ld_unit_zero (S := S2000x128) hz, View.ld_unit_zero (S := S1x128) hz]

/-- Case A, the tile output: the three input blocks added. -/
theorem out_A_3 (c : Dev nD) (i : grid4.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond4_0 i)
    (x0 x1 x2 : Vec F S2000x128 .f32) :
    out4_A_3 c i a1 h1 a2 h2 a3 h3 a4 h4 a5 h5 a6 h6 hc x0 x1 x2 = k4_pay3 x0 x1 x2 := by
  unfold out4_A_3
  rw [View.read_writes_eq_canon _ _ _ (cover4_A_3 c i a1 h1 a2 h2 a3 h3 a4 h4 a5 h5 a6 h6 hc x0 x1 x2)]
  unfold kernelRun4_A
  dsimp only
  try sl_unfold_words
  rw [View.canon_unit_zero hz]
  simp only [View.readAt_eq_ld, h1.read_unread, h2.read_unread, h3.read_unread, View.ld_unit_zero (S := S2000x128) hz]

/-- Case A, the column-sum accumulator: the payload over the zero block just stored. -/
theorem out_A_4 (c : Dev nD) (i : grid4.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond4_0 i)
    (x0 x1 x2 : Vec F S2000x128 .f32) :
    out4_A_4 c i a1 h1 a2 h2 a3 h3 a4 h4 a5 h5 a6 h6 hc x0 x1 x2 = k4_pay4 x0 x1 x2 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2000x128) hz]

/-- Case A, the accumulator of the squares' column sums. -/
theorem out_A_5 (c : Dev nD) (i : grid4.Coords) (a1 : Memref sig .tc .vmem S2000x128 .f32) (h1 : a1.IsWhole) (a2 : Memref sig .tc .vmem S2000x128 .f32) (h2 : a2.IsWhole) (a3 : Memref sig .tc .vmem S2000x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond4_0 i)
    (x0 x1 x2 : Vec F S2000x128 .f32) :
    out4_A_5 c i a1 h1 a2 h2 a3 h3 a4 h4 a5 h5 a6 h6 hc x0 x1 x2 = k4_pay5 x0 x1 x2 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2000x128) hz]

end Pieces

/-! ## The payloads at an entry, over the extended reals -/

/-- A tile's three blocks added, entry by entry. -/
theorem pay3_apply (x0 x1 x2 : Vec Ideal S2000x128 .f32) (r : Fin 2000) (l : Fin 128) :
    k4_pay3 x0 x1 x2 (ix2 r l) = (x0 (ix2 r l) + x1 (ix2 r l)) + x2 (ix2 r l) := by
  unfold k4_pay3
  simp only [shapeCast_self]
  rfl

/-- Column `l` of the running sum after a tile: what it held plus the sum of the tile's column `l`. -/
theorem pay4_apply (x0 x1 x2 : Vec Ideal S2000x128 .f32) (xo : Vec Ideal S1x128 .f32) (l : Fin 128) :
    k4_pay4 x0 x1 x2 xo (ix2 (0 : Fin 1) l) = xo (ix2 (0 : Fin 1) l) + ∑ r : Fin 2000, k4_pay3 x0 x1 x2 (ix2 r l) := by
  unfold k4_pay4
  refine congrArg₂ (· + ·) (congrFun (shapeCast_self xo _) _) ?_
  refine (shapeCast_a_1a_apply _ _ 0 l).trans ?_
  refine (Ideal.multiReduction_add_single (k4_pay3 x0 x1 x2) 0x00000000#32 reduces_S2000x128_S128 (.inl rfl) rfl (ix1 l)).trans ?_
  exact Finset.sum_congr rfl fun r _ => congrArg (k4_pay3 x0 x1 x2) (funext fun a => Fin.ext (by
    match a with
    | ⟨0, _⟩ => rfl
    | ⟨1, _⟩ => rfl))

/-- Column `l` of the running sum of squares after a tile: what it held plus the sum of the squares of the tile's column `l`. -/
theorem pay5_apply (x0 x1 x2 : Vec Ideal S2000x128 .f32) (xo : Vec Ideal S1x128 .f32) (l : Fin 128) :
    k4_pay5 x0 x1 x2 xo (ix2 (0 : Fin 1) l)
      = xo (ix2 (0 : Fin 1) l) + ∑ r : Fin 2000, k4_pay3 x0 x1 x2 (ix2 r l) * k4_pay3 x0 x1 x2 (ix2 r l) := by
  unfold k4_pay5
  refine congrArg₂ (· + ·) (congrFun (shapeCast_self xo _) _) ?_
  refine (shapeCast_a_1a_apply _ _ 0 l).trans ?_
  refine (Ideal.multiReduction_add_single (mulf (k4_pay3 x0 x1 x2) (k4_pay3 x0 x1 x2)) 0x00000000#32 reduces_S2000x128_S128 (.inl rfl) rfl (ix1 l)).trans ?_
  exact Finset.sum_congr rfl fun r _ => congrArg (mulf (k4_pay3 x0 x1 x2) (k4_pay3 x0 x1 x2)) (funext fun a => Fin.ext (by
    match a with
    | ⟨0, _⟩ => rfl
    | ⟨1, _⟩ => rfl))

/-- The block the first point stores into the column-sum accumulator is zero. -/
theorem pay1_apply (j : S1x128.Idx) : k4_pay1 (F := Ideal) j = 0 := by
  show Ideal.ofBits .f32 0x00000000#32 = 0
  exact Ideal.ofBits_zero_f32

/-- The block the first point stores into the accumulator of the squares is zero. -/
theorem pay2_apply (j : S1x128.Idx) : k4_pay2 (F := Ideal) j = 0 := by
  show Ideal.ofBits .f32 0x00000000#32 = 0
  exact Ideal.ofBits_zero_f32

/-! ## The windows' blocks as rows of their arrays -/

/-- The printed index maps over the grid: each [2000, 128] window sits at row block `t`, the two [1, 128] accumulators at their one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem lt50 (t : Fin cfg4.N) : t.val < 50 := lt_of_lt_of_eq t.isLt (show cfg4.N = 50 from N_4)

/-- Row `r` of tile `t`, as a row of the whole array. -/
def row (t : Fin cfg4.N) (r : Fin 2000) : Fin 100000 :=
  ⟨t.val * 2000 + r.val, by have := lt50 t; have := r.isLt; omega⟩

/-- Block `t` of a [100000, 128] window reads rows `2000 t … 2000 t + 1999` of its array. -/
theorem blk0_apply (t : Fin cfg4.N) (G : S100000x128.Idx → EReal) (r : Fin 2000) (l : Fin 128) :
    ((cfg4.win 0).blk t).view.read (Elt Ideal) G (ix2 r l) = G (ix2 (row t r) l) := by
  have e0 : win4_0.index t (0 : Fin 2) = t.val := (idx_facts t).1
  have e1 : win4_0.index t (1 : Fin 2) = 0 := (idx_facts t).2.1
  rw [View.read_apply]
  refine congrArg G (funext fun a => Fin.ext ?_)
  match a with
  | ⟨0, _⟩ => show win4_0.index t (0 : Fin 2) * 2000 + 1 * r.val = t.val * 2000 + r.val; rw [e0]; omega
  | ⟨1, _⟩ => show win4_0.index t (1 : Fin 2) * 128 + 1 * l.val = l.val; rw [e1]; omega

theorem blk1_apply (t : Fin cfg4.N) (G : S100000x128.Idx → EReal) (r : Fin 2000) (l : Fin 128) :
    ((cfg4.win 1).blk t).view.read (Elt Ideal) G (ix2 r l) = G (ix2 (row t r) l) := by
  have e0 : win4_1.index t (0 : Fin 2) = t.val := (idx_facts t).2.2.1
  have e1 : win4_1.index t (1 : Fin 2) = 0 := (idx_facts t).2.2.2.1
  rw [View.read_apply]
  refine congrArg G (funext fun a => Fin.ext ?_)
  match a with
  | ⟨0, _⟩ => show win4_1.index t (0 : Fin 2) * 2000 + 1 * r.val = t.val * 2000 + r.val; rw [e0]; omega
  | ⟨1, _⟩ => show win4_1.index t (1 : Fin 2) * 128 + 1 * l.val = l.val; rw [e1]; omega

theorem blk2_apply (t : Fin cfg4.N) (G : S100000x128.Idx → EReal) (r : Fin 2000) (l : Fin 128) :
    ((cfg4.win 2).blk t).view.read (Elt Ideal) G (ix2 r l) = G (ix2 (row t r) l) := by
  have e0 : win4_2.index t (0 : Fin 2) = t.val := (idx_facts t).2.2.2.2.1
  have e1 : win4_2.index t (1 : Fin 2) = 0 := (idx_facts t).2.2.2.2.2.1
  rw [View.read_apply]
  refine congrArg G (funext fun a => Fin.ext ?_)
  match a with
  | ⟨0, _⟩ => show win4_2.index t (0 : Fin 2) * 2000 + 1 * r.val = t.val * 2000 + r.val; rw [e0]; omega
  | ⟨1, _⟩ => show win4_2.index t (1 : Fin 2) * 128 + 1 * l.val = l.val; rw [e1]; omega

theorem blk3_apply (t : Fin cfg4.N) (G : S100000x128.Idx → EReal) (r : Fin 2000) (l : Fin 128) :
    ((cfg4.win 3).blk t).view.read (Elt Ideal) G (ix2 r l) = G (ix2 (row t r) l) := by
  have e0 : win4_3.index t (0 : Fin 2) = t.val := (idx_facts t).2.2.2.2.2.2.1
  have e1 : win4_3.index t (1 : Fin 2) = 0 := (idx_facts t).2.2.2.2.2.2.2.1
  rw [View.read_apply]
  refine congrArg G (funext fun a => Fin.ext ?_)
  match a with
  | ⟨0, _⟩ => show win4_3.index t (0 : Fin 2) * 2000 + 1 * r.val = t.val * 2000 + r.val; rw [e0]; omega
  | ⟨1, _⟩ => show win4_3.index t (1 : Fin 2) * 128 + 1 * l.val = l.val; rw [e1]; omega

/-! ## The region's inputs as it finds them, and the specification -/

variable (V : (c : Dev nD) → (b : Ref sig .tc) → Buf (Elt Ideal) ((c : Thread nD τ).loc b))

/-- The first input window's array as the region finds it, typed as a [100000, 128] array of extended reals. -/
def inp0 (c : Dev nD) : S100000x128.Idx → EReal := V c (Pipeline.arrRef spec4 0)
/-- The second. -/
def inp1 (c : Dev nD) : S100000x128.Idx → EReal := V c (Pipeline.arrRef spec4 1)
/-- The third. -/
def inp2 (c : Dev nD) : S100000x128.Idx → EReal := V c (Pipeline.arrRef spec4 2)

/-- The three input arrays added, index by index: the array output window 3 ends holding. -/
def sum3 (c : Dev nD) : S100000x128.Idx → EReal := fun i => (inp0 V c i + inp1 V c i) + inp2 V c i

theorem sum3_apply (c : Dev nD) (i : S100000x128.Idx) : sum3 V c i = (inp0 V c i + inp1 V c i) + inp2 V c i := rfl

/-- The sum of each column of a [100000, 128] array, as a [1, 128] array. -/
def colSum (G : S100000x128.Idx → EReal) : S1x128.Idx → EReal := fun i => ∑ r : Fin 100000, G (ix2 r (i 1))

/-- Column `l` of `G` as a function of the row number (zero past the last row). -/
def colN (G : S100000x128.Idx → EReal) (l : Fin 128) (k : ℕ) : EReal :=
  if h : k < 100000 then G (ix2 ⟨k, h⟩ l) else 0

theorem colN_row (G : S100000x128.Idx → EReal) (l : Fin 128) (t : Fin cfg4.N) (r : Fin 2000) :
    G (ix2 (row t r) l) = colN G l (t.val * 2000 + r.val) := by
  have h : t.val * 2000 + r.val < 100000 := (row t r).isLt
  unfold colN
  rw [dif_pos h]
  rfl

theorem colN_val (G : S100000x128.Idx → EReal) (l : Fin 128) (r : Fin 100000) : colN G l r.val = G (ix2 r l) := by
  unfold colN
  rw [dif_pos r.isLt]

/-- The tile output's payload at point `t`, entry `(r, l)`, is the three arrays added at row `r` of tile `t`. -/
theorem tile_apply (c : Dev nD) (t : Fin cfg4.N) (r : Fin 2000) (l : Fin 128) :
    k4_pay3 (iblk4 V c 0 t) (iblk4 V c 1 t) (iblk4 V c 2 t) (ix2 r l) = sum3 V c (ix2 (row t r) l) := by
  refine (pay3_apply (iblk4 V c 0 t) (iblk4 V c 1 t) (iblk4 V c 2 t) r l).trans ?_
  unfold iblk4 sum3 inp0 inp1 inp2
  rw [blk0_apply t _ r l, blk1_apply t _ r l, blk2_apply t _ r l]

/-! ## Output window 3: the three arrays added -/

/-- After any point the tile output's buffer holds the payload of the point's input blocks. -/
theorem outs3 (c : Dev nD) (t : Fin cfg4.N) :
    (outsAt4 V c t.val t.isLt).1 = k4_pay3 (iblk4 V c 0 t) (iblk4 V c 1 t) (iblk4 V c 2 t) := by
  by_cases h0 : t.val % 50 = 0
  · rw [outsAt4_A V c t h0]
    dsimp only
    exact out_A_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)
  · rw [outsAt4_B V c t h0]
    dsimp only
    exact out_B_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2

/-- What point `t` writes back is block `t` of the three arrays added. -/
theorem flushed3_eq (c : Dev nD) (t : Fin cfg4.N) :
    (dat4 (F := Ideal) V c).flushed 3 t = ((cfg4.win 3).blk t).view.read (Elt Ideal) (sum3 V c) := by
  show (cfg4.win 3).cut (grid4.coords t) ((dat4 V c).after 3 t) = _
  rw [after4_3, outs3 V c t]
  funext j
  obtain ⟨r, l, rfl⟩ : ∃ (r : Fin 2000) (l : Fin 128), j = ix2 r l := ⟨j 0, j 1, eq_ix2 j⟩
  exact (tile_apply V c t r l).trans (blk3_apply t (sum3 V c) r l).symm

/-- An index of the array is in point `t`'s block iff each coordinate is in the block's range on its axis. -/
theorem mem_blk3 (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v110_0).slice (win4_3.rect t)).set ↔ _
  rw [View.set_slice_whole, Rect.mem_set_unit]
  exact Iff.rfl

/-- Row `r` is in the block of point `r / 2000`. -/
theorem cover3 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 50 := N_4
  have ht : (i 0).val / 2000 < cfg4.N := by rw [hN]; omega
  refine ⟨⟨(i 0).val / 2000, ht⟩, flush4_3 _, ?_⟩
  have e0 : win4_3.index ⟨(i 0).val / 2000, ht⟩ (0 : Fin 2) = (i 0).val / 2000 := (idx_facts ⟨(i 0).val / 2000, ht⟩).2.2.2.2.2.2.1
  have e1 : win4_3.index ⟨(i 0).val / 2000, ht⟩ (1 : Fin 2) = 0 := (idx_facts ⟨(i 0).val / 2000, ht⟩).2.2.2.2.2.2.2.1
  rw [mem_blk3]
  intro a
  match a with
  | ⟨0, _⟩ => show win4_3.index ⟨(i 0).val / 2000, ht⟩ (0 : Fin 2) * 2000 ≤ (i 0).val ∧ (i 0).val < win4_3.index ⟨(i 0).val / 2000, ht⟩ (0 : Fin 2) * 2000 + 2000; rw [e0]; omega
  | ⟨1, _⟩ => show win4_3.index ⟨(i 0).val / 2000, ht⟩ (1 : Fin 2) * 128 ≤ (i 1).val ∧ (i 1).val < win4_3.index ⟨(i 0).val / 2000, ht⟩ (1 : Fin 2) * 128 + 128; rw [e1]; omega

/-- OUTPUT WINDOW 3 after the region: the three input arrays, as the region finds them, added index by index. -/
theorem arr4_3 (c : Dev nD) : (dat4 (F := Ideal) V c).arrAt 3 cfg4.N = sum3 V c :=
  (dat4 (F := Ideal) V c).arrAt_eq_of_cover 3 (sum3 V c) (fun t _ => flushed3_eq V c t) cover3

/-! ## Output window 4: the column sums of the three arrays added -/

/-- At the first point the accumulator's buffer holds the payload over the zero block. -/
theorem outs4_A (c : Dev nD) (t : Fin cfg4.N) (h0 : t.val % 50 = 0) :
    (outsAt4 V c t.val t.isLt).2.1 = k4_pay4 (iblk4 V c 0 t) (iblk4 V c 1 t) (iblk4 V c 2 t) (k4_pay1 (F := Ideal)) := by
  rw [outsAt4_A V c t h0]
  dsimp only
  exact out_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)

/-- At a later point it holds the payload over what the point before left. -/
theorem outs4_B (c : Dev nD) (t : Fin cfg4.N) (h0 : ¬t.val % 50 = 0) :
    (outsAt4 V c t.val t.isLt).2.1 = k4_pay4 (iblk4 V c 0 t) (iblk4 V c 1 t) (iblk4 V c 2 t) (outsAt4 V c (t.val - 1) (Nat.lt_of_le_of_lt (Nat.sub_le _ _) t.isLt)).2.1 := by
  rw [outsAt4_B V c t h0]
  dsimp only
  exact out_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2

/-- One point's step at column `l`: what the accumulator held plus the tile's rows of column `l`. -/
theorem step4 (c : Dev nD) (t : Fin cfg4.N) (xo : Vec Ideal S1x128 .f32) (l : Fin 128) :
    k4_pay4 (iblk4 V c 0 t) (iblk4 V c 1 t) (iblk4 V c 2 t) xo (ix2 (0 : Fin 1) l)
      = xo (ix2 (0 : Fin 1) l) + ∑ r : Fin 2000, sum3 V c (ix2 (row t r) l) :=
  (pay4_apply (iblk4 V c 0 t) (iblk4 V c 1 t) (iblk4 V c 2 t) xo l).trans
    (congrArg (fun s => xo (ix2 (0 : Fin 1) l) + s) (Finset.sum_congr rfl fun r _ => tile_apply V c t r l))

/-- THE INVARIANT: after point `n` the accumulator holds, in column `l`, the sum over the rows below `(n + 1) * 2000`. -/
theorem acc4 (c : Dev nD) : ∀ (n : ℕ) (h : n < cfg4.N) (l : Fin 128),
    (outsAt4 V c n h).2.1 (ix2 (0 : Fin 1) l) = ∑ k ∈ Finset.range ((n + 1) * 2000), colN (sum3 V c) l k
  | 0, h, l => by
    rw [show (outsAt4 V c 0 h).2.1 = _ from outs4_A V c ⟨0, h⟩ rfl, step4 V c ⟨0, h⟩ (k4_pay1 (F := Ideal)) l]
    exact sum_tiles_step (colN (sum3 V c) l) 0 _ (fun r => colN_row (sum3 V c) l ⟨0, h⟩ r) _ (by rw [pay1_apply]; simp)
  | n + 1, h, l => by
    have hN : n + 1 < 50 := lt_of_lt_of_eq h (show cfg4.N = 50 from N_4)
    have hB : ¬(⟨n + 1, h⟩ : Fin cfg4.N).val % 50 = 0 := by dsimp only; omega
    rw [show (outsAt4 V c (n + 1) h).2.1 = _ from outs4_B V c ⟨n + 1, h⟩ hB, step4 V c ⟨n + 1, h⟩ _ l]
    exact sum_tiles_step (colN (sum3 V c) l) (n + 1) _ (fun r => colN_row (sum3 V c) l ⟨n + 1, h⟩ r) _ (acc4 c n _ l)

/-- After the last point the accumulator holds the column sums over all 100000 rows. -/
theorem acc4_last (c : Dev nD) (t : Fin cfg4.N) (ht : t.val = 49) :
    (outsAt4 V c t.val t.isLt).2.1 = colSum (sum3 V c) := by
  funext j
  obtain ⟨u, l, rfl⟩ : ∃ (u : Fin 1) (l : Fin 128), j = ix2 u l := ⟨j 0, j 1, eq_ix2 j⟩
  obtain rfl : u = 0 := Subsingleton.elim _ _
  refine (acc4 V c t.val t.isLt l).trans ?_
  rw [ht]
  exact sum_rows (colN (sum3 V c) l) _ (fun r => colN_val (sum3 V c) l r)

/-- The one write-back, at the last point, writes them: the accumulator's one block is its whole array. -/
theorem flushed4_eq (c : Dev nD) (t : Fin cfg4.N) (hf : (cfg4.win 4).flush t = true) :
    (dat4 (F := Ideal) V c).flushed 4 t = ((cfg4.win 4).blk t).view.read (Elt Ideal) (colSum (sum3 V c)) := by
  have ht : t.val = 49 := by have := (flush4_4 t).mp hf; have := lt50 t; omega
  have e0 : win4_4.index t (0 : Fin 2) = 0 := (idx_facts t).2.2.2.2.2.2.2.2.1
  have e1 : win4_4.index t (1 : Fin 2) = 0 := (idx_facts t).2.2.2.2.2.2.2.2.2.1
  show (cfg4.win 4).cut (grid4.coords t) ((dat4 V c).after 4 t) = _
  rw [after4_4, acc4_last V c t ht]
  have hz' : (fun a => win4_4.index t a * main_v110_1.ty.shape.size a) = fun _ => 0 := funext fun a => by
    match a with
    | ⟨0, _⟩ => show win4_4.index t (0 : Fin 2) * 1 = 0; rw [e0]
    | ⟨1, _⟩ => show win4_4.index t (1 : Fin 2) * 128 = 0; rw [e1]
  exact (Memref.read_access_unit_zero (Elt Ideal) main_v110_1 hz' (fun a => by rw [congrFun hz' a]; simp) (colSum (sum3 V c))).symm

/-- An index of the accumulator's array is in point `t`'s block iff each coordinate is in the block's range on its axis. -/
theorem mem_blk4 (t : Fin cfg4.N) (i : S1x128.Idx) :
    i ∈ ((cfg4.win 4).blk t).view.set ↔ ∀ a : Fin 2, win4_4.index t a * S1x128.size a ≤ (i a).val ∧ (i a).val < win4_4.index t a * S1x128.size a + S1x128.size a := by
  show i ∈ ((View.whole main_v110_1).slice (win4_4.rect t)).set ↔ _
  rw [View.set_slice_whole, Rect.mem_set_unit]
  exact Iff.rfl

/-- The last point's block covers the accumulator's array. -/
theorem cover4 (i : S1x128.Idx) : ∃ t : Fin cfg4.N, (cfg4.win 4).flush t = true ∧ i ∈ ((cfg4.win 4).blk t).view.set := by
  have hi0 : (i 0).val < 1 := (i 0).isLt
  have hi1 : (i 1).val < 128 := (i 1).isLt
  have hN : cfg4.N = 50 := N_4
  have ht : 49 < cfg4.N := by rw [hN]; omega
  refine ⟨⟨49, ht⟩, (flush4_4 _).mpr rfl, ?_⟩
  have e0 : win4_4.index ⟨49, ht⟩ (0 : Fin 2) = 0 := (idx_facts ⟨49, ht⟩).2.2.2.2.2.2.2.2.1
  have e1 : win4_4.index ⟨49, ht⟩ (1 : Fin 2) = 0 := (idx_facts ⟨49, ht⟩).2.2.2.2.2.2.2.2.2.1
  rw [mem_blk4]
  intro a
  match a with
  | ⟨0, _⟩ => show win4_4.index ⟨49, ht⟩ (0 : Fin 2) * 1 ≤ (i 0).val ∧ (i 0).val < win4_4.index ⟨49, ht⟩ (0 : Fin 2) * 1 + 1; rw [e0]; omega
  | ⟨1, _⟩ => show win4_4.index ⟨49, ht⟩ (1 : Fin 2) * 128 ≤ (i 1).val ∧ (i 1).val < win4_4.index ⟨49, ht⟩ (1 : Fin 2) * 128 + 128; rw [e1]; omega

/-- OUTPUT WINDOW 4 after the region: the sum, over all 100000 rows, of each column of the three input arrays added. -/
theorem arr4_4 (c : Dev nD) : (dat4 (F := Ideal) V c).arrAt 4 cfg4.N
    = fun i => ∑ r : Fin 100000, sum3 V c (ix2 r (i 1)) :=
  (dat4 (F := Ideal) V c).arrAt_eq_of_cover 4 (colSum (sum3 V c)) (flushed4_eq V c) cover4

/-- The three arrays added, squared, index by index. -/
def sq3 (c : Dev nD) : S100000x128.Idx → EReal := fun i => sum3 V c i * sum3 V c i

/-! ## Output window 5: the column sums of the squares -/

/-- At the first point the accumulator's buffer holds the payload over the zero block. -/
theorem outs5_A (c : Dev nD) (t : Fin cfg4.N) (h0 : t.val % 50 = 0) :
    (outsAt4 V c t.val t.isLt).2.2 = k4_pay5 (iblk4 V c 0 t) (iblk4 V c 1 t) (iblk4 V c 2 t) (k4_pay2 (F := Ideal)) := by
  rw [outsAt4_A V c t h0]
  dsimp only
  exact out_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)

/-- At a later point it holds the payload over what the point before left. -/
theorem outs5_B (c : Dev nD) (t : Fin cfg4.N) (h0 : ¬t.val % 50 = 0) :
    (outsAt4 V c t.val t.isLt).2.2 = k4_pay5 (iblk4 V c 0 t) (iblk4 V c 1 t) (iblk4 V c 2 t) (outsAt4 V c (t.val - 1) (Nat.lt_of_le_of_lt (Nat.sub_le _ _) t.isLt)).2.2 := by
  rw [outsAt4_B V c t h0]
  dsimp only
  exact out_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2

/-- One point's step at column `l`: what the accumulator held plus the tile's rows of column `l`. -/
theorem step5 (c : Dev nD) (t : Fin cfg4.N) (xo : Vec Ideal S1x128 .f32) (l : Fin 128) :
    k4_pay5 (iblk4 V c 0 t) (iblk4 V c 1 t) (iblk4 V c 2 t) xo (ix2 (0 : Fin 1) l)
      = xo (ix2 (0 : Fin 1) l) + ∑ r : Fin 2000, sq3 V c (ix2 (row t r) l) :=
  (pay5_apply (iblk4 V c 0 t) (iblk4 V c 1 t) (iblk4 V c 2 t) xo l).trans
    (congrArg (fun s => xo (ix2 (0 : Fin 1) l) + s) (Finset.sum_congr rfl fun r _ => congrArg₂ (· * ·) (tile_apply V c t r l) (tile_apply V c t r l)))

/-- THE INVARIANT: after point `n` the accumulator holds, in column `l`, the sum over the rows below `(n + 1) * 2000`. -/
theorem acc5 (c : Dev nD) : ∀ (n : ℕ) (h : n < cfg4.N) (l : Fin 128),
    (outsAt4 V c n h).2.2 (ix2 (0 : Fin 1) l) = ∑ k ∈ Finset.range ((n + 1) * 2000), colN (sq3 V c) l k
  | 0, h, l => by
    rw [show (outsAt4 V c 0 h).2.2 = _ from outs5_A V c ⟨0, h⟩ rfl, step5 V c ⟨0, h⟩ (k4_pay2 (F := Ideal)) l]
    exact sum_tiles_step (colN (sq3 V c) l) 0 _ (fun r => colN_row (sq3 V c) l ⟨0, h⟩ r) _ (by rw [pay2_apply]; simp)
  | n + 1, h, l => by
    have hN : n + 1 < 50 := lt_of_lt_of_eq h (show cfg4.N = 50 from N_4)
    have hB : ¬(⟨n + 1, h⟩ : Fin cfg4.N).val % 50 = 0 := by dsimp only; omega
    rw [show (outsAt4 V c (n + 1) h).2.2 = _ from outs5_B V c ⟨n + 1, h⟩ hB, step5 V c ⟨n + 1, h⟩ _ l]
    exact sum_tiles_step (colN (sq3 V c) l) (n + 1) _ (fun r => colN_row (sq3 V c) l ⟨n + 1, h⟩ r) _ (acc5 c n _ l)

/-- After the last point the accumulator holds the column sums over all 100000 rows. -/
theorem acc5_last (c : Dev nD) (t : Fin cfg4.N) (ht : t.val = 49) :
    (outsAt4 V c t.val t.isLt).2.2 = colSum (sq3 V c) := by
  funext j
  obtain ⟨u, l, rfl⟩ : ∃ (u : Fin 1) (l : Fin 128), j = ix2 u l := ⟨j 0, j 1, eq_ix2 j⟩
  obtain rfl : u = 0 := Subsingleton.elim _ _
  refine (acc5 V c t.val t.isLt l).trans ?_
  rw [ht]
  exact sum_rows (colN (sq3 V c) l) _ (fun r => colN_val (sq3 V c) l r)

/-- The one write-back, at the last point, writes them: the accumulator's one block is its whole array. -/
theorem flushed5_eq (c : Dev nD) (t : Fin cfg4.N) (hf : (cfg4.win 5).flush t = true) :
    (dat4 (F := Ideal) V c).flushed 5 t = ((cfg4.win 5).blk t).view.read (Elt Ideal) (colSum (sq3 V c)) := by
  have ht : t.val = 49 := by have := (flush4_5 t).mp hf; have := lt50 t; omega
  have e0 : win4_5.index t (0 : Fin 2) = 0 := (idx_facts t).2.2.2.2.2.2.2.2.2.2.1
  have e1 : win4_5.index t (1 : Fin 2) = 0 := (idx_facts t).2.2.2.2.2.2.2.2.2.2.2
  show (cfg4.win 5).cut (grid4.coords t) ((dat4 V c).after 5 t) = _
  rw [after4_5, acc5_last V c t ht]
  have hz' : (fun a => win4_5.index t a * main_v110_2.ty.shape.size a) = fun _ => 0 := funext fun a => by
    match a with
    | ⟨0, _⟩ => show win4_5.index t (0 : Fin 2) * 1 = 0; rw [e0]
    | ⟨1, _⟩ => show win4_5.index t (1 : Fin 2) * 128 = 0; rw [e1]
  exact (Memref.read_access_unit_zero (Elt Ideal) main_v110_2 hz' (fun a => by rw [congrFun hz' a]; simp) (colSum (sq3 V c))).symm

/-- An index of the accumulator's array is in point `t`'s block iff each coordinate is in the block's range on its axis. -/
theorem mem_blk5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v110_2).slice (win4_5.rect t)).set ↔ _
  rw [View.set_slice_whole, Rect.mem_set_unit]
  exact Iff.rfl

/-- The last point's block covers the accumulator's array. -/
theorem cover5 (i : S1x128.Idx) : ∃ t : Fin cfg4.N, (cfg4.win 5).flush t = true ∧ i ∈ ((cfg4.win 5).blk t).view.set := by
  have hi0 : (i 0).val < 1 := (i 0).isLt
  have hi1 : (i 1).val < 128 := (i 1).isLt
  have hN : cfg4.N = 50 := N_4
  have ht : 49 < cfg4.N := by rw [hN]; omega
  refine ⟨⟨49, ht⟩, (flush4_5 _).mpr rfl, ?_⟩
  have e0 : win4_5.index ⟨49, ht⟩ (0 : Fin 2) = 0 := (idx_facts ⟨49, ht⟩).2.2.2.2.2.2.2.2.2.2.1
  have e1 : win4_5.index ⟨49, ht⟩ (1 : Fin 2) = 0 := (idx_facts ⟨49, ht⟩).2.2.2.2.2.2.2.2.2.2.2
  rw [mem_blk5]
  intro a
  match a with
  | ⟨0, _⟩ => show win4_5.index ⟨49, ht⟩ (0 : Fin 2) * 1 ≤ (i 0).val ∧ (i 0).val < win4_5.index ⟨49, ht⟩ (0 : Fin 2) * 1 + 1; rw [e0]; omega
  | ⟨1, _⟩ => show win4_5.index ⟨49, ht⟩ (1 : Fin 2) * 128 ≤ (i 1).val ∧ (i 1).val < win4_5.index ⟨49, ht⟩ (1 : Fin 2) * 128 + 128; rw [e1]; omega

/-- OUTPUT WINDOW 5 after the region: the sum, over all 100000 rows, of each column of the square of the three input arrays added. -/
theorem arr4_5 (c : Dev nD) : (dat4 (F := Ideal) V c).arrAt 5 cfg4.N
    = fun i => ∑ r : Fin 100000, sum3 V c (ix2 r (i 1)) * sum3 V c (ix2 r (i 1)) :=
  (dat4 (F := Ideal) V c).arrAt_eq_of_cover 5 (colSum (sq3 V c)) (flushed5_eq V c) cover5

end Cert.KernelIdeal.RegionValue4

end
-- ==== Proof.ApplyRegion5.lean ====
/- What the fifth pallas_call region of the idealized kernel (an affine map applied row
   block by row block) leaves in its output array, as one whole-array function of its three input arrays as the
   region finds them.

   The region walks the 50 row blocks of a [100000, 128] array `h`. At block `t` its body loads rows
   2000 t … 2000 t + 1999 of `h` and the two whole [1, 128] rows `scale` and `shift`, computes
   `h * broadcast scale + broadcast shift` lane by lane, and stores the [2000, 128] result, which the pipeline
   writes back to rows 2000 t … 2000 t + 1999 of the output. The 50 blocks tile the 100000 rows, so afterwards entry
   (r, l) of the output is `h (r, l) * scale (0, l) + shift (0, l)`, whatever the output held before.

   The steps: the body's value at one entry of a block (`pay_apply`); a block's value as the whole-array function
   read through the block's embedding into the array (`block_eq`, over plain functions); the block indices of the
   four windows at a grid point, decided over the 50 points (`idx_facts`); each loaded block as its array read
   through a block embedding (`iblk0_apply` … `iblk2_apply`); what a point writes back (`flushed_eq`); every array index lies in the block of point r / 2000 (`mem_blk`, `cover`); the array
   (`arr5_3`). -/
import proofs.«151220_j103079215236_2_alg».proof.Proof.Gen.KernelIdeal.Frame
import Idealize.ShloMosaic.Lib.Pipeline.Value
import Idealize.ShloMosaic.Lib.ValueLayout

set_option maxRecDepth 16384

noncomputable section

namespace Cert.KernelIdeal.RegionValue5

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer access, as the constant function. -/
theorem hz : (![0, 0] : Fin 2 → Nat) = fun _ => 0 := funext fun a => by fin_cases a <;> rfl

/-- The affine map of the region as ONE function of its three input arrays: entry (r, l) is
    `h (r, l) * scale (0, l) + shift (0, l)`. -/
abbrev G (h : S100000x128.Idx → EReal) (scale shift : S1x128.Idx → EReal) : S100000x128.Idx → EReal :=
  fun i => h i * scale (ix2 0 (i 1)) + shift (ix2 0 (i 1))

/-- The body's value at entry (p, q) of a block: the loaded entry times lane q of the scale row plus lane q of the
    shift row (the two same-shape casts are the identity, the two row broadcasts read their one row). -/
theorem pay_apply (x0 : Vec Ideal S2000x128 .f32) (x1 x2 : Vec Ideal S1x128 .f32) (p : Fin 2000) (q : Fin 128) :
    k5_pay1 x0 x1 x2 (ix2 p q) = x0 (ix2 p q) * x1 (ix2 (0 : Fin 1) q) + x2 (ix2 (0 : Fin 1) q) := by
  unfold k5_pay1
  simp only [shapeCast_self]
  rw [addf_apply, mulf_apply, broadcastTo_1b_ab_apply, broadcastTo_1b_ab_apply]

/-- A block's value is `G` read through the block's embedding `e` into the array: if the loaded block `x0` is the
    array `A0` read through `e`, the loaded rows are the whole row arrays, and `e` keeps the lane coordinate, then
    the body's value at `j` is `G A0 A1 A2 (e j)`. -/
theorem block_eq (x0 : Vec Ideal S2000x128 .f32) (x1 x2 : Vec Ideal S1x128 .f32)
    (A0 : S100000x128.Idx → EReal) (A1 A2 : S1x128.Idx → EReal) (e : S2000x128.Idx → S100000x128.Idx)
    (h0 : ∀ j, x0 j = A0 (e j)) (h1 : ∀ j, x1 j = A1 j) (h2 : ∀ j, x2 j = A2 j)
    (he : ∀ j, (e j 1).val = (j 1).val) :
    k5_pay1 x0 x1 x2 = fun j => G A0 A1 A2 (e j) := by
  funext j
  obtain ⟨p, q, rfl⟩ : ∃ (p : Fin 2000) (q : Fin 128), j = ix2 p q := ⟨j 0, j 1, eq_ix2 j⟩
  rw [pay_apply, h0, h1, h2]
  have hq : (ix2 (0 : Fin 1) (e (ix2 p q) 1) : S1x128.Idx) = ix2 (0 : Fin 1) q := by
    funext a; apply Fin.ext
    match a with
    | ⟨0, _⟩ => rfl
    | ⟨1, _⟩ => exact he (ix2 p q)
  show _ = A0 (e (ix2 p q)) * A1 (ix2 (0 : Fin 1) (e (ix2 p q) 1)) + A2 (ix2 (0 : Fin 1) (e (ix2 p q) 1))
  rw [hq]

/-- The printed index maps, decided over the 50 grid points: the input `h` and the output move together, at row
    block `t`; the two row arrays stay at their one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- The loaded block of `h` at point `t` is the array read where the output's block at `t` sits: both windows are at
    row block `t`, and an element of a block sits in its array, on each axis, at block index × block size + its
    coordinate in the block. -/
theorem iblk0_apply (c : Dev nD) (t : Fin cfg5.N) (y : S2000x128.Idx) :
    iblk5 V c 0 t y = V c (Pipeline.arrRef spec5 0) (((cfg5.win 3).blk t).view.emb y) := by
  obtain ⟨e00, e01, -, -, -, -, e30, e31⟩ := idx_facts t
  show V c (Pipeline.arrRef spec5 0) (((cfg5.win 0).blk t).view.emb y) = V c (Pipeline.arrRef spec5 0) (((cfg5.win 3).blk t).view.emb y)
  refine congrArg _ (funext fun a => Fin.ext ?_)
  match a with
  | ⟨0, _⟩ => show win5_0.index t (0 : Fin 2) * 2000 + 1 * (y 0).val = win5_3.index t (0 : Fin 2) * 2000 + 1 * (y 0).val; omega
  | ⟨1, _⟩ => show win5_0.index t (1 : Fin 2) * 128 + 1 * (y 1).val = win5_3.index t (1 : Fin 2) * 128 + 1 * (y 1).val; omega

/-- The loaded scale row at any point is the whole [1, 128] array: its one block is at index (0, 0). -/
theorem iblk1_apply (c : Dev nD) (t : Fin cfg5.N) (y : S1x128.Idx) :
    iblk5 V c 1 t y = V c (Pipeline.arrRef spec5 1) y := by
  obtain ⟨-, -, e10, e11, -, -, -, -⟩ := idx_facts t
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- The loaded shift row at any point is the whole [1, 128] array: its one block is at index (0, 0). -/
theorem iblk2_apply (c : Dev nD) (t : Fin cfg5.N) (y : S1x128.Idx) :
    iblk5 V c 2 t y = V c (Pipeline.arrRef spec5 2) y := by
  obtain ⟨-, -, -, -, e20, e21, -, -⟩ := idx_facts t
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The output's block at point `t` keeps the lane coordinate: its lane block index is 0. -/
theorem emb_lane (t : Fin cfg5.N) (y : S2000x128.Idx) : ((((cfg5.win 3).blk t).view.emb y : S100000x128.Idx) 1).val = (y 1).val := by
  obtain ⟨-, -, -, -, -, -, e30, e31⟩ := idx_facts t
  show win5_3.index t (1 : Fin 2) * 128 + 1 * (y 1).val = (y 1).val
  omega

/-- WHAT POINT `t` WRITES BACK is block `t` of `G` of the three input arrays as the region finds them. -/
theorem flushed_eq (c : Dev nD) (t : Fin cfg5.N) :
    (dat5 (F := Ideal) V c).flushed 3 t
      = ((cfg5.win 3).blk t).view.read (Elt Ideal)
          (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S2000x128) hz, View.ld_unit_zero (S := S1x128) hz]
  funext j
  show k5_pay1 (iblk5 V c 0 t) (iblk5 V c 1 t) (iblk5 V c 2 t) j
    = G (V c (Pipeline.arrRef spec5 0)) (V c (Pipeline.arrRef spec5 1)) (V c (Pipeline.arrRef spec5 2)) (((cfg5.win 3).blk t).view.emb j)
  exact congrFun (block_eq (iblk5 V c 0 t) (iblk5 V c 1 t) (iblk5 V c 2 t)
    (V c (Pipeline.arrRef spec5 0)) (V c (Pipeline.arrRef spec5 1)) (V c (Pipeline.arrRef spec5 2))
    (fun y => ((cfg5.win 3).blk t).view.emb y) (iblk0_apply V c t) (iblk1_apply V c t) (iblk2_apply V c t) (emb_lane t)) j

/-- An index of the output array is in point `t`'s block iff each coordinate is in the block's range on its axis. -/
theorem mem_blk (t : Fin cfg5.N) (i : S100000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v127).slice (win5_3.rect t)).set ↔ _
  rw [View.set_slice_whole, Rect.mem_set_unit]
  exact Iff.rfl

/-- The 50 blocks of 2000 rows tile the 100000 rows: row r is in the block of point r / 2000, which is written back. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 50 := N_5
  let t : Fin cfg5.N := ⟨(i 0).val / 2000, by rw [hN]; omega⟩
  obtain ⟨-, -, -, -, -, -, e30, e31⟩ := idx_facts t
  have ht : t.val = (i 0).val / 2000 := rfl
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- THE OUTPUT ARRAY after the region, for any entry contents `V`: `G` of the three input arrays as the region
    finds them — entry (r, l) is `h (r, l) * scale (0, l) + shift (0, l)`. -/
theorem arr5_3 (c : Dev nD) :
    (dat5 (F := Ideal) V c).arrAt 3 cfg5.N
      = G (V c (Pipeline.arrRef spec5 0)) (V c (Pipeline.arrRef spec5 1)) (V c (Pipeline.arrRef spec5 2)) :=
  (dat5 (F := Ideal) V c).arrAt_eq_of_cover 3
    (G (V c (Pipeline.arrRef spec5 0)) (V c (Pipeline.arrRef spec5 1)) (V c (Pipeline.arrRef spec5 2)))
    (fun t _ => flushed_eq V c t) cover

/-- The same with the three input arrays named as functions on their literal index types: the output array, index
    by index. -/
theorem arr5_3_fun (c : Dev nD) (h : S100000x128.Idx → EReal) (scale shift : S1x128.Idx → EReal)
    (e0 : V c (Pipeline.arrRef spec5 0) = h) (e1 : V c (Pipeline.arrRef spec5 1) = scale)
    (e2 : V c (Pipeline.arrRef spec5 2) = shift) :
    (dat5 (F := Ideal) V c).arrAt 3 cfg5.N = fun i => h i * scale (ix2 0 (i 1)) + shift (ix2 0 (i 1)) := by
  subst e0 e1 e2
  exact arr5_3 V c

end Cert.KernelIdeal.RegionValue5

end
-- ==== Proof.KernelFold2.lean ====
/-
  The kernel program from the first normalisation to the second: the normalised and rectified first layer, the second
  product and neighbour means, the second reduction and its affine normalisation, each read off the fold of boundary
  contents as a function of the argument arrays.
-/
import proofs.«151220_j103079215236_2_alg».proof.Proof.KernelFold1
import proofs.«151220_j103079215236_2_alg».proof.Proof.ApplyRegion2
import proofs.«151220_j103079215236_2_alg».proof.Proof.MatmulRegion3
import proofs.«151220_j103079215236_2_alg».proof.Proof.ReduceRegion4
import proofs.«151220_j103079215236_2_alg».proof.Proof.ApplyRegion5

set_option maxRecDepth 16384

noncomputable section

namespace Cert.KernelIdeal.FoldValue

open Cert.KernelIdeal Cert.KernelIdeal.Gen Cert.KernelIdeal.HostValue Cert.Stages
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-! ## The four arrays the kernel program passes from kernel to kernel, as functions of the launched arguments -/

/-- The affine normalisation of an array by its own column statistics. -/
def normK (H : FVec Ideal S100000x128 .f32) (g b : FVec Ideal S128 .f32) : FVec Ideal S100000x128 .f32 :=
  affineK H (scaleK (colSum H) (colSum (fun i => H i * H i)) g) (shiftK (colSum H) (colSum (fun i => H i * H i)) g b)

/-- The first layer's sum over the two edge types. -/
def H1K : FVec Ideal S100000x128 .f32 :=
  convK (W0 m ρ c (Proc.devRef .tc main_arg0)) (W0 m ρ c (Proc.devRef .tc main_arg1)) (W0 m ρ c (Proc.devRef .tc main_arg2)) (W0 m ρ c (Proc.devRef .tc main_arg4)) (W0 m ρ c (Proc.devRef .tc main_arg5)) (W0 m ρ c (Proc.devRef .tc main_arg6)) (W0 m ρ c (Proc.devRef .tc main_arg7)) (invDegree (W0 m ρ c (Proc.devRef .tc main_arg1))) (invDegree (W0 m ρ c (Proc.devRef .tc main_arg2)))

/-- The first layer, normalised and rectified. -/
def h1K : FVec Ideal S100000x128 .f32 := fun i => leakyK (normK (H1K m ρ c) (W0 m ρ c (Proc.devRef .tc main_arg12)) (W0 m ρ c (Proc.devRef .tc main_arg13)) i)

/-- The second layer's sum over the two edge types. -/
def H2K : FVec Ideal S100000x128 .f32 :=
  convK (h1K m ρ c) (W0 m ρ c (Proc.devRef .tc main_arg1)) (W0 m ρ c (Proc.devRef .tc main_arg2)) (W0 m ρ c (Proc.devRef .tc main_arg8)) (W0 m ρ c (Proc.devRef .tc main_arg9)) (W0 m ρ c (Proc.devRef .tc main_arg10)) (W0 m ρ c (Proc.devRef .tc main_arg11)) (invDegree (W0 m ρ c (Proc.devRef .tc main_arg1))) (invDegree (W0 m ρ c (Proc.devRef .tc main_arg2)))

/-- The second layer, normalised. -/
def h2K : FVec Ideal S100000x128 .f32 := normK (H2K m ρ c) (W0 m ρ c (Proc.devRef .tc main_arg14)) (W0 m ρ c (Proc.devRef .tc main_arg15))

/-! ## The first normalisation (third host stretch, region 2) -/

theorem W4_h' : W4 m ρ c (Proc.devRef .tc main_v57_0) = H1K m ρ c := W4_h m ρ c
theorem W4_sum' : W4 m ρ c (Proc.devRef .tc main_v57_1) = colSum (H1K m ρ c) := W4_sum m ρ c
theorem W4_sumsq' : W4 m ρ c (Proc.devRef .tc main_v57_2) = colSum (fun i => H1K m ρ c i * H1K m ρ c i) := W4_sumsq m ρ c

theorem W5_scale : W5 m ρ c (Proc.devRef .tc main_v70)
    = scaleK (colSum (H1K m ρ c)) (colSum (fun i => H1K m ρ c i * H1K m ρ c i)) (W0 m ρ c (Proc.devRef .tc main_arg12)) := by
  refine (h2_scale (W4 m ρ c)).trans ?_
  rw [W4_sum', W4_sumsq', carry_main_arg12_4_0]

theorem W5_shift : W5 m ρ c (Proc.devRef .tc main_v73)
    = shiftK (colSum (H1K m ρ c)) (colSum (fun i => H1K m ρ c i * H1K m ρ c i)) (W0 m ρ c (Proc.devRef .tc main_arg12)) (W0 m ρ c (Proc.devRef .tc main_arg13)) := by
  refine (h2_shift (W4 m ρ c)).trans ?_
  rw [W4_sum', W4_sumsq', carry_main_arg12_4_0, carry_main_arg13_4_0]

theorem W6_h1 : W6 m ρ c (Proc.devRef .tc main_v74) = h1K m ρ c := by
  have e0 : V5 m ρ c (Pipeline.arrRef spec2 0) = H1K m ρ c := (carry_main_v57_0_5_4 m ρ c).trans (W4_h' m ρ c)
  have e1 : V5 m ρ c (Pipeline.arrRef spec2 1) = _ := W5_scale m ρ c
  have e2 : V5 m ρ c (Pipeline.arrRef spec2 2) = _ := W5_shift m ρ c
  refine ((W6_arr m ρ c 3).trans (RegionValue2.arr2_3 (V5 m ρ) c)).trans ?_
  rw [e0, e1, e2]
  rfl

/-! ## The second product (region 3) and neighbour means (fourth host stretch) -/

theorem W1_self2 : W1 m ρ c (Proc.devRef .tc main_v21) = (addf (W0 m ρ c (Proc.devRef .tc main_arg9)) (W0 m ρ c (Proc.devRef .tc main_arg11)) : FVec Ideal S128x128 .f32) := h0_self2 (W0 m ρ c)

theorem W7_self : W7 m ρ c (Proc.devRef .tc main_v75_0) = rowsTimes (h1K m ρ c) (addf (W0 m ρ c (Proc.devRef .tc main_arg9)) (W0 m ρ c (Proc.devRef .tc main_arg11))) := by
  have e0 : V6 m ρ c (Pipeline.arrRef spec3 0) = h1K m ρ c := W6_h1 m ρ c
  have e1 : V6 m ρ c (Pipeline.arrRef spec3 1) = (addf (W0 m ρ c (Proc.devRef .tc main_arg9)) (W0 m ρ c (Proc.devRef .tc main_arg11)) : FVec Ideal S128x128 .f32) :=
    (carry_main_v21_6_1 m ρ c).trans (W1_self2 m ρ c)
  refine ((W7_arr m ρ c 4).trans (MatmulRegion3.arr3_4 (V6 m ρ) c)).trans ?_
  rw [e0, e1]
  rfl

theorem W7_nbr1 : W7 m ρ c (Proc.devRef .tc main_v75_1) = rowsTimes (h1K m ρ c) (W0 m ρ c (Proc.devRef .tc main_arg8)) := by
  have e0 : V6 m ρ c (Pipeline.arrRef spec3 0) = h1K m ρ c := W6_h1 m ρ c
  have e1 : V6 m ρ c (Pipeline.arrRef spec3 2) = (W0 m ρ c (Proc.devRef .tc main_arg8)) := carry_main_arg8_6_0 m ρ c
  refine ((W7_arr m ρ c 5).trans (MatmulRegion3.arr3_5 (V6 m ρ) c)).trans ?_
  rw [e0, e1]
  rfl

theorem W7_nbr2 : W7 m ρ c (Proc.devRef .tc main_v75_2) = rowsTimes (h1K m ρ c) (W0 m ρ c (Proc.devRef .tc main_arg10)) := by
  have e0 : V6 m ρ c (Pipeline.arrRef spec3 0) = h1K m ρ c := W6_h1 m ρ c
  have e1 : V6 m ρ c (Pipeline.arrRef spec3 3) = (W0 m ρ c (Proc.devRef .tc main_arg10)) := carry_main_arg10_6_0 m ρ c
  refine ((W7_arr m ρ c 6).trans (MatmulRegion3.arr3_6 (V6 m ρ) c)).trans ?_
  rw [e0, e1]
  rfl

theorem W8_mean1 : W8 m ρ c (Proc.devRef .tc main_v92) = nbrMeanK (rowsTimes (h1K m ρ c) (W0 m ρ c (Proc.devRef .tc main_arg8))) (W0 m ρ c (Proc.devRef .tc main_arg1)) (invDegree (W0 m ρ c (Proc.devRef .tc main_arg1))) := by
  refine (h4_mean1 (W7 m ρ c)).trans ?_
  rw [W7_nbr1, carry_main_arg1_7_0, carry_main_v9_7_1, W1_invdeg1]

theorem W8_mean2 : W8 m ρ c (Proc.devRef .tc main_v109) = nbrMeanK (rowsTimes (h1K m ρ c) (W0 m ρ c (Proc.devRef .tc main_arg10))) (W0 m ρ c (Proc.devRef .tc main_arg2)) (invDegree (W0 m ρ c (Proc.devRef .tc main_arg2))) := by
  refine (h4_mean2 (W7 m ρ c)).trans ?_
  rw [W7_nbr2, carry_main_arg2_7_0, carry_main_v19_7_1, W1_invdeg2]

/-! ## The second reduction kernel (region 4) and normalisation (fifth host stretch, region 5) -/

theorem sum4_eq : RegionValue4.sum3 (V8 m ρ) c = H2K m ρ c := by
  have e0 : RegionValue4.inp0 (V8 m ρ) c = rowsTimes (h1K m ρ c) (addf (W0 m ρ c (Proc.devRef .tc main_arg9)) (W0 m ρ c (Proc.devRef .tc main_arg11))) :=
    (show RegionValue4.inp0 (V8 m ρ) c = W8 m ρ c (Proc.devRef .tc main_v75_0) from rfl).trans ((carry_main_v75_0_8_7 m ρ c).trans (W7_self m ρ c))
  have e1 : RegionValue4.inp1 (V8 m ρ) c = nbrMeanK (rowsTimes (h1K m ρ c) (W0 m ρ c (Proc.devRef .tc main_arg8))) (W0 m ρ c (Proc.devRef .tc main_arg1)) (invDegree (W0 m ρ c (Proc.devRef .tc main_arg1))) :=
    (show RegionValue4.inp1 (V8 m ρ) c = W8 m ρ c (Proc.devRef .tc main_v92) from rfl).trans (W8_mean1 m ρ c)
  have e2 : RegionValue4.inp2 (V8 m ρ) c = nbrMeanK (rowsTimes (h1K m ρ c) (W0 m ρ c (Proc.devRef .tc main_arg10))) (W0 m ρ c (Proc.devRef .tc main_arg2)) (invDegree (W0 m ρ c (Proc.devRef .tc main_arg2))) :=
    (show RegionValue4.inp2 (V8 m ρ) c = W8 m ρ c (Proc.devRef .tc main_v109) from rfl).trans (W8_mean2 m ρ c)
  funext i
  rw [RegionValue4.sum3_apply, e0, e1, e2]
  rfl

theorem W9_h : W9 m ρ c (Proc.devRef .tc main_v110_0) = H2K m ρ c :=
  ((W9_arr m ρ c 3).trans (RegionValue4.arr4_3 (V8 m ρ) c)).trans (sum4_eq m ρ c)

theorem W9_sum : W9 m ρ c (Proc.devRef .tc main_v110_1) = colSum (H2K m ρ c) := by
  refine ((W9_arr m ρ c 4).trans (RegionValue4.arr4_4 (V8 m ρ) c)).trans ?_
  rw [sum4_eq]
  rfl

theorem W9_sumsq : W9 m ρ c (Proc.devRef .tc main_v110_2) = colSum (fun i => H2K m ρ c i * H2K m ρ c i) := by
  refine ((W9_arr m ρ c 5).trans (RegionValue4.arr4_5 (V8 m ρ) c)).trans ?_
  rw [sum4_eq]
  rfl

theorem W10_scale : W10 m ρ c (Proc.devRef .tc main_v123)
    = scaleK (colSum (H2K m ρ c)) (colSum (fun i => H2K m ρ c i * H2K m ρ c i)) (W0 m ρ c (Proc.devRef .tc main_arg14)) := by
  refine (h5_scale (W9 m ρ c)).trans ?_
  rw [W9_sum, W9_sumsq, carry_main_arg14_9_0]

theorem W10_shift : W10 m ρ c (Proc.devRef .tc main_v126)
    = shiftK (colSum (H2K m ρ c)) (colSum (fun i => H2K m ρ c i * H2K m ρ c i)) (W0 m ρ c (Proc.devRef .tc main_arg14)) (W0 m ρ c (Proc.devRef .tc main_arg15)) := by
  refine (h5_shift (W9 m ρ c)).trans ?_
  rw [W9_sum, W9_sumsq, carry_main_arg14_9_0, carry_main_arg15_9_0]

theorem W11_h2 : W11 m ρ c (Proc.devRef .tc main_v127) = h2K m ρ c := by
  have e0 : V10 m ρ c (Pipeline.arrRef spec5 0) = H2K m ρ c := (carry_main_v110_0_10_9 m ρ c).trans (W9_h m ρ c)
  have e1 : V10 m ρ c (Pipeline.arrRef spec5 1) = _ := W10_scale m ρ c
  have e2 : V10 m ρ c (Pipeline.arrRef spec5 2) = _ := W10_shift m ρ c
  refine ((W11_arr m ρ c 3).trans (RegionValue5.arr5_3 (V10 m ρ) c)).trans ?_
  rw [e0, e1, e2]
  rfl

end Cert.KernelIdeal.FoldValue

end
-- ==== Proof.DotRegion6.lean ====
/- What the last pallas_call region of the idealized kernel (a row-wise dot product of two
   arrays, block by block) leaves in its output array, as one whole-array function of its two input arrays as the
   region finds them.

   The region walks the 123 row blocks of two [503808, 128] arrays `a` and `b`. At block `t` its body loads rows
   4096 t … 4096 t + 4095 of each, multiplies them entry by entry, sums each row over its 128 lanes, and stores the
   4096 row sums re-laid as a [32, 128] block (row sum number s at (s / 128, s % 128)), which the pipeline writes back
   to rows 32 t … 32 t + 31 of the [3936, 128] output. The 123 blocks tile the 3936 rows, so afterwards entry (q, l) of
   the output is the dot product of row q * 128 + l of `a` and `b` — block t holds rows
   (32 t + q') * 128 + l = 4096 t + (128 q' + l) —, whatever the output held before.

   The steps: the body's value at one entry of a block (`pay_apply`: the re-laying read by row-major position,
   the lane sum as a sum over `Fin 128`); a block's value as the whole-array function read through the blocks'
   embeddings into their arrays (`block_eq`, over plain functions); the block indices of the three windows at a grid
   point, decided over the 123 points (`idx_facts`); what a point writes back (`flushed_eq`); every array index
   lies in the block of point q / 32 (`mem_blk`, `cover`); the array (`arr6_2`). -/
import proofs.«151220_j103079215236_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.KernelIdeal.RegionValue6

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer access, as the constant function. -/
theorem hz : (![0, 0] : Fin 2 → Nat) = fun _ => 0 := funext fun a => by fin_cases a <;> rfl

/-- Entry (q, l) of the [3936, 128] result sits at row-major position q * 128 + l, a row number of the two
    [503808, 128] inputs (3936 * 128 = 503808). -/
theorem row_lt (i : S3936x128.Idx) : (i 0).val * 128 + (i 1).val < 503808 := by
  have h0 : (i 0).val < 3936 := (i 0).isLt
  have h1 : (i 1).val < 128 := (i 1).isLt
  omega

/-- The row-wise dot product as ONE function of the two input arrays: entry (q, l) is the sum over the 128 lanes k
    of `a (q * 128 + l, k) * b (q * 128 + l, k)`. -/
abbrev G (a b : S503808x128.Idx → EReal) : S3936x128.Idx → EReal :=
  fun i => ∑ k : Fin 128, a (ix2 (⟨(i 0).val * 128 + (i 1).val, row_lt i⟩ : Fin 503808) k)
    * b (ix2 (⟨(i 0).val * 128 + (i 1).val, row_lt i⟩ : Fin 503808) k)

/-- The body's value at entry (a, b) of a [32, 128] block: the dot product of row a * 128 + b of the two loaded
    [4096, 128] blocks (the same-shape casts are the identity; the re-laying of the 4096 row sums keeps the row-major
    position; the lane sum from the zero word is the sum over the lane coordinate). -/
theorem pay_apply (x0 x1 : Vec Ideal S4096x128 .f32) (a : Fin 32) (b : Fin 128) :
    k6_pay1 x0 x1 (ix2 a b)
      = ∑ k : Fin 128, x0 (ix2 (⟨a.val * 128 + b.val, by omega⟩ : Fin 4096) k) * x1 (ix2 (⟨a.val * 128 + b.val, by omega⟩ : Fin 4096) k) := by
  unfold k6_pay1
  simp only [shapeCast_self]
  refine (shapeCast_apply _ shapeCasts_S4096_S32x128 (ix2 a b) (ix1 (⟨a.val * 128 + b.val, by omega⟩ : Fin 4096)) ?_).trans ?_
  · rw [Shape.rowMajor_val_one, Shape.rowMajor_val_two]
    rfl
  · refine (Ideal.multiReduction_add_single _ 0x00000000#32 reduces_S4096x128_S4096 _ _ (ix1 (⟨a.val * 128 + b.val, by omega⟩ : Fin 4096))).trans ?_
    refine Finset.sum_congr rfl fun k _ => ?_
    have hl : reduces_S4096x128_S4096.lift (ix1 (⟨a.val * 128 + b.val, by omega⟩ : Fin 4096)) k = ix2 (⟨a.val * 128 + b.val, by omega⟩ : Fin 4096) k := by
      funext d; apply Fin.ext
      match d with
      | ⟨0, _⟩ => rfl
      | ⟨1, _⟩ => rfl
    rw [hl]
    rfl

/-- A block of the result is `G` read through the block's embedding: with the output block at rows T * 32 + · of
    its array (`eo`) and the two loaded blocks the input arrays at rows T * 4096 + · (`ei0`, `ei1`), all keeping
    the lane coordinate, the body's value at `j` is `G A0 A1 (eo j)`, because
    T * 4096 + (a * 128 + b) = (T * 32 + a) * 128 + b. -/
theorem block_eq (x0 x1 : Vec Ideal S4096x128 .f32) (A0 A1 : S503808x128.Idx → EReal) (T : Nat)
    (eo : S32x128.Idx → S3936x128.Idx) (ei0 ei1 : S4096x128.Idx → S503808x128.Idx)
    (h0 : ∀ j, x0 j = A0 (ei0 j)) (h1 : ∀ j, x1 j = A1 (ei1 j))
    (heo0 : ∀ j, (eo j 0).val = T * 32 + (j 0).val) (heo1 : ∀ j, (eo j 1).val = (j 1).val)
    (hei00 : ∀ j, (ei0 j 0).val = T * 4096 + (j 0).val) (hei01 : ∀ j, (ei0 j 1).val = (j 1).val)
    (hei10 : ∀ j, (ei1 j 0).val = T * 4096 + (j 0).val) (hei11 : ∀ j, (ei1 j 1).val = (j 1).val) :
    k6_pay1 x0 x1 = fun j => G A0 A1 (eo j) := by
  funext j
  obtain ⟨a, b, rfl⟩ : ∃ (a : Fin 32) (b : Fin 128), j = ix2 a b := ⟨j 0, j 1, eq_ix2 j⟩
  rw [pay_apply]
  refine Finset.sum_congr rfl fun k _ => ?_
  rw [h0, h1]
  have e0 : ei0 (ix2 (⟨a.val * 128 + b.val, by omega⟩ : Fin 4096) k)
      = ix2 (⟨(eo (ix2 a b) 0).val * 128 + (eo (ix2 a b) 1).val, row_lt _⟩ : Fin 503808) k := by
    funext d; apply Fin.ext
    match d with
    | ⟨0, _⟩ =>
      show (ei0 (ix2 (⟨a.val * 128 + b.val, _⟩ : Fin 4096) k) 0).val = (eo (ix2 a b) 0).val * 128 + (eo (ix2 a b) 1).val
      rw [hei00, heo0, heo1]
      show T * 4096 + (a.val * 128 + b.val) = (T * 32 + a.val) * 128 + b.val
      omega
    | ⟨1, _⟩ =>
      show (ei0 (ix2 (⟨a.val * 128 + b.val, _⟩ : Fin 4096) k) 1).val = k.val
      rw [hei01]
  have e1 : ei1 (ix2 (⟨a.val * 128 + b.val, by omega⟩ : Fin 4096) k)
      = ix2 (⟨(eo (ix2 a b) 0).val * 128 + (eo (ix2 a b) 1).val, row_lt _⟩ : Fin 503808) k := by
    funext d; apply Fin.ext
    match d with
    | ⟨0, _⟩ =>
      show (ei1 (ix2 (⟨a.val * 128 + b.val, _⟩ : Fin 4096) k) 0).val = (eo (ix2 a b) 0).val * 128 + (eo (ix2 a b) 1).val
      rw [hei10, heo0, heo1]
      show T * 4096 + (a.val * 128 + b.val) = (T * 32 + a.val) * 128 + b.val
      omega
    | ⟨1, _⟩ =>
      show (ei1 (ix2 (⟨a.val * 128 + b.val, _⟩ : Fin 4096) k) 1).val = k.val
      rw [hei11]
  rw [e0, e1]

/-- The printed index maps, decided over the 123 grid points: all three windows are at row block `t`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- WHAT POINT `t` WRITES BACK is block `t` of `G` of the two input arrays as the region finds them: an element of
    a block sits in its array, on each axis, at block index × block size + its coordinate in the block. -/
theorem flushed_eq (c : Dev nD) (t : Fin cfg6.N) :
    (dat6 (F := Ideal) V c).flushed 2 t
      = ((cfg6.win 2).blk t).view.read (Elt Ideal) (G (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S4096x128) hz]
  obtain ⟨e00, e01, e10, e11, e20, e21⟩ := idx_facts t
  funext j
  show k6_pay1 (iblk6 V c 0 t) (iblk6 V c 1 t) j
    = G (V c (Pipeline.arrRef spec6 0)) (V c (Pipeline.arrRef spec6 1)) (((cfg6.win 2).blk t).view.emb j)
  refine congrFun (block_eq (iblk6 V c 0 t) (iblk6 V c 1 t)
    (V c (Pipeline.arrRef spec6 0)) (V c (Pipeline.arrRef spec6 1)) t.val
    (fun y => ((cfg6.win 2).blk t).view.emb y) (fun y => ((cfg6.win 0).blk t).view.emb y) (fun y => ((cfg6.win 1).blk t).view.emb y)
    (fun _ => rfl) (fun _ => rfl) ?_ ?_ ?_ ?_ ?_ ?_) j
  · intro y
    show win6_2.index t (0 : Fin 2) * 32 + 1 * (y 0).val = t.val * 32 + (y 0).val
    omega
  · intro y
    show win6_2.index t (1 : Fin 2) * 128 + 1 * (y 1).val = (y 1).val
    omega
  · intro y
    show win6_0.index t (0 : Fin 2) * 4096 + 1 * (y 0).val = t.val * 4096 + (y 0).val
    omega
  · intro y
    show win6_0.index t (1 : Fin 2) * 128 + 1 * (y 1).val = (y 1).val
    omega
  · intro y
    show win6_1.index t (0 : Fin 2) * 4096 + 1 * (y 0).val = t.val * 4096 + (y 0).val
    omega
  · intro y
    show win6_1.index t (1 : Fin 2) * 128 + 1 * (y 1).val = (y 1).val
    omega

/-- An index of the output array is in point `t`'s block iff each coordinate is in the block's range on its axis. -/
theorem mem_blk (t : Fin cfg6.N) (i : S3936x128.Idx) :
    i ∈ ((cfg6.win 2).blk t).view.set ↔ ∀ a : Fin 2, win6_2.index t a * S32x128.size a ≤ (i a).val ∧ (i a).val < win6_2.index t a * S32x128.size a + S32x128.size a := by
  show i ∈ ((View.whole main_v148).slice (win6_2.rect t)).set ↔ _
  rw [View.set_slice_whole, Rect.mem_set_unit]
  exact Iff.rfl

/-- The 123 blocks of 32 rows tile the 3936 rows: row q is in the block of point q / 32, which is written back. -/
theorem cover (i : S3936x128.Idx) : ∃ t : Fin cfg6.N, (cfg6.win 2).flush t = true ∧ i ∈ ((cfg6.win 2).blk t).view.set := by
  have hi0 : (i 0).val < 3936 := (i 0).isLt
  have hi1 : (i 1).val < 128 := (i 1).isLt
  have hN : cfg6.N = 123 := N_6
  let t : Fin cfg6.N := ⟨(i 0).val / 32, by rw [hN]; omega⟩
  obtain ⟨-, -, -, -, e20, e21⟩ := idx_facts t
  have ht : t.val = (i 0).val / 32 := rfl
  refine ⟨t, flush6_2 t, ?_⟩
  rw [mem_blk]
  intro a
  match a with
  | ⟨0, _⟩ => show win6_2.index t (0 : Fin 2) * 32 ≤ (i 0).val ∧ (i 0).val < win6_2.index t (0 : Fin 2) * 32 + 32; omega
  | ⟨1, _⟩ => show win6_2.index t (1 : Fin 2) * 128 ≤ (i 1).val ∧ (i 1).val < win6_2.index t (1 : Fin 2) * 128 + 128; omega

/-- THE OUTPUT ARRAY after the region, for any entry contents `V`: `G` of the two input arrays as the region finds
    them — entry (q, l) is the dot product of their rows q * 128 + l. -/
theorem arr6_2 (c : Dev nD) :
    (dat6 (F := Ideal) V c).arrAt 2 cfg6.N = G (V c (Pipeline.arrRef spec6 0)) (V c (Pipeline.arrRef spec6 1)) :=
  (dat6 (F := Ideal) V c).arrAt_eq_of_cover 2 (G (V c (Pipeline.arrRef spec6 0)) (V c (Pipeline.arrRef spec6 1)))
    (fun t _ => flushed_eq V c t) cover

/-- The same with the two input arrays named as functions on their literal index type: the output array, index by
    index. -/
theorem arr6_2_fun (c : Dev nD) (a b : S503808x128.Idx → EReal)
    (e0 : V c (Pipeline.arrRef spec6 0) = a) (e1 : V c (Pipeline.arrRef spec6 1) = b) :
    (dat6 (F := Ideal) V c).arrAt 2 cfg6.N
      = fun i : S3936x128.Idx => ∑ k : Fin 128, a (ix2 (⟨(i 0).val * 128 + (i 1).val, row_lt i⟩ : Fin 503808) k)
          * b (ix2 (⟨(i 0).val * 128 + (i 1).val, row_lt i⟩ : Fin 503808) k) := by
  subst e0 e1
  exact arr6_2 V c

end Cert.KernelIdeal.RegionValue6

end
-- ==== Proof.KernelFold3.lean ====
/-
  The kernel program's last stage read off the fold: the two endpoints' rows gathered from the normalised second
  layer and padded to whole tiles, the score kernel's tile-by-tile lane sums, and the flat layout with the padding cut
  off — the result array as a function of the launched arguments.
-/
import proofs.«151220_j103079215236_2_alg».proof.Proof.KernelFold2
import proofs.«151220_j103079215236_2_alg».proof.Proof.DotRegion6

set_option maxRecDepth 16384

noncomputable section

namespace Cert.KernelIdeal.FoldValue

open Cert.KernelIdeal Cert.KernelIdeal.Gen Cert.KernelIdeal.HostValue Cert.Stages
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-- The kernel program's scores from node features `H` and the label edges `e`: row `q · 128 + l` of the padded
    endpoint arrays dotted into entry `(q, l)` of a `[3936, 128]` array, laid out flat, the first 500000 kept. -/
def scoreK (H : FVec Ideal S100000x128 .f32) (e : IVec S2x500000 32) : FVec Ideal S500000 .f32 :=
  extractStridedSlice S500000 ![0]
    (shapeCast _ (RegionValue6.G (padRows (endpoint0 H e)) (padRows (endpoint1 H e))) Facts₀.shapeCasts_S3936x128_S503808)
    Facts₀.slices_S503808_S500000_0

theorem W12_end0 : W12 m ρ c (Proc.devRef .tc main_v136) = endpoint0 (h2K m ρ c) (W0 m ρ c (Proc.devRef .tc main_arg3)) := by
  refine (h6_end0 (W11 m ρ c)).trans ?_
  rw [W11_h2, carry_main_arg3_11_0]

theorem W12_end1 : W12 m ρ c (Proc.devRef .tc main_v145) = endpoint1 (h2K m ρ c) (W0 m ρ c (Proc.devRef .tc main_arg3)) := by
  refine (h6_end1 (W11 m ρ c)).trans ?_
  rw [W11_h2, carry_main_arg3_11_0]

theorem W12_c30 : W12 m ρ c (Proc.devRef .tc main_c_30) = constantI S_ 32 0#32 := h6_c30 (W11 m ρ c)

theorem W13_pad0 : W13 m ρ c (Proc.devRef .tc main_v146) = padRows (endpoint0 (h2K m ρ c) (W0 m ρ c (Proc.devRef .tc main_arg3))) := by
  refine (h61_pad0 (W12 m ρ c)).trans ?_
  rw [W12_end0, W12_c30]
  rfl

theorem W14_c31 : W14 m ρ c (Proc.devRef .tc main_c_31) = constantI S_ 32 0#32 := h62_c31 (W13 m ρ c)

theorem W15_pad1 : W15 m ρ c (Proc.devRef .tc main_v147) = padRows (endpoint1 (h2K m ρ c) (W0 m ρ c (Proc.devRef .tc main_arg3))) := by
  refine (h63_pad1 (W14 m ρ c)).trans ?_
  rw [carry_main_v145_14_12, W12_end1, W14_c31]
  rfl

theorem W16_dot : W16 m ρ c (Proc.devRef .tc main_v148)
    = RegionValue6.G (padRows (endpoint0 (h2K m ρ c) (W0 m ρ c (Proc.devRef .tc main_arg3)))) (padRows (endpoint1 (h2K m ρ c) (W0 m ρ c (Proc.devRef .tc main_arg3)))) := by
  have e0 : V15 m ρ c (Pipeline.arrRef spec6 0) = padRows (endpoint0 (h2K m ρ c) (W0 m ρ c (Proc.devRef .tc main_arg3))) :=
    (carry_main_v146_15_13 m ρ c).trans (W13_pad0 m ρ c)
  have e1 : V15 m ρ c (Pipeline.arrRef spec6 1) = padRows (endpoint1 (h2K m ρ c) (W0 m ρ c (Proc.devRef .tc main_arg3))) := W15_pad1 m ρ c
  refine ((W16_arr m ρ c 2).trans (RegionValue6.arr6_2 (V15 m ρ) c)).trans ?_
  rw [e0, e1]

/-- THE KERNEL PROGRAM'S RESULT, as a function of the launched argument arrays. -/
theorem W17_out : W17 m ρ c (Proc.devRef .tc main_v150) = scoreK (h2K m ρ c) (W0 m ρ c (Proc.devRef .tc main_arg3)) := by
  refine (h7_out (W16 m ρ c)).trans ?_
  rw [W16_dot]
  rfl

end Cert.KernelIdeal.FoldValue

end
-- ==== Proof.Algebra.lean ====
/-
  The laws that join the two programs, over the extended reals, for entries that are real numbers.

  * A finite sum of reals is the real sum; sums, products, differences, maxima and quotients by a nonzero real of
    reals are real (`IsReal`).
  * A contraction against a sum of two matrices is the sum of the two contractions (distributivity, which fails at
    the infinities and holds for reals).
  * Multiplying by the reciprocal `1 / c` of a nonzero real is dividing by `c`.
  * BATCH NORMALISATION: with `μ = (∑ h) / n`, the centred form `((h - μ) · rsqrt (∑ (h - μ)² / n + ε)) · g + b`
    is the affine form `h · s + (b - μ · s)` with `s = g · rsqrt (max (∑ h² / n - μ²) 0 + ε)`: the two variances are
    equal (`∑ (h - μ)² = ∑ h² - n μ²`), nonnegative, so the `max` is the identity and, `ε` being positive, the
    reciprocal square root is a real; the rest is the ring law `(h - μ) r g + b = h (g r) + (b - μ (g r))`.
-/
import Idealize.ShloMosaic.PureOps.Ideal
import Idealize.ShloMosaic.PureOps.Ideal.Laws

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases le_total x y with h | h
  · rw [max_eq_right h]; exact hy
  · rw [max_eq_left h]; exact hx

/-- A finite sum of reals, in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient by a nonzero real is the product with its reciprocal. -/
theorem div_real (x : EReal) {c : ℝ} (hc : c ≠ 0) : Ideal.div x (c : EReal) = x * ((c⁻¹ : ℝ) : EReal) := by
  rw [Ideal.div_coe hc, one_div]

theorem IsReal.div_real {x : EReal} (hx : IsReal x) {c : ℝ} (hc : c ≠ 0) : IsReal (Ideal.div x (c : EReal)) := by
  rw [Cert.Algebra.div_real x hc]; exact hx.mul (isReal_coe _)

/-- Multiplying by `1 / c` is dividing by `c`, for a nonzero real `c` and ANY extended real `x`. -/
theorem mul_one_div (x : EReal) {c : ℝ} (hc : c ≠ 0) :
    x * Ideal.div 1 (c : EReal) = Ideal.div x (c : EReal) := by
  rw [div_real 1 hc, div_real x hc, one_mul]

/-- A contraction against a sum of two real matrices is the sum of the two contractions. -/
theorem sum_mul_add {κ : Type*} [Fintype κ] (x a b : κ → EReal) (hx : ∀ k, IsReal (x k)) (ha : ∀ k, IsReal (a k))
    (hb : ∀ k, IsReal (b k)) :
    (∑ k, x k * (a k + b k)) = (∑ k, x k * a k) + ∑ k, x k * b k := by
  choose xr hxr using hx
  choose ar har using ha
  choose br hbr using hb
  simp only [hxr, har, hbr, ← EReal.coe_add, ← EReal.coe_mul, coe_sum]
  congr 1
  rw [← Finset.sum_add_distrib]
  exact Finset.sum_congr rfl fun k _ => by ring

/-- A contraction of real entries is real. -/
theorem isReal_sum_mul {κ : Type*} [Fintype κ] (x a : κ → EReal) (hx : ∀ k, IsReal (x k)) (ha : ∀ k, IsReal (a k)) :
    IsReal (∑ k, x k * a k) :=
  isReal_sum _ _ fun k _ => (hx k).mul (ha k)

/-- The reciprocal square root of a positive real is a real. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

/-- The two variances: `∑ (h - μ)² / n = ∑ h² / n - μ²` when `μ = (∑ h) / n`, over the reals. -/
theorem variance_real {n : ℕ} (hn : 0 < n) (h : Fin n → ℝ) :
    (∑ r, (h r - (∑ r, h r) / n) * (h r - (∑ r, h r) / n)) / n
      = (∑ r, h r * h r) / n - ((∑ r, h r) / n) * ((∑ r, h r) / n) := by
  have hn' : (n : ℝ) ≠ 0 := Nat.cast_ne_zero.mpr hn.ne'
  set μ : ℝ := (∑ r, h r) / n with hμ
  have hs : (∑ r, h r) = n * μ := by rw [hμ]; field_simp
  have e : (∑ r, (h r - μ) * (h r - μ)) = (∑ r, h r * h r) - 2 * μ * (∑ r, h r) + n * (μ * μ) := by
    have : ∀ r, (h r - μ) * (h r - μ) = h r * h r - 2 * μ * h r + μ * μ := fun r => by ring
    simp only [this, Finset.sum_add_distrib, Finset.sum_sub_distrib, ← Finset.mul_sum, Finset.sum_const,
      Finset.card_univ, Fintype.card_fin, nsmul_eq_mul]
    ring
  rw [e, hs]
  field_simp
  ring

/-- BATCH NORMALISATION, centred form against affine form, on one column of real entries. `N` is the row count as
    an extended real, `ε` a positive real. Sums are written with the initial value `0` the host's reduction adds. -/
theorem batchnorm_eq {n : ℕ} (hn : 0 < n) (h : Fin n → EReal) (hh : ∀ r, IsReal (h r)) {g b : EReal}
    (hg : IsReal g) (hb : IsReal b) {ε : ℝ} (hε : 0 < ε) (i : Fin n) :
    ((h i - Ideal.div (0 + ∑ r, h r) ((n : ℝ) : EReal))
        * Ideal.rsqrt (Ideal.div (0 + ∑ r, (h r - Ideal.div (0 + ∑ r, h r) ((n : ℝ) : EReal))
            * (h r - Ideal.div (0 + ∑ r, h r) ((n : ℝ) : EReal))) ((n : ℝ) : EReal) + (ε : EReal))) * g + b
      = h i * (g * Ideal.rsqrt (max (Ideal.div (∑ r, h r * h r) ((n : ℝ) : EReal)
            - Ideal.div (∑ r, h r) ((n : ℝ) : EReal) * Ideal.div (∑ r, h r) ((n : ℝ) : EReal)) 0 + (ε : EReal)))
        + (b - Ideal.div (∑ r, h r) ((n : ℝ) : EReal)
            * (g * Ideal.rsqrt (max (Ideal.div (∑ r, h r * h r) ((n : ℝ) : EReal)
              - Ideal.div (∑ r, h r) ((n : ℝ) : EReal) * Ideal.div (∑ r, h r) ((n : ℝ) : EReal)) 0 + (ε : EReal)))) := by
  have hn' : (n : ℝ) ≠ 0 := Nat.cast_ne_zero.mpr hn.ne'
  choose hr hhr using hh
  obtain ⟨gr, rfl⟩ := hg
  obtain ⟨br, rfl⟩ := hb
  simp only [hhr, zero_add, coe_sum, div_real _ hn', ← EReal.coe_mul, ← EReal.coe_sub, ← EReal.coe_add]
  -- both variances, as reals
  have hv := variance_real hn hr
  have hvar_nonneg : 0 ≤ (∑ r, (hr r - (∑ r, hr r) * (n : ℝ)⁻¹) * (hr r - (∑ r, hr r) * (n : ℝ)⁻¹)) * (n : ℝ)⁻¹ := by
    apply mul_nonneg
    · exact Finset.sum_nonneg fun r _ => mul_self_nonneg _
    · exact inv_nonneg.mpr (Nat.cast_nonneg n)
  have hv' : (∑ r, hr r * hr r) * (n : ℝ)⁻¹ - (∑ r, hr r) * (n : ℝ)⁻¹ * ((∑ r, hr r) * (n : ℝ)⁻¹)
      = (∑ r, (hr r - (∑ r, hr r) * (n : ℝ)⁻¹) * (hr r - (∑ r, hr r) * (n : ℝ)⁻¹)) * (n : ℝ)⁻¹ := by
    have := hv; simp only [div_eq_mul_inv] at this; exact this.symm
  rw [hv']
  rw [show max (((∑ r, (hr r - (∑ r, hr r) * (n : ℝ)⁻¹) * (hr r - (∑ r, hr r) * (n : ℝ)⁻¹)) * (n : ℝ)⁻¹ : ℝ) : EReal) 0
      = (((∑ r, (hr r - (∑ r, hr r) * (n : ℝ)⁻¹) * (hr r - (∑ r, hr r) * (n : ℝ)⁻¹)) * (n : ℝ)⁻¹ : ℝ) : EReal) from
    max_eq_left (by exact_mod_cast hvar_nonneg)]
  simp only [← EReal.coe_add]
  rw [rsqrt_pos (add_pos_of_nonneg_of_pos hvar_nonneg hε)]
  simp only [← EReal.coe_mul, ← EReal.coe_sub, ← EReal.coe_add]
  congr 1
  ring

end Cert.Algebra

end
-- ==== Proof.Consts.lean ====
/-
  The float words both programs spell, as the extended reals they denote: `1.0` (the floor of a node's in-degree
  and the numerator of its reciprocal), `100000.0` (the number of rows a batch statistic is averaged over), the
  variance's positive offset, and the slope of the leaky rectifier.
-/
import Idealize.ShloMosaic.PureOps.Ideal
import Idealize.ShloMosaic.PureOps.Ideal.Laws

noncomputable section

namespace Cert.Consts

open Idealize.ShloMosaic

/-- The word of `1.0` denotes the real `1`. -/
theorem ofBits_one : Ideal.ofBits .f32 0x3F800000#32 = ((1 : ℝ) : EReal) := by
  simp [Ideal.ofBits, Ideal.ieee, -EReal.coe_mul]; norm_num

/-- The word of `100000.0` denotes the real `100000`: the row count, exactly. -/
theorem ofBits_rows : Ideal.ofBits .f32 0x47C35000#32 = ((100000 : ℝ) : EReal) := by
  simp [Ideal.ofBits, Ideal.ieee, -EReal.coe_mul]; norm_num

/-- The variance's offset (the word nearest `1e-5`) denotes a POSITIVE real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The rectifier's slope (the word nearest `0.01`) denotes a real. -/
theorem ofBits_slope : ∃ s : ℝ, Ideal.ofBits .f32 0x3C23D70A#32 = (s : EReal) := by
  refine ⟨10737418 * (2 : ℝ) ^ (-30 : ℤ), ?_⟩
  simp [Ideal.ofBits, Ideal.ieee, -EReal.coe_mul]

end Cert.Consts

end
-- ==== Proof.ConvLaw.lean ====
import proofs.«151220_j103079215236_2_alg».proof.Proof.Stages
import proofs.«151220_j103079215236_2_alg».proof.Proof.Algebra
import proofs.«151220_j103079215236_2_alg».proof.Proof.Consts
import Idealize.ShloMosaic.Lib.Pipeline.Value
import Idealize.ShloMosaic.Lib.ValueIdx
import Idealize.ShloMosaic.PureOps.Ideal.Laws

/-! # One layer's sum over the two edge types: the two programs agree

The reference forms, per edge type, a self product plus the neighbour sum DIVIDED by the clamped in-degree, and adds the
two; the kernel program forms ONE self product with the two self weights added first, and adds the two neighbour sums
TIMES the reciprocal of the clamped in-degree. On real entries these are the same number:

* the host's product of the features with a weight matrix is the sum over the contracted axis, entry by entry;
* a contraction against a sum of two real matrices is the sum of the two contractions;
* the clamped in-degree is a real number at least one, so multiplying by its reciprocal is dividing by it;
* `(a + b) + (c + d) = ((a + c) + b) + d`.

Every entry of the result is a real number: a neighbour sum of real entries is a zero plus a finite sum of them. -/

noncomputable section

open scoped BigOperators

namespace Cert.ConvLaw

open Cert.KernelIdeal Cert.KernelIdeal.Facts₀ Cert.Stages Cert.Algebra Idealize.ShloMosaic Idealize.ShloMosaic.ValueIdx

/-! ## The host's product is the sum over the contracted axis -/

/-- The host product's dimension numbers: axis 1 of the features against axis 0 of the weights. -/
abbrev DR := Cert.ReferenceIdeal.dot_S100000x128_S128x128_S100000x128_1_0_0_1_n_n

/-- The features are read in the result's row. -/
theorem lhs_row (r : Fin 100000) (c : Fin 128) (q : DR.contr.Idx) : (DR.lhsIdx (ix2 r c) q 0).val = r.val := by
  unfold DotDims.lhsIdx
  rw [dif_neg (show ¬(0 : Fin S100000x128.rank) ∈ DR.lhsBatch by decide), dif_pos (show (0 : Fin S100000x128.rank) ∈ DR.lhsNonContracting by decide)]
  rfl

/-- The weights are read in the result's column. -/
theorem rhs_col (r : Fin 100000) (c : Fin 128) (q : DR.contr.Idx) : (DR.rhsIdx (ix2 r c) q 1).val = c.val := by
  unfold DotDims.rhsIdx
  rw [dif_neg (show ¬(1 : Fin S128x128.rank) ∈ DR.rhsBatch by decide), dif_pos (show (1 : Fin S128x128.rank) ∈ DR.rhsNonContracting by decide)]
  rfl

/-- Rows times a matrix at an entry. -/
theorem rowsTimes_apply (X : FVec Ideal S100000x128 .f32) (W : FVec Ideal S128x128 .f32) (r : Fin 100000) (c : Fin 128) :
    rowsTimes X W (ix2 r c) = ∑ k : Fin 128, X (ix2 r k) * W (ix2 k c) := rfl

/-- The host's product at an entry is row `r` of the features against column `c` of the weights. -/
theorem dotR_apply (X : FVec Ideal S100000x128 .f32) (W : FVec Ideal S128x128 .f32) (r : Fin 100000) (c : Fin 128) :
    dotR X W (ix2 r c) = ∑ k : Fin 128, X (ix2 r k) * W (ix2 k c) := by
  unfold dotR
  simp only [Host.dotGeneral]
  rw [Ideal.dotGeneral_apply, ← Equiv.sum_comp (contrEquiv1 DR 128 rfl rfl).symm]
  refine Finset.sum_congr rfl fun k _ => ?_
  have hk := contrEquiv1_symm_val DR 128 rfl rfl k
  have el : DR.lhsIdx (ix2 r c) ((contrEquiv1 DR 128 rfl rfl).symm k) = ix2 r k := funext fun a => Fin.ext (by
    match a with
    | ⟨0, _⟩ => exact lhs_row r c _
    | ⟨1, _⟩ => exact (DR.lhsIdx_val_of_single rfl (ix2 r c) _).trans hk)
  have er : DR.rhsIdx (ix2 r c) ((contrEquiv1 DR 128 rfl rfl).symm k) = ix2 k c := funext fun a => Fin.ext (by
    match a with
    | ⟨0, _⟩ => exact (DR.rhsIdx_val_of_single rfl (ix2 r c) _).trans hk
    | ⟨1, _⟩ => exact rhs_col r c _)
  rw [el, er]

/-- As functions: the host's product IS rows times the matrix. -/
theorem dotR_eq (X : FVec Ideal S100000x128 .f32) (W : FVec Ideal S128x128 .f32) : dotR X W = rowsTimes X W := by
  funext i
  obtain ⟨r, c, rfl⟩ : ∃ (r : Fin 100000) (c : Fin 128), i = ix2 r c := ⟨i 0, i 1, eq_ix2 i⟩
  rw [dotR_apply, rowsTimes_apply]

/-! ## Products of real entries -/

/-- A product of real features with real weights has real entries. -/
theorem rowsTimes_real (X : FVec Ideal S100000x128 .f32) (W : FVec Ideal S128x128 .f32)
    (hX : ∀ i, IsReal (X i)) (hW : ∀ i, IsReal (W i)) (r : Fin 100000) (c : Fin 128) : IsReal (rowsTimes X W (ix2 r c)) := by
  rw [rowsTimes_apply]
  exact isReal_sum_mul _ _ (fun k => hX _) (fun k => hW _)

/-- The product with a sum of two real weight matrices is the sum of the two products. -/
theorem rowsTimes_add (X : FVec Ideal S100000x128 .f32) (W1 W2 : FVec Ideal S128x128 .f32)
    (hX : ∀ i, IsReal (X i)) (h1 : ∀ i, IsReal (W1 i)) (h2 : ∀ i, IsReal (W2 i)) (r : Fin 100000) (c : Fin 128) :
    rowsTimes X (addf W1 W2) (ix2 r c) = rowsTimes X W1 (ix2 r c) + rowsTimes X W2 (ix2 r c) := by
  rw [rowsTimes_apply, rowsTimes_apply, rowsTimes_apply]
  simp only [addf_apply]
  exact sum_mul_add (fun k => X (ix2 r k)) (fun k => W1 (ix2 k c)) (fun k => W2 (ix2 k c))
    (fun k => hX _) (fun k => h1 _) (fun k => h2 _)

/-! ## The host operations read at an index, over arbitrary arrays -/

/-- The host's quotient at an index. -/
theorem hostDivf_apply {s : Shape} (x y : FVec Ideal s .f32) (i : s.Idx) : Host.divf x y i = Ideal.div (x i) (y i) := rfl

/-- A scalar broadcast to any shape, at an index: the scalar. -/
theorem bcastScalar_apply {t : Shape} (dims : Fin S_.rank → Fin t.rank) (h : S_.BroadcastsInDim t dims)
    (x : FVec Ideal S_ .f32) (j : t.Idx) : broadcastInDim t dims h x j = x ix0 :=
  broadcastInDim_apply dims h x j ix0 (fun a => a.elim0)

/-- The broadcast zero word is the real zero. -/
theorem zeros_real {t : Shape} (dims : Fin S_.rank → Fin t.rank) (h : S_.BroadcastsInDim t dims) (j : t.Idx) :
    IsReal (broadcastInDim t dims h (constant (F := Ideal) S_ .f32 0x00000000#32) j) := by
  rw [bcastScalar_apply, constant_apply, Ideal.ofBits_zero_f32]; exact isReal_zero

/-- The broadcast word of `1.0` is the real one. -/
theorem ones_eq {t : Shape} (dims : Fin S_.rank → Fin t.rank) (h : S_.BroadcastsInDim t dims) (j : t.Idx) :
    broadcastInDim t dims h (constant (F := Ideal) S_ .f32 0x3F800000#32) j = ((1 : ℝ) : EReal) := by
  rw [bcastScalar_apply, constant_apply, Consts.ofBits_one]

/-- A scatter-add of real updates onto real entries has real entries: each is an entry plus a finite sum of updates. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (isReal_sum _ _ fun j _ => hu j)

/-- A gather of real entries has real entries: each is an entry of the operand. -/
theorem gather_real {s si t : Shape} {w : Nat} (d : GatherDims s si t) (x : FVec Ideal s .f32) (idx : IVec si w)
    (hx : ∀ i, IsReal (x i)) (j : t.Idx) : IsReal (Host.gather d x idx j) := by
  unfold Host.gather
  exact hx _

/-- The maximum of a real with one is a real at least one. -/
theorem max_one_real (s : EReal) (hs : IsReal s) : ∃ c : ℝ, 1 ≤ c ∧ max s ((1 : ℝ) : EReal) = (c : EReal) := by
  obtain ⟨a, rfl⟩ := hs
  exact ⟨max a 1, le_max_right _ _, (EReal.coe_strictMono.monotone.map_max).symm⟩

/-! ## A per-node value along the features, and the clamped in-degree -/

/-- A per-node value repeated along the features, read at an entry: the node's value. -/
theorem perNode_apply (v : FVec Ideal S100000 .f32) (r : Fin 100000) (c : Fin 128) : perNode v (ix2 r c) = v (ix1 r) := by
  unfold perNode
  refine (broadcastInDim_apply _ _ _ (ix2 r c) (ix2 r (0 : Fin 1)) fun a => ?_).trans
    (broadcastInDim_apply _ _ _ (ix2 r (0 : Fin 1)) (ix1 r) fun a => ?_)
  · match a with
    | ⟨0, _⟩ => exact (if_neg (by show ¬((100000 : ℕ) = 1); decide)).symm
    | ⟨1, _⟩ => exact (if_pos (by show (1 : ℕ) = 1; rfl)).symm
  · match a with
    | ⟨0, _⟩ => exact (if_neg (by show ¬((100000 : ℕ) = 1); decide)).symm

/-- The clamped in-degree of a node is a real number at least one: the maximum of one with a zero plus a finite sum of ones. -/
theorem degree_real (e : IVec S2x500000 32) (n : S100000.Idx) : ∃ c : ℝ, 1 ≤ c ∧ degree e n = (c : EReal) := by
  unfold degree
  rw [maximumf_apply, ones_eq]
  exact max_one_real _ (scatterAdd_real _ _ _ _ (fun i => zeros_real _ _ i) (fun j => by rw [ones_eq]; exact isReal_coe 1) n)

/-- The kernel program's reciprocal of the clamped in-degree at a node. -/
theorem invDegree_apply (e : IVec S2x500000 32) (n : S100000.Idx) : invDegree e n = Ideal.div 1 (degree e n) := by
  unfold invDegree
  rw [hostDivf_apply, ones_eq, EReal.coe_one]

/-! ## Dividing by the clamped in-degree is multiplying by its reciprocal -/

/-- The two neighbour means agree, whatever is aggregated. -/
theorem nbrMean_eq (P : FVec Ideal S100000x128 .f32) (e : IVec S2x500000 32) :
    nbrMeanR P e = nbrMeanK P e (invDegree e) := by
  funext i
  obtain ⟨r, c, rfl⟩ : ∃ (r : Fin 100000) (c : Fin 128), i = ix2 r c := ⟨i 0, i 1, eq_ix2 i⟩
  obtain ⟨d, hd1, hd⟩ := degree_real e (ix1 r)
  have hd0 : d ≠ 0 := (lt_of_lt_of_le one_pos hd1).ne'
  unfold nbrMeanR nbrMeanK
  rw [hostDivf_apply, mulf_apply, perNode_apply, perNode_apply, invDegree_apply, hd]
  exact (mul_one_div _ hd0).symm

/-! ## Every entry is a real number -/

/-- A neighbour sum of real entries is real: a zero plus a finite sum of gathered entries. -/
theorem nbrSum_real (P : FVec Ideal S100000x128 .f32) (e : IVec S2x500000 32) (hP : ∀ i, IsReal (P i))
    (i : S100000x128.Idx) : IsReal (nbrSum P e i) := by
  unfold nbrSum
  exact scatterAdd_real _ _ _ _ (fun i => zeros_real _ _ i) (fun j => gather_real _ _ _ hP j) i

/-- The kernel program's neighbour mean of real entries is real: a real sum times the reciprocal of a real at least one. -/
theorem nbrMeanK_real (P : FVec Ideal S100000x128 .f32) (e : IVec S2x500000 32) (hP : ∀ i, IsReal (P i))
    (r : Fin 100000) (c : Fin 128) : IsReal (nbrMeanK P e (invDegree e) (ix2 r c)) := by
  obtain ⟨d, hd1, hd⟩ := degree_real e (ix1 r)
  have hd0 : d ≠ 0 := (lt_of_lt_of_le one_pos hd1).ne'
  unfold nbrMeanK
  rw [mulf_apply, perNode_apply, invDegree_apply, hd]
  exact (nbrSum_real P e hP _).mul (isReal_one.div_real hd0)

/-! ## The layer -/

section Layer

variable (X : FVec Ideal S100000x128 .f32) (e1 e2 : IVec S2x500000 32) (Wn1 Ws1 Wn2 Ws2 : FVec Ideal S128x128 .f32)

/-- THE LAYER LAW: on real features and weights the reference's sum over the two edge types is the kernel program's. -/
theorem conv_eq (hX : ∀ i, IsReal (X i)) (h1 : ∀ i, IsReal (Wn1 i)) (h2 : ∀ i, IsReal (Ws1 i))
    (h3 : ∀ i, IsReal (Wn2 i)) (h4 : ∀ i, IsReal (Ws2 i)) :
    convR X e1 e2 Wn1 Ws1 Wn2 Ws2 = convK X e1 e2 Wn1 Ws1 Wn2 Ws2 (invDegree e1) (invDegree e2) := by
  funext i
  obtain ⟨r, c, rfl⟩ : ∃ (r : Fin 100000) (c : Fin 128), i = ix2 r c := ⟨i 0, i 1, eq_ix2 i⟩
  unfold convR convK
  rw [dotR_eq, dotR_eq, dotR_eq, dotR_eq, nbrMean_eq, nbrMean_eq, rowsTimes_add X Ws1 Ws2 hX h2 h4 r c]
  simp only [addf_apply]
  exact (add_add_add_comm _ _ _ _).trans (add_assoc _ _ _).symm

/-- The layer's sum has real entries. -/
theorem conv_real (hX : ∀ i, IsReal (X i)) (h1 : ∀ i, IsReal (Wn1 i)) (h2 : ∀ i, IsReal (Ws1 i))
    (h3 : ∀ i, IsReal (Wn2 i)) (h4 : ∀ i, IsReal (Ws2 i)) :
    ∀ i, IsReal (convK X e1 e2 Wn1 Ws1 Wn2 Ws2 (invDegree e1) (invDegree e2) i) := fun i => by
  obtain ⟨r, c, rfl⟩ : ∃ (r : Fin 100000) (c : Fin 128), i = ix2 r c := ⟨i 0, i 1, eq_ix2 i⟩
  unfold convK
  exact ((rowsTimes_real X (addf Ws1 Ws2) hX (fun j => (h2 j).add (h4 j)) r c).add
    (nbrMeanK_real _ e1 (fun j => by obtain ⟨r', c', rfl⟩ : ∃ (r' : Fin 100000) (c' : Fin 128), j = ix2 r' c' := ⟨j 0, j 1, eq_ix2 j⟩; exact rowsTimes_real X Wn1 hX h1 r' c') r c)).add
    (nbrMeanK_real _ e2 (fun j => by obtain ⟨r', c', rfl⟩ : ∃ (r' : Fin 100000) (c' : Fin 128), j = ix2 r' c' := ⟨j 0, j 1, eq_ix2 j⟩; exact rowsTimes_real X Wn2 hX h3 r' c') r c)

end Layer

end Cert.ConvLaw

end
-- ==== Proof.NormLaw.lean ====
/-
  The batch-normalisation law between the two programs, entry by entry, over the extended reals.

  The reference normalises a [100000, 128] array in CENTRED form: with `μ` the column mean, `(H - μ) · rsqrt (mean ((H - μ)²) + ε) · g + b`.
  The kernel program accumulates each column's sum and sum of squares and applies the AFFINE form `H · s + (b - μ · s)` with
  `s = g · rsqrt (max (mean of squares - μ²) 0 + ε)`. Read at an entry `(r, l)` both are expressions in the 100000 entries of
  column `l`, and for real entries they are equal: the two variances agree and are nonnegative, so the `max` is the identity, and `ε`
  being positive the reciprocal square root is a real; the rest is a ring identity. The leaky rectifier of the two programs is the same
  select, entry by entry.
-/
import proofs.«151220_j103079215236_2_alg».proof.Proof.Stages
import proofs.«151220_j103079215236_2_alg».proof.Proof.Algebra
import proofs.«151220_j103079215236_2_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.NormLaw

open Cert.KernelIdeal Cert.KernelIdeal.Facts₀ Idealize.ShloMosaic Idealize.ShloMosaic.ValueIdx Cert.Stages Cert.Algebra

/-! ## The stages read at an entry -/

/-- A per-feature row repeated over the nodes reads, at `(r, l)`, the feature's entry `l`. -/
theorem perFeatureR_apply (v : FVec Ideal S128 .f32) (r : Fin 100000) (l : Fin 128) :
    perFeatureR v (ix2 r l) = v (ix1 l) := by
  unfold perFeatureR
  refine (broadcastInDim_apply _ _ _ (ix2 r l) (ix2 (0 : Fin 1) l) (fun a => by
    match a with
    | ⟨0, _⟩ => rfl
    | ⟨1, _⟩ => rfl)).trans ?_
  exact broadcastInDim_apply _ _ v (ix2 (0 : Fin 1) l) (ix1 l) (fun a => by
    match a with
    | ⟨0, _⟩ => rfl)

/-- The reference's column mean at column `l`: the host's sum (from its initial zero) over the 100000 rows, divided by the row count. -/
theorem meanR_apply (H : FVec Ideal S100000x128 .f32) (l : Fin 128) :
    meanR H (ix1 l) = Ideal.div (0 + ∑ r : Fin 100000, H (ix2 r l)) ((100000 : ℝ) : EReal) := by
  unfold meanR
  show Ideal.div (Ideal.hostReduceAdd Cert.ReferenceIdeal.Facts₀.reducesTo_S100000x128_S128_d0 H (Ideal.ofBits .f32 0x00000000#32) (ix1 l))
      (Ideal.ofBits .f32 0x47C35000#32) = _
  rw [Ideal.hostReduceAdd_single Cert.ReferenceIdeal.Facts₀.reducesTo_S100000x128_S128_d0 (by decide : S100000x128.Reduces [0] S128) H _ (ix1 l),
    Ideal.ofBits_zero_f32, Cert.Consts.ofBits_rows]
  refine congrArg (fun s => Ideal.div (0 + s) ((100000 : ℝ) : EReal)) ?_
  exact Finset.sum_congr rfl fun k _ => congrArg H (funext fun a => Fin.ext (by
    match a with
    | ⟨0, _⟩ => rfl
    | ⟨1, _⟩ => rfl))

/-- The reference's batch normalisation at `(r, l)`, in the entries of column `l`. -/
theorem bnR_apply (H : FVec Ideal S100000x128 .f32) (g b : FVec Ideal S128 .f32) (r : Fin 100000) (l : Fin 128) :
    bnR H g b (ix2 r l)
      = ((H (ix2 r l) - Ideal.div (0 + ∑ r' : Fin 100000, H (ix2 r' l)) ((100000 : ℝ) : EReal))
          * Ideal.rsqrt (Ideal.div (0 + ∑ r' : Fin 100000,
                (H (ix2 r' l) - Ideal.div (0 + ∑ r' : Fin 100000, H (ix2 r' l)) ((100000 : ℝ) : EReal))
                * (H (ix2 r' l) - Ideal.div (0 + ∑ r' : Fin 100000, H (ix2 r' l)) ((100000 : ℝ) : EReal))) ((100000 : ℝ) : EReal)
              + Ideal.ofBits .f32 0x3727C5AC#32)) * g (ix1 l) + b (ix1 l) := by
  unfold bnR
  show ((H (ix2 r l) - perFeatureR (meanR H) (ix2 r l))
      * perFeatureR (Host.rsqrt (addf (meanR (mulf (subf H (perFeatureR (meanR H))) (subf H (perFeatureR (meanR H)))))
          (broadcastInDim S128 ![] Cert.ReferenceIdeal.Facts₀.bcast_S_S128 (constant S_ .f32 0x3727C5AC#32)))) (ix2 r l))
      * perFeatureR g (ix2 r l) + perFeatureR b (ix2 r l) = _
  rw [perFeatureR_apply, perFeatureR_apply, perFeatureR_apply, perFeatureR_apply]
  show ((H (ix2 r l) - meanR H (ix1 l))
      * Ideal.rsqrt (meanR (mulf (subf H (perFeatureR (meanR H))) (subf H (perFeatureR (meanR H)))) (ix1 l)
          + Ideal.ofBits .f32 0x3727C5AC#32)) * g (ix1 l) + b (ix1 l) = _
  rw [meanR_apply (mulf (subf H (perFeatureR (meanR H))) (subf H (perFeatureR (meanR H)))) l]
  have e : ∀ r' : Fin 100000, mulf (subf H (perFeatureR (meanR H))) (subf H (perFeatureR (meanR H))) (ix2 r' l)
      = (H (ix2 r' l) - meanR H (ix1 l)) * (H (ix2 r' l) - meanR H (ix1 l)) := fun r' => by
    show (H (ix2 r' l) - perFeatureR (meanR H) (ix2 r' l)) * (H (ix2 r' l) - perFeatureR (meanR H) (ix2 r' l)) = _
    rw [perFeatureR_apply]
  rw [Finset.sum_congr rfl fun r' _ => e r', meanR_apply H l]

/-- The column sums at the one row of a [1, 128] array. -/
theorem colSum_apply (G : S100000x128.Idx → EReal) (l : Fin 128) : colSum G (ix2 (0 : Fin 1) l) = ∑ r : Fin 100000, G (ix2 r l) := rfl

/-- The kernel program's column mean from a row of sums. -/
theorem meanK_apply (s : FVec Ideal S1x128 .f32) (l : Fin 128) :
    meanK s (ix2 (0 : Fin 1) l) = Ideal.div (s (ix2 (0 : Fin 1) l)) ((100000 : ℝ) : EReal) := by
  unfold meanK
  show Ideal.div (s (ix2 (0 : Fin 1) l)) (Ideal.ofBits .f32 0x47C35000#32) = _
  rw [Cert.Consts.ofBits_rows]

/-- The kernel program's scale at column `l`. -/
theorem scaleK_apply (s q : FVec Ideal S1x128 .f32) (g : FVec Ideal S128 .f32) (l : Fin 128) :
    scaleK s q g (ix2 (0 : Fin 1) l)
      = g (ix1 l) * Ideal.rsqrt (max (Ideal.div (q (ix2 (0 : Fin 1) l)) ((100000 : ℝ) : EReal)
            - Ideal.div (s (ix2 (0 : Fin 1) l)) ((100000 : ℝ) : EReal) * Ideal.div (s (ix2 (0 : Fin 1) l)) ((100000 : ℝ) : EReal)) 0
          + Ideal.ofBits .f32 0x3727C5AC#32) := by
  unfold scaleK
  show shapeCast S1x128 g shapeCasts_S128_S1x128 (ix2 (0 : Fin 1) l)
      * Ideal.rsqrt (max (meanK q (ix2 (0 : Fin 1) l) - meanK s (ix2 (0 : Fin 1) l) * meanK s (ix2 (0 : Fin 1) l))
          (Ideal.ofBits .f32 0x00000000#32) + Ideal.ofBits .f32 0x3727C5AC#32) = _
  rw [shapeCast_a_1a_apply g shapeCasts_S128_S1x128 0 l, meanK_apply, meanK_apply, Ideal.ofBits_zero_f32]

/-- The kernel program's shift at column `l`. -/
theorem shiftK_apply (s q : FVec Ideal S1x128 .f32) (g b : FVec Ideal S128 .f32) (l : Fin 128) :
    shiftK s q g b (ix2 (0 : Fin 1) l)
      = b (ix1 l) - Ideal.div (s (ix2 (0 : Fin 1) l)) ((100000 : ℝ) : EReal) * scaleK s q g (ix2 (0 : Fin 1) l) := by
  unfold shiftK
  show shapeCast S1x128 b shapeCasts_S128_S1x128 (ix2 (0 : Fin 1) l) - meanK s (ix2 (0 : Fin 1) l) * scaleK s q g (ix2 (0 : Fin 1) l) = _
  rw [shapeCast_a_1a_apply b shapeCasts_S128_S1x128 0 l, meanK_apply]

/-! ## The law -/

/-- BATCH NORMALISATION: the reference's centred form is the kernel program's affine form over the accumulated column sums. -/
theorem norm_eq (H : FVec Ideal S100000x128 .f32) (g b : FVec Ideal S128 .f32)
    (hH : ∀ i, IsReal (H i)) (hg : ∀ i, IsReal (g i)) (hb : ∀ i, IsReal (b i)) :
    bnR H g b = affineK H (scaleK (colSum H) (colSum (fun i => H i * H i)) g) (shiftK (colSum H) (colSum (fun i => H i * H i)) g b) := by
  funext i
  obtain ⟨r, l, rfl⟩ : ∃ (r : Fin 100000) (l : Fin 128), i = ix2 r l := ⟨i 0, i 1, eq_ix2 i⟩
  obtain ⟨ε, hε, he⟩ := Cert.Consts.ofBits_eps
  have key := batchnorm_eq (n := 100000) (by norm_num) (fun r' => H (ix2 r' l)) (fun r' => hH _) (hg (ix1 l)) (hb (ix1 l)) hε r
  have hn : ((100000 : ℕ) : ℝ) = (100000 : ℝ) := by norm_num
  rw [hn] at key
  rw [bnR_apply, he]
  show _ = H (ix2 r l) * scaleK (colSum H) (colSum (fun i => H i * H i)) g (ix2 (0 : Fin 1) l)
      + shiftK (colSum H) (colSum (fun i => H i * H i)) g b (ix2 (0 : Fin 1) l)
  rw [shiftK_apply, scaleK_apply, he, colSum_apply, colSum_apply]
  exact key

/-- The reciprocal square root of a mean of squares of reals plus a positive real is a real. -/
theorem isReal_rsqrt_var {n : ℕ} (d : Fin n → EReal) (hd : ∀ r, IsReal (d r)) {c ε : ℝ} (hc : 0 < c) (hε : 0 < ε) :
    IsReal (Ideal.rsqrt (Ideal.div (0 + ∑ r, d r * d r) (c : EReal) + (ε : EReal))) := by
  choose dr hdr using hd
  simp only [hdr, zero_add, ← EReal.coe_mul, coe_sum, div_real _ hc.ne', ← EReal.coe_add]
  rw [rsqrt_pos (add_pos_of_nonneg_of_pos (mul_nonneg (Finset.sum_nonneg fun r _ => mul_self_nonneg _) (inv_nonneg.mpr hc.le)) hε)]
  exact isReal_coe _

/-- The normalised array has real entries. -/
theorem norm_real (H : FVec Ideal S100000x128 .f32) (g b : FVec Ideal S128 .f32)
    (hH : ∀ i, IsReal (H i)) (hg : ∀ i, IsReal (g i)) (hb : ∀ i, IsReal (b i)) : ∀ i, IsReal (bnR H g b i) := by
  intro i
  obtain ⟨r, l, rfl⟩ : ∃ (r : Fin 100000) (l : Fin 128), i = ix2 r l := ⟨i 0, i 1, eq_ix2 i⟩
  obtain ⟨ε, hε, he⟩ := Cert.Consts.ofBits_eps
  have hM : IsReal (Ideal.div (0 + ∑ r' : Fin 100000, H (ix2 r' l)) ((100000 : ℝ) : EReal)) :=
    (isReal_zero.add (isReal_sum _ _ fun r' _ => hH _)).div_real (by norm_num)
  rw [bnR_apply, he]
  exact ((((hH _).sub hM).mul (isReal_rsqrt_var _ (fun r' => (hH _).sub hM) (by norm_num) hε)).mul (hg _)).add (hb _)

/-! ## The leaky rectifier -/

/-- The reference's leaky rectifier is the kernel's select, entry by entry. -/
theorem leaky_eq (Y : FVec Ideal S100000x128 .f32) : leakyR Y = fun i => leakyK (Y i) := rfl

/-- It keeps real entries real. -/
theorem leaky_real (Y : FVec Ideal S100000x128 .f32) (hY : ∀ i, IsReal (Y i)) : ∀ i, IsReal (leakyR Y i) := by
  intro i
  rw [leaky_eq]
  show IsReal (leakyK (Y i))
  unfold leakyK
  obtain ⟨s, hs⟩ := Cert.Consts.ofBits_slope
  by_cases hc : Ideal.cmp .ogt (Y i) (Ideal.ofBits .f32 0x00000000#32) = 1#1
  · rw [hc, select_one]; exact hY i
  · rw [eq_zero_of_ne_one hc, select_zero, hs]; exact (isReal_coe s).mul (hY i)

end Cert.NormLaw

end
-- ==== Proof.ScoreLaw.lean ====
/-
  The score law: the reference sums, for each of the 500000 label edges, the 128 lane products of the edge's two endpoint rows
  (a host reduction from the initial zero). The kernel program pads the two [500000, 128] endpoint arrays with zero rows to
  [503808, 128], takes the row-wise dot products as a [3936, 128] array whose entry (q, l) is the dot product of row
  `q * 128 + l`, lays that array out flat and keeps the first 500000 entries. Entry `e` of the flat array is entry
  `(e / 128, e % 128)`, that is the dot product of row `e`, which lies inside the unpadded rows: both sides are the same sum
  of 128 products, and `0 + x = x` over the extended reals with no finiteness needed.
-/
import proofs.«151220_j103079215236_2_alg».proof.Proof.Stages
import proofs.«151220_j103079215236_2_alg».proof.Proof.KernelHost
import proofs.«151220_j103079215236_2_alg».proof.Proof.DotRegion6
import Idealize.ShloMosaic.Lib.Pipeline.Value
import Idealize.ShloMosaic.Lib.ValueIdx
import Idealize.ShloMosaic.PureOps.Ideal.Laws

noncomputable section

open scoped BigOperators

namespace Cert.ScoreLaw

open Cert.KernelIdeal Idealize.ShloMosaic Idealize.ShloMosaic.ValueIdx Cert.Stages
open Cert.KernelIdeal.HostValue (padRows)

/-- Inside the operand's 500000 rows the padded array is the operand. -/
theorem padRows_apply (Z : FVec Ideal S500000x128 .f32) (r : Fin 503808) (k : Fin 128) (hr : r.val < 500000) :
    padRows Z (ix2 r k) = Z (ix2 (⟨r.val, hr⟩ : Fin 500000) k) := by
  have hk : k.val < 128 := k.isLt
  unfold padRows pad
  split
  · refine congrArg Z (funext fun a => Fin.ext ?_)
    match a with
    | ⟨0, _⟩ => show (r.val - 0) / (0 + 1) = r.val; omega
    | ⟨1, _⟩ => show (k.val - 0) / (0 + 1) = k.val; omega
  · rename_i hno
    exfalso
    apply hno
    intro a
    match a with
    | ⟨0, _⟩ => show 0 ≤ r.val ∧ (r.val - 0) % (0 + 1) = 0 ∧ (r.val - 0) / (0 + 1) < 500000; omega
    | ⟨1, _⟩ => show 0 ≤ k.val ∧ (k.val - 0) % (0 + 1) = 0 ∧ (k.val - 0) / (0 + 1) < 128; omega

/-- The reference's score of edge `e`: the sum over the 128 lanes of the products of the two endpoint rows. -/
theorem scoreR_apply (E0 E1 : FVec Ideal S500000x128 .f32) (e : Fin 500000) :
    Host.reduceAdd (mulf E0 E1) (constant S_ .f32 0x00000000#32) Cert.ReferenceIdeal.Facts₀.reducesTo_S500000x128_S500000_d1
        Cert.ReferenceIdeal.Facts₀.h_S_ (ix1 e)
      = ∑ k : Fin 128, E0 (ix2 e k) * E1 (ix2 e k) := by
  have hred : S500000x128.Reduces [1] S500000 := by decide
  show Ideal.hostReduceAdd Cert.ReferenceIdeal.Facts₀.reducesTo_S500000x128_S500000_d1 (mulf E0 E1) (Ideal.ofBits .f32 0x00000000#32) (ix1 e) = _
  rw [Ideal.hostReduceAdd_single Cert.ReferenceIdeal.Facts₀.reducesTo_S500000x128_S500000_d1 hred (mulf E0 E1) _ (ix1 e),
    Ideal.ofBits_zero_f32, zero_add]
  refine Finset.sum_congr rfl fun k _ => ?_
  have hl : hred.lift (ix1 e) k = ix2 e k := funext fun a => Fin.ext (by
    match a with
    | ⟨0, _⟩ => rfl
    | ⟨1, _⟩ => rfl)
  rw [hl]
  rfl

/-- The kernel program's score of edge `e`: entry `e` of the flat layout of the row-wise dot products of the padded arrays. -/
theorem scoreK_apply (E0 E1 : FVec Ideal S500000x128 .f32) (e : Fin 500000) :
    extractStridedSlice S500000 ![0]
        (shapeCast _ (Cert.KernelIdeal.RegionValue6.G (padRows E0) (padRows E1)) Cert.KernelIdeal.Facts₀.shapeCasts_S3936x128_S503808)
        Cert.KernelIdeal.Facts₀.slices_S503808_S500000_0 (ix1 e)
      = ∑ k : Fin 128, E0 (ix2 e k) * E1 (ix2 e k) := by
  have he : e.val < 500000 := e.isLt
  have h1 : e.val < 503808 := by omega
  have h2 : e.val / 128 < 3936 := by omega
  have h3 : e.val % 128 < 128 := Nat.mod_lt _ (by norm_num)
  refine (extractStridedSlice_apply _ _ _ (ix1 e) (ix1 (⟨e.val, h1⟩ : Fin 503808)) (fun a => by
    match a with
    | ⟨0, _⟩ => show e.val = 0 + e.val; omega)).trans ?_
  refine (shapeCast_apply _ _ (ix1 (⟨e.val, h1⟩ : Fin 503808)) (ix2 (⟨e.val / 128, h2⟩ : Fin 3936) (⟨e.val % 128, h3⟩ : Fin 128)) (by
    rw [Shape.rowMajor_val_two, Shape.rowMajor_val_one]
    show e.val / 128 * 128 + e.val % 128 = e.val
    omega)).trans ?_
  have hrow : e.val / 128 * 128 + e.val % 128 < 503808 := by omega
  show ∑ k : Fin 128, padRows E0 (ix2 (⟨e.val / 128 * 128 + e.val % 128, hrow⟩ : Fin 503808) k)
      * padRows E1 (ix2 (⟨e.val / 128 * 128 + e.val % 128, hrow⟩ : Fin 503808) k) = _
  refine Finset.sum_congr rfl fun k _ => ?_
  have hr : (⟨e.val / 128 * 128 + e.val % 128, hrow⟩ : Fin 503808).val < 500000 := by show e.val / 128 * 128 + e.val % 128 < 500000; omega
  have hi : (⟨(⟨e.val / 128 * 128 + e.val % 128, hrow⟩ : Fin 503808).val, hr⟩ : Fin 500000) = e := Fin.ext (by
    show e.val / 128 * 128 + e.val % 128 = e.val; omega)
  rw [padRows_apply E0 _ k hr, padRows_apply E1 _ k hr, hi]

/-- THE SCORE LAW: the reference's lane sums are the kernel program's flat, cut layout of the padded row-wise dot products. -/
theorem score_core (E0 E1 : FVec Ideal S500000x128 .f32) :
    Host.reduceAdd (mulf E0 E1) (constant S_ .f32 0x00000000#32) Cert.ReferenceIdeal.Facts₀.reducesTo_S500000x128_S500000_d1
        Cert.ReferenceIdeal.Facts₀.h_S_
      = extractStridedSlice S500000 ![0]
          (shapeCast _ (Cert.KernelIdeal.RegionValue6.G (padRows E0) (padRows E1)) Cert.KernelIdeal.Facts₀.shapeCasts_S3936x128_S503808)
          Cert.KernelIdeal.Facts₀.slices_S503808_S500000_0 := by
  funext j
  obtain ⟨e, rfl⟩ : ∃ e : Fin 500000, j = ix1 e := ⟨j 0, eq_ix1 j⟩
  exact (scoreR_apply E0 E1 e).trans (scoreK_apply E0 E1 e).symm

end Cert.ScoreLaw

end
-- ==== Proof.Finite.lean ====
/-
  The precondition read back: the claim's precondition is the conjunction, over the thirteen float argument arrays, of
  "every entry's absolute value is below +∞" (a comparison against the word of +∞, reduced by `and` over the whole array).
  Over the extended reals an entry whose absolute value is below the top is neither infinity: it is a real number. So under
  the precondition every entry of every float argument is a real.
-/
import proofs.«151220_j103079215236_2_alg».proof.Defs
import proofs.«151220_j103079215236_2_alg».proof.Proof.Gen.Pre_finite_inputs
import proofs.«151220_j103079215236_2_alg».proof.Proof.Gen.KernelIdeal
import proofs.«151220_j103079215236_2_alg».proof.Proof.Algebra
import Idealize.ShloMosaic.Lib.ReduceAll
import Idealize.ShloMosaic.Lib.ValueIdx

noncomputable section

namespace Cert.Finite

open Idealize.ShloMosaic Idealize.ShloMosaic.ValueIdx Cert.Algebra Cert.Pre_finite_inputs

/-- A rank-zero array has one index. -/
instance : Subsingleton S_.Idx := ⟨fun a b => funext fun d => d.elim0⟩

theorem ofBool_eq_one (b : Bool) : BitVec.ofBool b = 1#1 ↔ b = true := by cases b <;> decide

/-- The word of `+inf` denotes the top of the extended reals. -/
theorem ofBits_inf : Ideal.ofBits .f32 0x7F800000#32 = ⊤ := by simp [Ideal.ofBits, Ideal.ieee]

/-- An extended real whose absolute value tests below `+∞` is a real: the two infinities have absolute value `⊤`. -/
theorem isReal_of_abs_lt (x : EReal) (h : Ideal.cmp .olt (max x (-x)) (Ideal.ofBits .f32 0x7F800000#32) = 1#1) : IsReal x := by
  rw [ofBits_inf] at h
  have hlt : max x (-x) < ⊤ := by
    unfold Ideal.cmp at h
    exact of_decide_eq_true ((ofBool_eq_one _).mp h)
  induction x using EReal.rec with
  | bot => simp at hlt
  | coe r => exact ⟨r, rfl⟩
  | top => simp at hlt

/-- THE ALL-TEST READ BACK, at any shape: if the `and` over the whole array of "`|x| < +inf`" is 1, every entry is a real. -/
theorem all_real {s : Shape} {axes : List (Fin s.rank)} (X : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf X) (broadcastInDim s ![] hb (constant S_ .f32 0x7F800000#32)))
        (constantI S_ 1 1#1) hr hu j = 1#1) : ∀ i, IsReal (X i) := fun i =>
  isReal_of_abs_lt (X i) (Host.reduce_andi_all _ _ hr hu j e i)

/-- A conjunction of two rank-zero tests that is 1 has both at 1. -/
theorem and_split (a b : IVec S_ 1) (j : S_.Idx) (h : andi a b j = 1#1) : a j = 1#1 ∧ b j = 1#1 :=
  IntOp.andi_eq_one.mp h

/-- FINITENESS FROM THE PRECONDITION: on every device, every entry of each of the thirteen float argument arrays is a real. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i))
    ∧ (∀ i, IsReal (m ((c.tc : Thread Cert.KernelIdeal.nD Cert.KernelIdeal.τ).loc Cert.KernelIdeal.main_arg12) i))
    ∧ (∀ i, IsReal (m ((c.tc : Thread Cert.KernelIdeal.nD Cert.KernelIdeal.τ).loc Cert.KernelIdeal.main_arg13) i))
    ∧ (∀ i, IsReal (m ((c.tc : Thread Cert.KernelIdeal.nD Cert.KernelIdeal.τ).loc Cert.KernelIdeal.main_arg14) i))
    ∧ (∀ i, IsReal (m ((c.tc : Thread Cert.KernelIdeal.nD Cert.KernelIdeal.τ).loc Cert.KernelIdeal.main_arg15) i)) := by
  have e := congrFun (h c) ValueIdx.ix0
  dsimp only [fn, fn_part1, fn_part2, fn_part3] at e
  obtain ⟨h12, e15⟩ := and_split _ _ _ e
  obtain ⟨h11, e14⟩ := and_split _ _ _ h12
  obtain ⟨h10, e13⟩ := and_split _ _ _ h11
  obtain ⟨h9, e12⟩ := and_split _ _ _ h10
  obtain ⟨h8, e11⟩ := and_split _ _ _ h9
  obtain ⟨h7, e10⟩ := and_split _ _ _ h8
  obtain ⟨h6, e9⟩ := and_split _ _ _ h7
  obtain ⟨h5, e8⟩ := and_split _ _ _ h6
  obtain ⟨h4, e7⟩ := and_split _ _ _ h5
  obtain ⟨h3, e6⟩ := and_split _ _ _ h4
  obtain ⟨h2, e5⟩ := and_split _ _ _ h3
  obtain ⟨e0, e4⟩ := and_split _ _ _ h2
  exact ⟨all_real _ _ _ _ _ e0,
    all_real _ _ _ _ _ e4,
    all_real _ _ _ _ _ e5,
    all_real _ _ _ _ _ e6,
    all_real _ _ _ _ _ e7,
    all_real _ _ _ _ _ e8,
    all_real _ _ _ _ _ e9,
    all_real _ _ _ _ _ e10,
    all_real _ _ _ _ _ e11,
    all_real _ _ _ _ _ e12,
    all_real _ _ _ _ _ e13,
    all_real _ _ _ _ _ e14,
    all_real _ _ _ _ _ e15⟩

end Cert.Finite

end
-- ==== Proof.Bridge.lean ====
/-
  THE BRIDGE: from memories that agree on the sixteen argument arrays, all float arguments finite, the reference
  program's result — two rounds of (neighbour mean over two edge types + self term, batch normalisation over the
  100000 nodes), then a dot product of gathered rows per labelled edge — is, element by element, what the kernel
  program's last host stretch leaves in its result array: the kernel forms each self term with the SUM of the two
  self weight matrices (distributivity), multiplies by the reciprocal of the clamped in-degree where the reference
  divides by it, normalises in the affine form `h · s + (b - μ · s)` with the variance as `E[h²] - μ²` floored at zero,
  and sums each labelled edge's products tile by tile. Each law needs real entries, so realness is carried from the
  arguments (the precondition) through every stage.
-/
import proofs.«151220_j103079215236_2_alg».proof.Defs
import proofs.«151220_j103079215236_2_alg».proof.Proof.RefFold
import proofs.«151220_j103079215236_2_alg».proof.Proof.KernelFold3
import proofs.«151220_j103079215236_2_alg».proof.Proof.ConvLaw
import proofs.«151220_j103079215236_2_alg».proof.Proof.NormLaw
import proofs.«151220_j103079215236_2_alg».proof.Proof.ScoreLaw
import proofs.«151220_j103079215236_2_alg».proof.Proof.Finite

set_option maxRecDepth 16384

noncomputable section

namespace Cert.Bridge

open Idealize.ShloMosaic Idealize.ShloMosaic.TcCoe Idealize.SL.Sem
open Cert.Stages Cert.Algebra Cert.KernelIdeal.FoldValue

/-- The reference's result is the kernel program's, on every device. -/
theorem result_eq [hKernelIdeal : Cert.KernelIdeal.Facts] [hReferenceIdeal : Cert.ReferenceIdeal.Facts]
    [hPre_finite_inputs : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (c : Dev Cert.KernelIdeal.nD) :
    StableHlo.after (Cert.ReferenceIdeal.Value.ops (F := Ideal)) (StableHlo.launchContents m' c) (Proc.devRef .tc Cert.ReferenceIdeal.main_v180)
      = Cert.KernelIdeal.Gen.W17 (F := Ideal) m ρ c (Proc.devRef .tc Cert.KernelIdeal.main_v150) := by
  obtain ⟨a0, a1, a2, a3, a4, a5, a6, a7, a8, a9, a10, a11, a12, a13, a14, a15⟩ := hagree c
  obtain ⟨r0, r4, r5, r6, r7, r8, r9, r10, r11, r12, r13, r14, r15⟩ := Cert.Finite.real_of_pre m hpre c
  rw [Cert.RefFold.ref_result, W17_out]
  -- the reference's arguments are the kernel program's
  have b0 : StableHlo.launchContents m' c (Proc.devRef .tc Cert.ReferenceIdeal.main_arg0) = (Cert.KernelIdeal.Gen.W0 m ρ c (Proc.devRef .tc Cert.KernelIdeal.main_arg0)) := a0
  have b1 : StableHlo.launchContents m' c (Proc.devRef .tc Cert.ReferenceIdeal.main_arg1) = (Cert.KernelIdeal.Gen.W0 m ρ c (Proc.devRef .tc Cert.KernelIdeal.main_arg1)) := a1
  have b2 : StableHlo.launchContents m' c (Proc.devRef .tc Cert.ReferenceIdeal.main_arg2) = (Cert.KernelIdeal.Gen.W0 m ρ c (Proc.devRef .tc Cert.KernelIdeal.main_arg2)) := a2
  have b3 : StableHlo.launchContents m' c (Proc.devRef .tc Cert.ReferenceIdeal.main_arg3) = (Cert.KernelIdeal.Gen.W0 m ρ c (Proc.devRef .tc Cert.KernelIdeal.main_arg3)) := a3
  have b4 : StableHlo.launchContents m' c (Proc.devRef .tc Cert.ReferenceIdeal.main_arg4) = (Cert.KernelIdeal.Gen.W0 m ρ c (Proc.devRef .tc Cert.KernelIdeal.main_arg4)) := a4
  have b5 : StableHlo.launchContents m' c (Proc.devRef .tc Cert.ReferenceIdeal.main_arg5) = (Cert.KernelIdeal.Gen.W0 m ρ c (Proc.devRef .tc Cert.KernelIdeal.main_arg5)) := a5
  have b6 : StableHlo.launchContents m' c (Proc.devRef .tc Cert.ReferenceIdeal.main_arg6) = (Cert.KernelIdeal.Gen.W0 m ρ c (Proc.devRef .tc Cert.KernelIdeal.main_arg6)) := a6
  have b7 : StableHlo.launchContents m' c (Proc.devRef .tc Cert.ReferenceIdeal.main_arg7) = (Cert.KernelIdeal.Gen.W0 m ρ c (Proc.devRef .tc Cert.KernelIdeal.main_arg7)) := a7
  have b8 : StableHlo.launchContents m' c (Proc.devRef .tc Cert.ReferenceIdeal.main_arg8) = (Cert.KernelIdeal.Gen.W0 m ρ c (Proc.devRef .tc Cert.KernelIdeal.main_arg8)) := a8
  have b9 : StableHlo.launchContents m' c (Proc.devRef .tc Cert.ReferenceIdeal.main_arg9) = (Cert.KernelIdeal.Gen.W0 m ρ c (Proc.devRef .tc Cert.KernelIdeal.main_arg9)) := a9
  have b10 : StableHlo.launchContents m' c (Proc.devRef .tc Cert.ReferenceIdeal.main_arg10) = (Cert.KernelIdeal.Gen.W0 m ρ c (Proc.devRef .tc Cert.KernelIdeal.main_arg10)) := a10
  have b11 : StableHlo.launchContents m' c (Proc.devRef .tc Cert.ReferenceIdeal.main_arg11) = (Cert.KernelIdeal.Gen.W0 m ρ c (Proc.devRef .tc Cert.KernelIdeal.main_arg11)) := a11
  have b12 : StableHlo.launchContents m' c (Proc.devRef .tc Cert.ReferenceIdeal.main_arg12) = (Cert.KernelIdeal.Gen.W0 m ρ c (Proc.devRef .tc Cert.KernelIdeal.main_arg12)) := a12
  have b13 : StableHlo.launchContents m' c (Proc.devRef .tc Cert.ReferenceIdeal.main_arg13) = (Cert.KernelIdeal.Gen.W0 m ρ c (Proc.devRef .tc Cert.KernelIdeal.main_arg13)) := a13
  have b14 : StableHlo.launchContents m' c (Proc.devRef .tc Cert.ReferenceIdeal.main_arg14) = (Cert.KernelIdeal.Gen.W0 m ρ c (Proc.devRef .tc Cert.KernelIdeal.main_arg14)) := a14
  have b15 : StableHlo.launchContents m' c (Proc.devRef .tc Cert.ReferenceIdeal.main_arg15) = (Cert.KernelIdeal.Gen.W0 m ρ c (Proc.devRef .tc Cert.KernelIdeal.main_arg15)) := a15
  rw [b0, b1, b2, b3, b4, b5, b6, b7, b8, b9, b10, b11, b12, b13, b14, b15]
  -- first layer: the sum over the edge types, its normalisation, the rectifier
  have c1 : convR (Cert.KernelIdeal.Gen.W0 m ρ c (Proc.devRef .tc Cert.KernelIdeal.main_arg0)) (Cert.KernelIdeal.Gen.W0 m ρ c (Proc.devRef .tc Cert.KernelIdeal.main_arg1)) (Cert.KernelIdeal.Gen.W0 m ρ c (Proc.devRef .tc Cert.KernelIdeal.main_arg2)) (Cert.KernelIdeal.Gen.W0 m ρ c (Proc.devRef .tc Cert.KernelIdeal.main_arg4)) (Cert.KernelIdeal.Gen.W0 m ρ c (Proc.devRef .tc Cert.KernelIdeal.main_arg5)) (Cert.KernelIdeal.Gen.W0 m ρ c (Proc.devRef .tc Cert.KernelIdeal.main_arg6)) (Cert.KernelIdeal.Gen.W0 m ρ c (Proc.devRef .tc Cert.KernelIdeal.main_arg7)) = H1K m ρ c :=
    Cert.ConvLaw.conv_eq _ _ _ _ _ _ _ r0 r4 r5 r6 r7
  have c1r : ∀ i, IsReal (H1K m ρ c i) := Cert.ConvLaw.conv_real _ _ _ _ _ _ _ r0 r4 r5 r6 r7
  have n1 : bnR (H1K m ρ c) (Cert.KernelIdeal.Gen.W0 m ρ c (Proc.devRef .tc Cert.KernelIdeal.main_arg12)) (Cert.KernelIdeal.Gen.W0 m ρ c (Proc.devRef .tc Cert.KernelIdeal.main_arg13)) = normK (H1K m ρ c) (Cert.KernelIdeal.Gen.W0 m ρ c (Proc.devRef .tc Cert.KernelIdeal.main_arg12)) (Cert.KernelIdeal.Gen.W0 m ρ c (Proc.devRef .tc Cert.KernelIdeal.main_arg13)) :=
    Cert.NormLaw.norm_eq _ _ _ c1r r12 r13
  have n1r : ∀ i, IsReal (bnR (H1K m ρ c) (Cert.KernelIdeal.Gen.W0 m ρ c (Proc.devRef .tc Cert.KernelIdeal.main_arg12)) (Cert.KernelIdeal.Gen.W0 m ρ c (Proc.devRef .tc Cert.KernelIdeal.main_arg13)) i) := Cert.NormLaw.norm_real _ _ _ c1r r12 r13
  have l1 : leakyR (bnR (H1K m ρ c) (Cert.KernelIdeal.Gen.W0 m ρ c (Proc.devRef .tc Cert.KernelIdeal.main_arg12)) (Cert.KernelIdeal.Gen.W0 m ρ c (Proc.devRef .tc Cert.KernelIdeal.main_arg13))) = h1K m ρ c := by
    rw [Cert.NormLaw.leaky_eq, n1]; rfl
  have l1r : ∀ i, IsReal (h1K m ρ c i) := by
    rw [← l1]; exact Cert.NormLaw.leaky_real _ n1r
  -- second layer
  have c2 : convR (h1K m ρ c) (Cert.KernelIdeal.Gen.W0 m ρ c (Proc.devRef .tc Cert.KernelIdeal.main_arg1)) (Cert.KernelIdeal.Gen.W0 m ρ c (Proc.devRef .tc Cert.KernelIdeal.main_arg2)) (Cert.KernelIdeal.Gen.W0 m ρ c (Proc.devRef .tc Cert.KernelIdeal.main_arg8)) (Cert.KernelIdeal.Gen.W0 m ρ c (Proc.devRef .tc Cert.KernelIdeal.main_arg9)) (Cert.KernelIdeal.Gen.W0 m ρ c (Proc.devRef .tc Cert.KernelIdeal.main_arg10)) (Cert.KernelIdeal.Gen.W0 m ρ c (Proc.devRef .tc Cert.KernelIdeal.main_arg11)) = H2K m ρ c :=
    Cert.ConvLaw.conv_eq _ _ _ _ _ _ _ l1r r8 r9 r10 r11
  have c2r : ∀ i, IsReal (H2K m ρ c i) := Cert.ConvLaw.conv_real _ _ _ _ _ _ _ l1r r8 r9 r10 r11
  have n2 : bnR (H2K m ρ c) (Cert.KernelIdeal.Gen.W0 m ρ c (Proc.devRef .tc Cert.KernelIdeal.main_arg14)) (Cert.KernelIdeal.Gen.W0 m ρ c (Proc.devRef .tc Cert.KernelIdeal.main_arg15)) = h2K m ρ c :=
    Cert.NormLaw.norm_eq _ _ _ c2r r14 r15
  rw [c1, l1, c2, n2]
  -- the scores
  exact Cert.ScoreLaw.score_core (endpoint0 (h2K m ρ c) (Cert.KernelIdeal.Gen.W0 m ρ c (Proc.devRef .tc Cert.KernelIdeal.main_arg3))) (endpoint1 (h2K m ρ c) (Cert.KernelIdeal.Gen.W0 m ρ c (Proc.devRef .tc Cert.KernelIdeal.main_arg3)))

end Cert.Bridge

end
-- ==== Proof.lean ====
/-
  The certificate: the kernel program (a two-layer heterogeneous graph network — per layer one tiled matrix product
  giving the self term and the two neighbour terms, a neighbour mean by gather and scatter-add on the host, a
  batch-normalisation reduction and an apply kernel — then a per-edge dot product kernel) against its jnp reference,
  over the extended reals. The two kernel programs' frames are the generated ones; the reference's is its run (every
  weakly fair execution of its host operations terminates) with the result dropped; the idealisation rewrote nothing, so `preserves` is trivial; `algebraic` pairs the kernel
  program's run with its result named (Proof/KernelRun.lean) and the reference's run (Proof/RefRun.lean), joined by
  Proof/Bridge.lean.
-/
import proofs.«151220_j103079215236_2_alg».proof.Defs
import proofs.«151220_j103079215236_2_alg».proof.Proof.Gen.Kernel
import proofs.«151220_j103079215236_2_alg».proof.Proof.Gen.Kernel.Frame
import proofs.«151220_j103079215236_2_alg».proof.Proof.Gen.KernelIdeal
import proofs.«151220_j103079215236_2_alg».proof.Proof.Gen.KernelIdeal.Frame
import proofs.«151220_j103079215236_2_alg».proof.Proof.Gen.ReferenceIdeal
import proofs.«151220_j103079215236_2_alg».proof.Proof.RefRun
import proofs.«151220_j103079215236_2_alg».proof.Proof.Gen.Pre_finite_inputs
import proofs.«151220_j103079215236_2_alg».proof.Proof.KernelRun
import proofs.«151220_j103079215236_2_alg».proof.Proof.Bridge
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel program's result array is the reference's (the bridge), the arguments unchanged. -/
theorem algebraic : Cert.algebraic_KernelIdeal_ReferenceIdeal := by
  intro m ρ m' ρ' hpre hagree
  refine ⟨fun c => Cert.KernelIdeal.Gen.W17 (F := Ideal) m ρ c (Proc.devRef .tc Cert.KernelIdeal.main_v150),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m ρ m' hpre hagree c

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
